-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x20000x64 : Shape := ⟨3, ![4, 20000, 64]⟩
abbrev S4x20000x2 : Shape := ⟨3, ![4, 20000, 2]⟩
abbrev S4x20000x16 : Shape := ⟨3, ![4, 20000, 16]⟩
abbrev S4x20000 : Shape := ⟨2, ![4, 20000]⟩
abbrev S130x64 : Shape := ⟨2, ![130, 64]⟩
abbrev S64 : Shape := ⟨1, ![64]⟩
abbrev S128x64 : Shape := ⟨2, ![128, 64]⟩
abbrev S_ : Shape := ⟨0, ![]⟩

class Facts : Prop where
  bcast_S_S4x20000x64 : S_.BroadcastsInDim S4x20000x64 (![] : Fin 0 → Fin S4x20000x64.rank)
  reducesTo_S4x20000x64_S_d0_1_2 : S4x20000x64.ReducesTo [0, 1, 2] S_
  h_S_ : 0 < S_.numel
  bcast_S_S4x20000x2 : S_.BroadcastsInDim S4x20000x2 (![] : Fin 0 → Fin S4x20000x2.rank)
  reducesTo_S4x20000x2_S_d0_1_2 : S4x20000x2.ReducesTo [0, 1, 2] S_
  bcast_S_S4x20000 : S_.BroadcastsInDim S4x20000 (![] : Fin 0 → Fin S4x20000.rank)
  reducesTo_S4x20000_S_d0_1 : S4x20000.ReducesTo [0, 1] S_
  bcast_S_S130x64 : S_.BroadcastsInDim S130x64 (![] : Fin 0 → Fin S130x64.rank)
  reducesTo_S130x64_S_d0_1 : S130x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_

variable [Facts]

def fn_part2 {F : FTy → Type} [FloatOps F] (main_arg8 : FVec F S64 .f32) (main_arg9 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S64 .f32) (main_arg6 : FVec F S128x64 .f32) (main_arg7 : FVec F S64 .f32) (main_arg8 : FVec F S64 .f32) (main_arg9 : FVec F S64 .f32) (main_v13 : IVec S_ 1) (main_v16 : IVec S130x64 1) : IVec S_ 1 :=
  let main_c_5 : IVec S_ 1 := constantI S_ 1 1#1
  let main_v17 : IVec S_ 1 := (fun x v => Host.reduce IntOp.andi x v reducesTo_S130x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S4x20000x64 .f32) (main_arg1 : FVec F S4x20000x2 .f32) (main_arg2 : IVec S4x20000x16 32) (main_arg3 : FVec F S4x20000 .f32) (main_arg4 : FVec F S130x64 .f32) (main_arg5 : FVec F S64 .f32) (main_arg6 : FVec F S128x64 .f32) (main_arg7 : FVec F S64 .f32) (main_arg8 : FVec F S64 .f32) (main_arg9 : FVec F S64 .f32) : IVec S_ 1 :=
  let main_v0 : FVec F S4x20000x64 .f32 := Host.absf main_arg0
  let main_cst : FVec F S_ .f32 := constant S_ .f32 0x7F800000#32
  let main_v1 : FVec F S4x20000x64 .f32 := broadcastInDim S4x20000x64 ![] bcast_S_S4x20000x64 main_cst
  let main_v2 : IVec S4x20000x64 1 := cmpf .olt main_v0 main_v1
  let main_c : IVec S_ 1 := constantI S_ 1 1#1
  let main_v3 : IVec S_ 1 := (fun x v => Host.reduce IntOp.andi x v reducesTo_S4x20000x64_S_d0_1_2 h_S_) main_v2 main_c
  let main_v4 : FVec F S4x20000x2 .f32 := Host.absf main_arg1
  let main_cst_0 : FVec F S_ .f32 := constant S_ .f32 0x7F800000#32
  let main_v5 : FVec F S4x20000x2 .f32 := broadcastInDim S4x20000x2 ![] bcast_S_S4x20000x2 main_cst_0
  let main_v6 : IVec S4x20000x2 1 := cmpf .olt main_v4 main_v5
  let main_c_1 : IVec S_ 1 := constantI S_ 1 1#1
  let main_v7 : IVec S_ 1 := (fun x v => Host.reduce IntOp.andi x v reducesTo_S4x20000x2_S_d0_1_2 h_S_) main_v6 main_c_1
  let main_v8 : IVec S_ 1 := andi main_v3 main_v7
  let main_v9 : FVec F S4x20000 .f32 := Host.absf main_arg3
  let main_cst_2 : FVec F S_ .f32 := constant S_ .f32 0x7F800000#32
  let main_v10 : FVec F S4x20000 .f32 := broadcastInDim S4x20000 ![] bcast_S_S4x20000 main_cst_2
  let main_v11 : IVec S4x20000 1 := cmpf .olt main_v9 main_v10
  let main_c_3 : IVec S_ 1 := constantI S_ 1 1#1
  let main_v12 : IVec S_ 1 := (fun x v => Host.reduce IntOp.andi x v reducesTo_S4x20000_S_d0_1 h_S_) main_v11 main_c_3
  let main_v13 : IVec S_ 1 := andi main_v8 main_v12
  let main_v14 : FVec F S130x64 .f32 := Host.absf main_arg4
  let main_cst_4 : FVec F S_ .f32 := constant S_ .f32 0x7F800000#32
  let main_v15 : FVec F S130x64 .f32 := broadcastInDim S130x64 ![] bcast_S_S130x64 main_cst_4
  let main_v16 : IVec S130x64 1 := cmpf .olt main_v14 main_v15
  fn_part1 (F := F) main_arg5 main_arg6 main_arg7 main_arg8 main_arg9 main_v13 main_v16
-- ==== Kernel.lean ====
abbrev S4x20000x64 : Shape := ⟨3, ![4, 20000, 64]⟩
abbrev S4x20000x2 : Shape := ⟨3, ![4, 20000, 2]⟩
abbrev S4x20000x16 : Shape := ⟨3, ![4, 20000, 16]⟩
abbrev S4x20000 : Shape := ⟨2, ![4, 20000]⟩
abbrev S130x64 : Shape := ⟨2, ![130, 64]⟩
abbrev S64 : Shape := ⟨1, ![64]⟩
abbrev S128x64 : Shape := ⟨2, ![128, 64]⟩
abbrev S4x320000 : Shape := ⟨2, ![4, 320000]⟩
abbrev S4x320000x1 : Shape := ⟨3, ![4, 320000, 1]⟩
abbrev S_ : Shape := ⟨0, ![]⟩
abbrev S1 : Shape := ⟨1, ![1]⟩
abbrev S1x1x1 : Shape := ⟨3, ![1, 1, 1]⟩
abbrev S4x320000x64 : Shape := ⟨3, ![4, 320000, 64]⟩
abbrev S4x20000x16x64 : Shape := ⟨4, ![4, 20000, 16, 64]⟩
abbrev S4x320000x2 : Shape := ⟨3, ![4, 320000, 2]⟩
abbrev S4x20000x16x2 : Shape := ⟨4, ![4, 20000, 16, 2]⟩
abbrev S4x20000x1x2 : Shape := ⟨4, ![4, 20000, 1, 2]⟩
abbrev S4x20000x1 : Shape := ⟨3, ![4, 20000, 1]⟩
abbrev S64x64 : Shape := ⟨2, ![64, 64]⟩
abbrev S2x64 : Shape := ⟨2, ![2, 64]⟩
abbrev S1x64 : Shape := ⟨2, ![1, 64]⟩
abbrev S1x1000x64 : Shape := ⟨3, ![1, 1000, 64]⟩
abbrev S1x1000x16x64 : Shape := ⟨4, ![1, 1000, 16, 64]⟩
abbrev S1x1000x16x2 : Shape := ⟨4, ![1, 1000, 16, 2]⟩
abbrev S1x1000x1 : Shape := ⟨3, ![1, 1000, 1]⟩
abbrev S1000x64 : Shape := ⟨2, ![1000, 64]⟩
abbrev S1000x16x64 : Shape := ⟨3, ![1000, 16, 64]⟩
abbrev S16000x64 : Shape := ⟨2, ![16000, 64]⟩
abbrev S1000x16x2 : Shape := ⟨3, ![1000, 16, 2]⟩
abbrev S16000x2 : Shape := ⟨2, ![16000, 2]⟩
abbrev S1000x1x64 : Shape := ⟨3, ![1000, 1, 64]⟩
abbrev S1x1x64 : Shape := ⟨3, ![1, 1, 64]⟩
abbrev S1000 : Shape := ⟨1, ![1000]⟩
abbrev S1000x1 : Shape := ⟨2, ![1000, 1]⟩

abbrev nBuf : Space → Nat
  | .hbm => 73
  | .vmem => 19
  | .smem => 0
  | _ => 0

abbrev bufTy : (tb : Table) → Fin (tcTables nBuf tb) → BufTy
  | .hbm, ⟨0, _⟩ => ⟨S4x20000x64, .f32⟩
  | .hbm, ⟨1, _⟩ => ⟨S4x20000x2, .f32⟩
  | .hbm, ⟨2, _⟩ => ⟨S4x20000x16, .i32⟩
  | .hbm, ⟨3, _⟩ => ⟨S4x20000, .f32⟩
  | .hbm, ⟨4, _⟩ => ⟨S130x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S4x320000, .i32⟩
  | .hbm, ⟨11, _⟩ => ⟨S4x320000x1, .i32⟩
  | .hbm, ⟨12, _⟩ => ⟨S_, .i32⟩
  | .hbm, ⟨13, _⟩ => ⟨S4x320000x1, .i32⟩
  | .hbm, ⟨14, _⟩ => ⟨S4x320000x1, .i1⟩
  | .hbm, ⟨15, _⟩ => ⟨S_, .i32⟩
  | .hbm, ⟨16, _⟩ => ⟨S4x320000x1, .i32⟩
  | .hbm, ⟨17, _⟩ => ⟨S4x320000x1, .i32⟩
  | .hbm, ⟨18, _⟩ => ⟨S4x320000x1, .i32⟩
  | .hbm, ⟨19, _⟩ => ⟨S1, .i32⟩
  | .hbm, ⟨20, _⟩ => ⟨S_, .i32⟩
  | .hbm, ⟨21, _⟩ => ⟨S4x320000x1, .i32⟩
  | .hbm, ⟨22, _⟩ => ⟨S4x320000x1, .i1⟩
  | .hbm, ⟨23, _⟩ => ⟨S1x1x1, .i32⟩
  | .hbm, ⟨24, _⟩ => ⟨S4x320000x1, .i32⟩
  | .hbm, ⟨25, _⟩ => ⟨S4x320000x1, .i1⟩
  | .hbm, ⟨26, _⟩ => ⟨S4x320000x1, .i1⟩
  | .hbm, ⟨27, _⟩ => ⟨S_, .i1⟩
  | .hbm, ⟨28, _⟩ => ⟨S4x320000, .i1⟩
  | .hbm, ⟨29, _⟩ => ⟨S4x320000x64, .f32⟩
  | .hbm, ⟨30, _⟩ => ⟨S4x320000x64, .i1⟩
  | .hbm, ⟨31, _⟩ => ⟨S_, .f32⟩
  | .hbm, ⟨32, _⟩ => ⟨S4x320000x64, .f32⟩
  | .hbm, ⟨33, _⟩ => ⟨S4x320000x64, .f32⟩
  | .hbm, ⟨34, _⟩ => ⟨S4x20000x16x64, .f32⟩
  | .hbm, ⟨35, _⟩ => ⟨S4x320000x1, .i32⟩
  | .hbm, ⟨36, _⟩ => ⟨S_, .i32⟩
  | .hbm, ⟨37, _⟩ => ⟨S4x320000x1, .i32⟩
  | .hbm, ⟨38, _⟩ => ⟨S4x320000x1, .i1⟩
  | .hbm, ⟨39, _⟩ => ⟨S_, .i32⟩
  | .hbm, ⟨40, _⟩ => ⟨S4x320000x1, .i32⟩
  | .hbm, ⟨41, _⟩ => ⟨S4x320000x1, .i32⟩
  | .hbm, ⟨42, _⟩ => ⟨S4x320000x1, .i32⟩
  | .hbm, ⟨43, _⟩ => ⟨S1, .i32⟩
  | .hbm, ⟨44, _⟩ => ⟨S_, .i32⟩
  | .hbm, ⟨45, _⟩ => ⟨S4x320000x1, .i32⟩
  | .hbm, ⟨46, _⟩ => ⟨S4x320000x1, .i1⟩
  | .hbm, ⟨47, _⟩ => ⟨S1x1x1, .i32⟩
  | .hbm, ⟨48, _⟩ => ⟨S4x320000x1, .i32⟩
  | .hbm, ⟨49, _⟩ => ⟨S4x320000x1, .i1⟩
  | .hbm, ⟨50, _⟩ => ⟨S4x320000x1, .i1⟩
  | .hbm, ⟨51, _⟩ => ⟨S_, .i1⟩
  | .hbm, ⟨52, _⟩ => ⟨S4x320000, .i1⟩
  | .hbm, ⟨53, _⟩ => ⟨S4x320000x2, .f32⟩
  | .hbm, ⟨54, _⟩ => ⟨S4x320000x2, .i1⟩
  | .hbm, ⟨55, _⟩ => ⟨S_, .f32⟩
  | .hbm, ⟨56, _⟩ => ⟨S4x320000x2, .f32⟩
  | .hbm, ⟨57, _⟩ => ⟨S4x320000x2, .f32⟩
  | .hbm, ⟨58, _⟩ => ⟨S4x20000x16x2, .f32⟩
  | .hbm, ⟨59, _⟩ => ⟨S4x20000x1x2, .f32⟩
  | .hbm, ⟨60, _⟩ => ⟨S4x20000x16x2, .f32⟩
  | .hbm, ⟨61, _⟩ => ⟨S4x20000x16x2, .f32⟩
  | .hbm, ⟨62, _⟩ => ⟨S4x20000x1, .f32⟩
  | .hbm, ⟨63, _⟩ => ⟨S64x64, .f32⟩
  | .hbm, ⟨64, _⟩ => ⟨S64x64, .f32⟩
  | .hbm, ⟨65, _⟩ => ⟨S2x64, .f32⟩
  | .hbm, ⟨66, _⟩ => ⟨S1x64, .f32⟩
  | .hbm, ⟨67, _⟩ => ⟨S64x64, .f32⟩
  | .hbm, ⟨68, _⟩ => ⟨S64x64, .f32⟩
  | .hbm, ⟨69, _⟩ => ⟨S1x64, .f32⟩
  | .hbm, ⟨70, _⟩ => ⟨S1x64, .f32⟩
  | .hbm, ⟨71, _⟩ => ⟨S1x64, .f32⟩
  | .hbm, ⟨72, _⟩ => ⟨S4x20000x64, .f32⟩
  | .local _ .vmem, ⟨0, _⟩ => ⟨S1x1000x64, .f32⟩
  | .local _ .vmem, ⟨1, _⟩ => ⟨S1x1000x64, .f32⟩
  | .local _ .vmem, ⟨2, _⟩ => ⟨S1x1000x16x64, .f32⟩
  | .local _ .vmem, ⟨3, _⟩ => ⟨S1x1000x16x64, .f32⟩
  | .local _ .vmem, ⟨4, _⟩ => ⟨S1x1000x16x2, .f32⟩
  | .local _ .vmem, ⟨5, _⟩ => ⟨S1x1000x16x2, .f32⟩
  | .local _ .vmem, ⟨6, _⟩ => ⟨S1x1000x1, .f32⟩
  | .local _ .vmem, ⟨7, _⟩ => ⟨S1x1000x1, .f32⟩
  | .local _ .vmem, ⟨8, _⟩ => ⟨S64x64, .f32⟩
  | .local _ .vmem, ⟨9, _⟩ => ⟨S64x64, .f32⟩
  | .local _ .vmem, ⟨10, _⟩ => ⟨S2x64, .f32⟩
  | .local _ .vmem, ⟨11, _⟩ => ⟨S1x64, .f32⟩
  | .local _ .vmem, ⟨12, _⟩ => ⟨S64x64, .f32⟩
  | .local _ .vmem, ⟨13, _⟩ => ⟨S64x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x1000x64, .f32⟩
  | .local _ .vmem, ⟨18, _⟩ => ⟨S1x1000x64, .f32⟩
  | _, _ => ⟨S4x20000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_c_2 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_c_3 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_cst : Ref sig .tc := ⟨.hbm, 31, rfl⟩
abbrev main_call0_v14 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_c_2 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_c_3 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_cst : Ref sig .tc := ⟨.hbm, 55, rfl⟩
abbrev main_call1_v14 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨2, ![4, 20], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1000x16x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1000x16x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1000x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

class Facts₀ : Prop where
  shapeCasts_S4x20000x16_S4x320000 : S4x20000x16.ShapeCasts S4x320000
  bcast_S4x320000_S4x320000x1_0_1 : S4x320000.BroadcastsInDim S4x320000x1 (![0, 1] : Fin 2 → Fin S4x320000x1.rank)
  bcast_S_S4x320000x1 : S_.BroadcastsInDim S4x320000x1 (![] : Fin 0 → Fin S4x320000x1.rank)
  bcast_S1_S1x1x1_2 : S1.BroadcastsInDim S1x1x1 (![2] : Fin 1 → Fin S1x1x1.rank)
  bcast_S1x1x1_S4x320000x1_0_1_2 : S1x1x1.BroadcastsInDim S4x320000x1 (![0, 1, 2] : Fin 3 → Fin S4x320000x1.rank)
  reducesTo_S4x320000x1_S4x320000_d2 : S4x320000x1.ReducesTo [2] S4x320000
  h_S_ : 0 < S_.numel
  bcast_S4x320000_S4x320000x64_0_1 : S4x320000.BroadcastsInDim S4x320000x64 (![0, 1] : Fin 2 → Fin S4x320000x64.rank)
  bcast_S_S4x320000x64 : S_.BroadcastsInDim S4x320000x64 (![] : Fin 0 → Fin S4x320000x64.rank)
  shapeCasts_S4x320000x64_S4x20000x16x64 : S4x320000x64.ShapeCasts S4x20000x16x64
  bcast_S4x320000_S4x320000x2_0_1 : S4x320000.BroadcastsInDim S4x320000x2 (![0, 1] : Fin 2 → Fin S4x320000x2.rank)
  bcast_S_S4x320000x2 : S_.BroadcastsInDim S4x320000x2 (![] : Fin 0 → Fin S4x320000x2.rank)
  shapeCasts_S4x320000x2_S4x20000x16x2 : S4x320000x2.ShapeCasts S4x20000x16x2
  bcast_S4x20000x2_S4x20000x1x2_0_1_3 : S4x20000x2.BroadcastsInDim S4x20000x1x2 (![0, 1, 3] : Fin 3 → Fin S4x20000x1x2.rank)
  bcast_S4x20000x1x2_S4x20000x16x2_0_1_2_3 : S4x20000x1x2.BroadcastsInDim S4x20000x16x2 (![0, 1, 2, 3] : Fin 4 → Fin S4x20000x16x2.rank)
  bcast_S4x20000_S4x20000x1_0_1 : S4x20000.BroadcastsInDim S4x20000x1 (![0, 1] : Fin 2 → Fin S4x20000x1.rank)
  slices_S130x64_S64x64_0_0 : S130x64.Slices ![0, 0] S64x64
  slices_S130x64_S64x64_64_0 : S130x64.Slices ![64, 0] S64x64
  slices_S130x64_S2x64_128_0 : S130x64.Slices ![128, 0] S2x64
  shapeCasts_S64_S1x64 : S64.ShapeCasts S1x64
  slices_S128x64_S64x64_0_0 : S128x64.Slices ![0, 0] S64x64
  slices_S128x64_S64x64_64_0 : S128x64.Slices ![64, 0] S64x64
  inb_S1x1000x64_S1x1000x64_0_0_0 : ∀ a, (![0, 0, 0] : Fin 3 → Nat) a + S1x1000x64.size a ≤ S1x1000x64.size a
  h_S1x1000x64 : 0 < S1x1000x64.numel
  shapeCasts_S1x1000x64_S1000x64 : S1x1000x64.ShapeCasts S1000x64
  bitsLt_bf16_f32 : FTy.bits .bf16 < FTy.bits .f32
  inb_S1x1000x16x64_S1x1000x16x64_0_0_0_0 : ∀ a, (![0, 0, 0, 0] : Fin 4 → Nat) a + S1x1000x16x64.size a ≤ S1x1000x16x64.size a
  h_S1x1000x16x64 : 0 < S1x1000x16x64.numel
  shapeCasts_S1x1000x16x64_S1000x16x64 : S1x1000x16x64.ShapeCasts S1000x16x64
  shapeCasts_S1000x16x64_S16000x64 : S1000x16x64.ShapeCasts S16000x64
  inb_S1x1000x16x2_S1x1000x16x2_0_0_0_0 : ∀ a, (![0, 0, 0, 0] : Fin 4 → Nat) a + S1x1000x16x2.size a ≤ S1x1000x16x2.size a
  h_S1x1000x16x2 : 0 < S1x1000x16x2.numel
  shapeCasts_S1x1000x16x2_S1000x16x2 : S1x1000x16x2.ShapeCasts S1000x16x2
  shapeCasts_S1000x16x2_S16000x2 : S1000x16x2.ShapeCasts S16000x2
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S2x64_S2x64_0_0 : ∀ a, (![0, 0] : Fin 2 → Nat) a + S2x64.size a ≤ S2x64.size a
  h_S2x64 : 0 < S2x64.numel
  shapeCasts_S2x64_S2x64 : S2x64.ShapeCasts S2x64
  shapeCasts_S16000x64_S1000x16x64 : S16000x64.ShapeCasts S1000x16x64
  shapeCasts_S1000x64_S1000x1x64 : S1000x64.ShapeCasts S1000x1x64
  broadcasts_S1000x1x64_S1000x16x64 : S1000x1x64.Broadcasts S1000x16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  broadcasts_S1x1x64_S1000x16x64 : S1x1x64.Broadcasts S1000x16x64
  reduces_S1000x16x64_S1000x64 : S1000x16x64.Reduces [1] S1000x64
  broadcasts_S1x64_S1000x64 : S1x64.Broadcasts S1000x64
  reduces_S1000x64_S1000 : S1000x64.Reduces [1] S1000
  shapeCasts_S1000_S1000x1 : S1000.ShapeCasts S1000x1
  broadcasts_S1000x1_S1000x64 : S1000x1.Broadcasts S1000x64
  inb_S1x1000x1_S1x1000x1_0_0_0 : ∀ a, (![0, 0, 0] : Fin 3 → Nat) a + S1x1000x1.size a ≤ S1x1000x1.size a
  h_S1x1000x1 : 0 < S1x1000x1.numel
  shapeCasts_S1x1000x1_S1000x1 : S1x1000x1.ShapeCasts S1000x1
  shapeCasts_S1000x64_S1x1000x64 : S1000x64.ShapeCasts S1x1000x64
  gather_S4x20000x64_S4x320000x1_S4x320000x64_2_1_0_0_1_2_1164_wf : GatherDims.WF S4x20000x64 S4x320000x1 S4x320000x64 [2] [1] [0] [1] [0] 2 ![1, 1, 64]
  gather_S4x20000x2_S4x320000x1_S4x320000x2_2_1_0_0_1_2_112_wf : GatherDims.WF S4x20000x2 S4x320000x1 S4x320000x2 [2] [1] [0] [1] [0] 2 ![1, 1, 2]
  dot_S1000x64_S64x64_S1000x64_1_0_0_1_n_n_wf : DotDims.WF S1000x64 S64x64 S1000x64 [1] [0] [0] [1] [] []
  dot_S16000x64_S64x64_S16000x64_1_0_0_1_n_n_wf : DotDims.WF S16000x64 S64x64 S16000x64 [1] [0] [0] [1] [] []
  dot_S16000x2_S2x64_S16000x64_1_0_0_1_n_n_wf : DotDims.WF S16000x2 S2x64 S16000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1000x64.size a ≤ S4x20000x64.size a
  hwx0_0 : ∀ i : grid0.Coords, EltTy.bits .f32 = 32 ∨ (Rect.block (s := S4x20000x64) S1x1000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1000x16x64.size a ≤ S4x20000x16x64.size a
  hwx0_1 : ∀ i : grid0.Coords, EltTy.bits .f32 = 32 ∨ (Rect.block (s := S4x20000x16x64) S1x1000x16x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1000x16x2.size a ≤ S4x20000x16x2.size a
  hwx0_2 : ∀ i : grid0.Coords, EltTy.bits .f32 = 32 ∨ (Rect.block (s := S4x20000x16x2) S1x1000x16x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1000x1.size a ≤ S4x20000x1.size a
  hwx0_3 : ∀ i : grid0.Coords, EltTy.bits .f32 = 32 ∨ (Rect.block (s := S4x20000x1) S1x1000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x64.size a ≤ S2x64.size a
  hwx0_6 : ∀ i : grid0.Coords, EltTy.bits .f32 = 32 ∨ (Rect.block (s := S2x64) S2x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x1000x64.size a ≤ S4x20000x64.size a
  hwx0_13 : ∀ i : grid0.Coords, EltTy.bits .f32 = 32 ∨ (Rect.block (s := S4x20000x64) S1x1000x64.size (cc0_transform_13 i) (hinb0_13 i)).WholeWords (EltTy.packing .f32)

variable [Facts₀]

def gather_S4x20000x64_S4x320000x1_S4x320000x64_2_1_0_0_1_2_1164 : GatherDims S4x20000x64 S4x320000x1 S4x320000x64 where
  offsetDims := [2]
  collapsedSliceDims := [1]
  operandBatchingDims := [0]
  startIndicesBatchingDims := [0]
  startIndexMap := [1]
  indexVectorDim := 2
  sliceSizes := ![1, 1, 64]
  wf := gather_S4x20000x64_S4x320000x1_S4x320000x64_2_1_0_0_1_2_1164_wf
def gather_S4x20000x2_S4x320000x1_S4x320000x2_2_1_0_0_1_2_112 : GatherDims S4x20000x2 S4x320000x1 S4x320000x2 where
  offsetDims := [2]
  collapsedSliceDims := [1]
  operandBatchingDims := [0]
  startIndicesBatchingDims := [0]
  startIndexMap := [1]
  indexVectorDim := 2
  sliceSizes := ![1, 1, 2]
  wf := gather_S4x20000x2_S4x320000x1_S4x320000x2_2_1_0_0_1_2_112_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def dot_S16000x2_S2x64_S16000x64_1_0_0_1_n_n : DotDims S16000x2 S2x64 S16000x64 where
  lhsContracting := [1]
  rhsContracting := [0]
  lhsNonContracting := [0]
  rhsNonContracting := [1]
  lhsBatch := []
  rhsBatch := []
  wf := dot_S16000x2_S2x64_S16000x64_1_0_0_1_n_n_wf

abbrev win0_0 : Pipeline.Window sig grid0 :=
  Pipeline.Window.ofSpec (Memref.whole main_arg0) S1x1000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1000x16x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1000x16x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S2x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v18) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v19) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v20) S1x1000x64.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S4x20000x64 : Shape := ⟨3, ![4, 20000, 64]⟩
abbrev S4x20000x2 : Shape := ⟨3, ![4, 20000, 2]⟩
abbrev S4x20000x16 : Shape := ⟨3, ![4, 20000, 16]⟩
abbrev S4x20000 : Shape := ⟨2, ![4, 20000]⟩
abbrev S130x64 : Shape := ⟨2, ![130, 64]⟩
abbrev S64 : Shape := ⟨1, ![64]⟩
abbrev S128x64 : Shape := ⟨2, ![128, 64]⟩
abbrev S4x320000 : Shape := ⟨2, ![4, 320000]⟩
abbrev S4x320000x1 : Shape := ⟨3, ![4, 320000, 1]⟩
abbrev S_ : Shape := ⟨0, ![]⟩
abbrev S1 : Shape := ⟨1, ![1]⟩
abbrev S1x1x1 : Shape := ⟨3, ![1, 1, 1]⟩
abbrev S4x320000x64 : Shape := ⟨3, ![4, 320000, 64]⟩
abbrev S4x20000x16x64 : Shape := ⟨4, ![4, 20000, 16, 64]⟩
abbrev S4x320000x2 : Shape := ⟨3, ![4, 320000, 2]⟩
abbrev S4x20000x16x2 : Shape := ⟨4, ![4, 20000, 16, 2]⟩
abbrev S4x20000x1x2 : Shape := ⟨4, ![4, 20000, 1, 2]⟩
abbrev S64x64 : Shape := ⟨2, ![64, 64]⟩
abbrev S2x64 : Shape := ⟨2, ![2, 64]⟩
abbrev S4x20000x1x64 : Shape := ⟨4, ![4, 20000, 1, 64]⟩
abbrev S1x1x1x64 : Shape := ⟨4, ![1, 1, 1, 64]⟩
abbrev S1x1x64 : Shape := ⟨3, ![1, 1, 64]⟩
abbrev S4x20000x1 : Shape := ⟨3, ![4, 20000, 1]⟩

abbrev nBuf : Space → Nat
  | .hbm => 126
  | .vmem => 0
  | .smem => 0
  | _ => 0

abbrev bufTy : (tb : Table) → Fin (tcTables nBuf tb) → BufTy
  | .hbm, ⟨0, _⟩ => ⟨S4x20000x64, .f32⟩
  | .hbm, ⟨1, _⟩ => ⟨S4x20000x2, .f32⟩
  | .hbm, ⟨2, _⟩ => ⟨S4x20000x16, .i32⟩
  | .hbm, ⟨3, _⟩ => ⟨S4x20000, .f32⟩
  | .hbm, ⟨4, _⟩ => ⟨S130x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S4x320000, .i32⟩
  | .hbm, ⟨11, _⟩ => ⟨S4x320000x1, .i32⟩
  | .hbm, ⟨12, _⟩ => ⟨S_, .i32⟩
  | .hbm, ⟨13, _⟩ => ⟨S4x320000x1, .i32⟩
  | .hbm, ⟨14, _⟩ => ⟨S4x320000x1, .i1⟩
  | .hbm, ⟨15, _⟩ => ⟨S_, .i32⟩
  | .hbm, ⟨16, _⟩ => ⟨S4x320000x1, .i32⟩
  | .hbm, ⟨17, _⟩ => ⟨S4x320000x1, .i32⟩
  | .hbm, ⟨18, _⟩ => ⟨S4x320000x1, .i32⟩
  | .hbm, ⟨19, _⟩ => ⟨S1, .i32⟩
  | .hbm, ⟨20, _⟩ => ⟨S_, .i32⟩
  | .hbm, ⟨21, _⟩ => ⟨S4x320000x1, .i32⟩
  | .hbm, ⟨22, _⟩ => ⟨S4x320000x1, .i1⟩
  | .hbm, ⟨23, _⟩ => ⟨S1x1x1, .i32⟩
  | .hbm, ⟨24, _⟩ => ⟨S4x320000x1, .i32⟩
  | .hbm, ⟨25, _⟩ => ⟨S4x320000x1, .i1⟩
  | .hbm, ⟨26, _⟩ => ⟨S4x320000x1, .i1⟩
  | .hbm, ⟨27, _⟩ => ⟨S_, .i1⟩
  | .hbm, ⟨28, _⟩ => ⟨S4x320000, .i1⟩
  | .hbm, ⟨29, _⟩ => ⟨S4x320000x64, .f32⟩
  | .hbm, ⟨30, _⟩ => ⟨S4x320000x64, .i1⟩
  | .hbm, ⟨31, _⟩ => ⟨S_, .f32⟩
  | .hbm, ⟨32, _⟩ => ⟨S4x320000x64, .f32⟩
  | .hbm, ⟨33, _⟩ => ⟨S4x320000x64, .f32⟩
  | .hbm, ⟨34, _⟩ => ⟨S4x20000x16x64, .f32⟩
  | .hbm, ⟨35, _⟩ => ⟨S4x320000x1, .i32⟩
  | .hbm, ⟨36, _⟩ => ⟨S_, .i32⟩
  | .hbm, ⟨37, _⟩ => ⟨S4x320000x1, .i32⟩
  | .hbm, ⟨38, _⟩ => ⟨S4x320000x1, .i1⟩
  | .hbm, ⟨39, _⟩ => ⟨S_, .i32⟩
  | .hbm, ⟨40, _⟩ => ⟨S4x320000x1, .i32⟩
  | .hbm, ⟨41, _⟩ => ⟨S4x320000x1, .i32⟩
  | .hbm, ⟨42, _⟩ => ⟨S4x320000x1, .i32⟩
  | .hbm, ⟨43, _⟩ => ⟨S1, .i32⟩
  | .hbm, ⟨44, _⟩ => ⟨S_, .i32⟩
  | .hbm, ⟨45, _⟩ => ⟨S4x320000x1, .i32⟩
  | .hbm, ⟨46, _⟩ => ⟨S4x320000x1, .i1⟩
  | .hbm, ⟨47, _⟩ => ⟨S1x1x1, .i32⟩
  | .hbm, ⟨48, _⟩ => ⟨S4x320000x1, .i32⟩
  | .hbm, ⟨49, _⟩ => ⟨S4x320000x1, .i1⟩
  | .hbm, ⟨50, _⟩ => ⟨S4x320000x1, .i1⟩
  | .hbm, ⟨51, _⟩ => ⟨S_, .i1⟩
  | .hbm, ⟨52, _⟩ => ⟨S4x320000, .i1⟩
  | .hbm, ⟨53, _⟩ => ⟨S4x320000x2, .f32⟩
  | .hbm, ⟨54, _⟩ => ⟨S4x320000x2, .i1⟩
  | .hbm, ⟨55, _⟩ => ⟨S_, .f32⟩
  | .hbm, ⟨56, _⟩ => ⟨S4x320000x2, .f32⟩
  | .hbm, ⟨57, _⟩ => ⟨S4x320000x2, .f32⟩
  | .hbm, ⟨58, _⟩ => ⟨S4x20000x16x2, .f32⟩
  | .hbm, ⟨59, _⟩ => ⟨S4x20000x1x2, .f32⟩
  | .hbm, ⟨60, _⟩ => ⟨S4x20000x16x2, .f32⟩
  | .hbm, ⟨61, _⟩ => ⟨S4x20000x16x2, .f32⟩
  | .hbm, ⟨62, _⟩ => ⟨S64x64, .f32⟩
  | .hbm, ⟨63, _⟩ => ⟨S64x64, .f32⟩
  | .hbm, ⟨64, _⟩ => ⟨S2x64, .f32⟩
  | .hbm, ⟨65, _⟩ => ⟨S4x20000x64, .f32⟩
  | .hbm, ⟨66, _⟩ => ⟨S4x20000x1x64, .f32⟩
  | .hbm, ⟨67, _⟩ => ⟨S4x20000x16x64, .f32⟩
  | .hbm, ⟨68, _⟩ => ⟨S4x20000x16x64, .f32⟩
  | .hbm, ⟨69, _⟩ => ⟨S4x20000x16x64, .f32⟩
  | .hbm, ⟨70, _⟩ => ⟨S4x20000x16x64, .f32⟩
  | .hbm, ⟨71, _⟩ => ⟨S4x20000x16x64, .f32⟩
  | .hbm, ⟨72, _⟩ => ⟨S1x1x1x64, .f32⟩
  | .hbm, ⟨73, _⟩ => ⟨S4x20000x16x64, .f32⟩
  | .hbm, ⟨74, _⟩ => ⟨S4x20000x16x64, .f32⟩
  | .hbm, ⟨75, _⟩ => ⟨S_, .f32⟩
  | .hbm, ⟨76, _⟩ => ⟨S4x20000x16x64, .f32⟩
  | .hbm, ⟨77, _⟩ => ⟨S4x20000x16x64, .f32⟩
  | .hbm, ⟨78, _⟩ => ⟨S_, .f32⟩
  | .hbm, ⟨79, _⟩ => ⟨S4x20000x64, .f32⟩
  | .hbm, ⟨80, _⟩ => ⟨S_, .f32⟩
  | .hbm, ⟨81, _⟩ => ⟨S4x20000x64, .f32⟩
  | .hbm, ⟨82, _⟩ => ⟨S4x20000x64, .f32⟩
  | .hbm, ⟨83, _⟩ => ⟨S64x64, .f32⟩
  | .hbm, ⟨84, _⟩ => ⟨S64x64, .f32⟩
  | .hbm, ⟨85, _⟩ => ⟨S4x20000x64, .f32⟩
  | .hbm, ⟨86, _⟩ => ⟨S4x20000x64, .f32⟩
  | .hbm, ⟨87, _⟩ => ⟨S4x20000x64, .f32⟩
  | .hbm, ⟨88, _⟩ => ⟨S1x1x64, .f32⟩
  | .hbm, ⟨89, _⟩ => ⟨S4x20000x64, .f32⟩
  | .hbm, ⟨90, _⟩ => ⟨S4x20000x64, .f32⟩
  | .hbm, ⟨91, _⟩ => ⟨S_, .f32⟩
  | .hbm, ⟨92, _⟩ => ⟨S4x20000, .f32⟩
  | .hbm, ⟨93, _⟩ => ⟨S4x20000x1, .f32⟩
  | .hbm, ⟨94, _⟩ => ⟨S_, .f32⟩
  | .hbm, ⟨95, _⟩ => ⟨S4x20000x1, .f32⟩
  | .hbm, ⟨96, _⟩ => ⟨S4x20000x1, .f32⟩
  | .hbm, ⟨97, _⟩ => ⟨S4x20000x64, .f32⟩
  | .hbm, ⟨98, _⟩ => ⟨S4x20000x64, .f32⟩
  | .hbm, ⟨99, _⟩ => ⟨S4x20000x64, .f32⟩
  | .hbm, ⟨100, _⟩ => ⟨S_, .f32⟩
  | .hbm, ⟨101, _⟩ => ⟨S4x20000, .f32⟩
  | .hbm, ⟨102, _⟩ => ⟨S4x20000x1, .f32⟩
  | .hbm, ⟨103, _⟩ => ⟨S_, .f32⟩
  | .hbm, ⟨104, _⟩ => ⟨S4x20000x1, .f32⟩
  | .hbm, ⟨105, _⟩ => ⟨S4x20000x1, .f32⟩
  | .hbm, ⟨106, _⟩ => ⟨S4x20000x64, .f32⟩
  | .hbm, ⟨107, _⟩ => ⟨S4x20000x64, .f32⟩
  | .hbm, ⟨108, _⟩ => ⟨S_, .f32⟩
  | .hbm, ⟨109, _⟩ => ⟨S4x20000x1, .f32⟩
  | .hbm, ⟨110, _⟩ => ⟨S4x20000x1, .f32⟩
  | .hbm, ⟨111, _⟩ => ⟨S4x20000x1, .f32⟩
  | .hbm, ⟨112, _⟩ => ⟨S4x20000x64, .f32⟩
  | .hbm, ⟨113, _⟩ => ⟨S4x20000x64, .f32⟩
  | .hbm, ⟨114, _⟩ => ⟨S1x1x64, .f32⟩
  | .hbm, ⟨115, _⟩ => ⟨S4x20000x64, .f32⟩
  | .hbm, ⟨116, _⟩ => ⟨S4x20000x64, .f32⟩
  | .hbm, ⟨117, _⟩ => ⟨S1x1x64, .f32⟩
  | .hbm, ⟨118, _⟩ => ⟨S4x20000x64, .f32⟩
  | .hbm, ⟨119, _⟩ => ⟨S4x20000x64, .f32⟩
  | .hbm, ⟨120, _⟩ => ⟨S_, .f32⟩
  | .hbm, ⟨121, _⟩ => ⟨S4x20000x64, .f32⟩
  | .hbm, ⟨122, _⟩ => ⟨S4x20000x64, .f32⟩
  | .hbm, ⟨123, _⟩ => ⟨S4x20000x1, .f32⟩
  | .hbm, ⟨124, _⟩ => ⟨S4x20000x64, .f32⟩
  | .hbm, ⟨125, _⟩ => ⟨S4x20000x64, .f32⟩
  | _, _ => ⟨S4x20000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_c_2 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_c_3 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_cst : Ref sig .tc := ⟨.hbm, 31, rfl⟩
abbrev main_call0_v14 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_c_2 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_c_3 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_cst : Ref sig .tc := ⟨.hbm, 55, rfl⟩
abbrev main_call1_v14 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_call2_cst : Ref sig .tc := ⟨.hbm, 75, rfl⟩
abbrev main_call2_v0 : Ref sig .tc := ⟨.hbm, 76, rfl⟩
abbrev main_v23 : Ref sig .tc := ⟨.hbm, 77, rfl⟩
abbrev main_cst : Ref sig .tc := ⟨.hbm, 78, rfl⟩
abbrev main_v24 : Ref sig .tc := ⟨.hbm, 79, rfl⟩
abbrev main_cst_0 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_cst_1 : Ref sig .tc := ⟨.hbm, 91, rfl⟩
abbrev main_v35 : Ref sig .tc := ⟨.hbm, 92, rfl⟩
abbrev main_v36 : Ref sig .tc := ⟨.hbm, 93, rfl⟩
abbrev main_cst_2 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_cst_3 : Ref sig .tc := ⟨.hbm, 100, rfl⟩
abbrev main_v42 : Ref sig .tc := ⟨.hbm, 101, rfl⟩
abbrev main_v43 : Ref sig .tc := ⟨.hbm, 102, rfl⟩
abbrev main_cst_4 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_cst_5 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_call3_cst : Ref sig .tc := ⟨.hbm, 120, rfl⟩
abbrev main_call3_v0 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩

abbrev nD : Nat := 1
abbrev τ : Topo := Topo.v7x

variable {F : FTy → Type} [FloatOps F]

class Facts₀ : Prop where
  shapeCasts_S4x20000x16_S4x320000 : S4x20000x16.ShapeCasts S4x320000
  bcast_S4x320000_S4x320000x1_0_1 : S4x320000.BroadcastsInDim S4x320000x1 (![0, 1] : Fin 2 → Fin S4x320000x1.rank)
  bcast_S_S4x320000x1 : S_.BroadcastsInDim S4x320000x1 (![] : Fin 0 → Fin S4x320000x1.rank)
  bcast_S1_S1x1x1_2 : S1.BroadcastsInDim S1x1x1 (![2] : Fin 1 → Fin S1x1x1.rank)
  bcast_S1x1x1_S4x320000x1_0_1_2 : S1x1x1.BroadcastsInDim S4x320000x1 (![0, 1, 2] : Fin 3 → Fin S4x320000x1.rank)
  reducesTo_S4x320000x1_S4x320000_d2 : S4x320000x1.ReducesTo [2] S4x320000
  h_S_ : 0 < S_.numel
  bcast_S4x320000_S4x320000x64_0_1 : S4x320000.BroadcastsInDim S4x320000x64 (![0, 1] : Fin 2 → Fin S4x320000x64.rank)
  bcast_S_S4x320000x64 : S_.BroadcastsInDim S4x320000x64 (![] : Fin 0 → Fin S4x320000x64.rank)
  shapeCasts_S4x320000x64_S4x20000x16x64 : S4x320000x64.ShapeCasts S4x20000x16x64
  bcast_S4x320000_S4x320000x2_0_1 : S4x320000.BroadcastsInDim S4x320000x2 (![0, 1] : Fin 2 → Fin S4x320000x2.rank)
  bcast_S_S4x320000x2 : S_.BroadcastsInDim S4x320000x2 (![] : Fin 0 → Fin S4x320000x2.rank)
  shapeCasts_S4x320000x2_S4x20000x16x2 : S4x320000x2.ShapeCasts S4x20000x16x2
  bcast_S4x20000x2_S4x20000x1x2_0_1_3 : S4x20000x2.BroadcastsInDim S4x20000x1x2 (![0, 1, 3] : Fin 3 → Fin S4x20000x1x2.rank)
  bcast_S4x20000x1x2_S4x20000x16x2_0_1_2_3 : S4x20000x1x2.BroadcastsInDim S4x20000x16x2 (![0, 1, 2, 3] : Fin 4 → Fin S4x20000x16x2.rank)
  slices_S130x64_S64x64_0_0 : S130x64.Slices ![0, 0] S64x64
  slices_S130x64_S64x64_64_0 : S130x64.Slices ![64, 0] S64x64
  slices_S130x64_S2x64_128_0 : S130x64.Slices ![128, 0] S2x64
  bcast_S4x20000x64_S4x20000x1x64_0_1_3 : S4x20000x64.BroadcastsInDim S4x20000x1x64 (![0, 1, 3] : Fin 3 → Fin S4x20000x1x64.rank)
  bcast_S4x20000x1x64_S4x20000x16x64_0_1_2_3 : S4x20000x1x64.BroadcastsInDim S4x20000x16x64 (![0, 1, 2, 3] : Fin 4 → Fin S4x20000x16x64.rank)
  bcast_S64_S1x1x1x64_3 : S64.BroadcastsInDim S1x1x1x64 (![3] : Fin 1 → Fin S1x1x1x64.rank)
  bcast_S1x1x1x64_S4x20000x16x64_0_1_2_3 : S1x1x1x64.BroadcastsInDim S4x20000x16x64 (![0, 1, 2, 3] : Fin 4 → Fin S4x20000x16x64.rank)
  bcast_S_S4x20000x16x64 : S_.BroadcastsInDim S4x20000x16x64 (![] : Fin 0 → Fin S4x20000x16x64.rank)
  reducesTo_S4x20000x16x64_S4x20000x64_d2 : S4x20000x16x64.ReducesTo [2] S4x20000x64
  bcast_S_S4x20000x64 : S_.BroadcastsInDim S4x20000x64 (![] : Fin 0 → Fin S4x20000x64.rank)
  slices_S128x64_S64x64_0_0 : S128x64.Slices ![0, 0] S64x64
  slices_S128x64_S64x64_64_0 : S128x64.Slices ![64, 0] S64x64
  bcast_S64_S1x1x64_2 : S64.BroadcastsInDim S1x1x64 (![2] : Fin 1 → Fin S1x1x64.rank)
  bcast_S1x1x64_S4x20000x64_0_1_2 : S1x1x64.BroadcastsInDim S4x20000x64 (![0, 1, 2] : Fin 3 → Fin S4x20000x64.rank)
  reducesTo_S4x20000x64_S4x20000_d2 : S4x20000x64.ReducesTo [2] S4x20000
  bcast_S4x20000_S4x20000x1_0_1 : S4x20000.BroadcastsInDim S4x20000x1 (![0, 1] : Fin 2 → Fin S4x20000x1.rank)
  bcast_S_S4x20000x1 : S_.BroadcastsInDim S4x20000x1 (![] : Fin 0 → Fin S4x20000x1.rank)
  bcast_S4x20000x1_S4x20000x64_0_1_2 : S4x20000x1.BroadcastsInDim S4x20000x64 (![0, 1, 2] : Fin 3 → Fin S4x20000x64.rank)
  gather_S4x20000x64_S4x320000x1_S4x320000x64_2_1_0_0_1_2_1164_wf : GatherDims.WF S4x20000x64 S4x320000x1 S4x320000x64 [2] [1] [0] [1] [0] 2 ![1, 1, 64]
  gather_S4x20000x2_S4x320000x1_S4x320000x2_2_1_0_0_1_2_112_wf : GatherDims.WF S4x20000x2 S4x320000x1 S4x320000x2 [2] [1] [0] [1] [0] 2 ![1, 1, 2]
  dot_S4x20000x64_S64x64_S4x20000x64_2_0_01_1_n_n_wf : DotDims.WF S4x20000x64 S64x64 S4x20000x64 [2] [0] [0, 1] [1] [] []
  dot_S4x20000x16x64_S64x64_S4x20000x16x64_3_0_012_1_n_n_wf : DotDims.WF S4x20000x16x64 S64x64 S4x20000x16x64 [3] [0] [0, 1, 2] [1] [] []
  dot_S4x20000x16x2_S2x64_S4x20000x16x64_3_0_012_1_n_n_wf : DotDims.WF S4x20000x16x2 S2x64 S4x20000x16x64 [3] [0] [0, 1, 2] [1] [] []

variable [Facts₀]

def gather_S4x20000x64_S4x320000x1_S4x320000x64_2_1_0_0_1_2_1164 : GatherDims S4x20000x64 S4x320000x1 S4x320000x64 where
  offsetDims := [2]
  collapsedSliceDims := [1]
  operandBatchingDims := [0]
  startIndicesBatchingDims := [0]
  startIndexMap := [1]
  indexVectorDim := 2
  sliceSizes := ![1, 1, 64]
  wf := gather_S4x20000x64_S4x320000x1_S4x320000x64_2_1_0_0_1_2_1164_wf
def gather_S4x20000x2_S4x320000x1_S4x320000x2_2_1_0_0_1_2_112 : GatherDims S4x20000x2 S4x320000x1 S4x320000x2 where
  offsetDims := [2]
  collapsedSliceDims := [1]
  operandBatchingDims := [0]
  startIndicesBatchingDims := [0]
  startIndexMap := [1]
  indexVectorDim := 2
  sliceSizes := ![1, 1, 2]
  wf := gather_S4x20000x2_S4x320000x1_S4x320000x2_2_1_0_0_1_2_112_wf
def dot_S4x20000x64_S64x64_S4x20000x64_2_0_01_1_n_n : DotDims S4x20000x64 S64x64 S4x20000x64 where
  lhsContracting := [2]
  rhsContracting := [0]
  lhsNonContracting := [0, 1]
  rhsNonContracting := [1]
  lhsBatch := []
  rhsBatch := []
  wf := dot_S4x20000x64_S64x64_S4x20000x64_2_0_01_1_n_n_wf
def dot_S4x20000x16x64_S64x64_S4x20000x16x64_3_0_012_1_n_n : DotDims S4x20000x16x64 S64x64 S4x20000x16x64 where
  lhsContracting := [3]
  rhsContracting := [0]
  lhsNonContracting := [0, 1, 2]
  rhsNonContracting := [1]
  lhsBatch := []
  rhsBatch := []
  wf := dot_S4x20000x16x64_S64x64_S4x20000x16x64_3_0_012_1_n_n_wf
def dot_S4x20000x16x2_S2x64_S4x20000x16x64_3_0_012_1_n_n : DotDims S4x20000x16x2 S2x64 S4x20000x16x64 where
  lhsContracting := [3]
  rhsContracting := [0]
  lhsNonContracting := [0, 1, 2]
  rhsNonContracting := [1]
  lhsBatch := []
  rhsBatch := []
  wf := dot_S4x20000x16x2_S2x64_S4x20000x16x64_3_0_012_1_n_n_wf

class Facts : Prop extends Facts₀ where

variable [Facts]
-- ==== Proof.Spec.lean ====
/-
  One node's update of the message-passing layer, as a function on the extended reals of the rows it depends on.

  For a node with feature row `xr`, the feature rows `nb k` and relative positions `rp k` of its sixteen neighbours:
  * the edge pre-activation towards neighbour `k`, output channel `o`, is
    `xr · Ws[:,o] + nb k · Wb[:,o] + rp k · Wr[:,o] + be o` (three plain dot products and a bias);
  * the message is the mean over the sixteen neighbours of its positive part;
  * the hidden row is `xr · Wx[:,q] + msg · Wm[:,q] + bn q`;
  * the result is the positive part of the layer-normalised hidden row (mean and variance over the 64 channels,
    reciprocal square root of variance plus epsilon, scale `gamma`, shift `beta`), times the node's mask.
  The four float constants (zero, sixteen, sixty-four, epsilon) are parameters: both programs carry the same words, and
  nothing here evaluates them.

  The one algebraic law the two programs differ by is the grouping of the three dot products in the edge
  pre-activation: addition on the extended reals is commutative and associative, with no finiteness needed.
-/
import Idealize.ShloMosaic.PureOps.Ideal

noncomputable section

open scoped BigOperators

namespace Cert.MP

open Idealize.ShloMosaic

variable (z c16 c64 eps : EReal)

/-- The edge pre-activation towards one neighbour: self term, neighbour term, relative-position term, bias. -/
def edge (xr nb : Fin 64 → EReal) (rp : Fin 2 → EReal) (Ws Wb : Fin 64 → Fin 64 → EReal) (Wr : Fin 2 → Fin 64 → EReal)
    (be : Fin 64 → EReal) (o : Fin 64) : EReal :=
  (∑ d, xr d * Ws d o) + (∑ d, nb d * Wb d o) + (∑ e, rp e * Wr e o) + be o

/-- Neighbour term first, then relative position, then the self term: the same sum. -/
theorem edge_regroup (S B R e : EReal) : B + R + S + e = S + B + R + e := by
  rw [add_comm (B + R) S, ← add_assoc]

/-- The message: the mean over the sixteen neighbours of the positive part of the edge pre-activation. -/
def msg (xr : Fin 64 → EReal) (nb : Fin 16 → Fin 64 → EReal) (rp : Fin 16 → Fin 2 → EReal)
    (Ws Wb : Fin 64 → Fin 64 → EReal) (Wr : Fin 2 → Fin 64 → EReal) (be : Fin 64 → EReal) (o : Fin 64) : EReal :=
  Ideal.div (∑ k, max (edge xr (nb k) (rp k) Ws Wb Wr be o) z) c16

/-- The hidden row: the node's own features and its message through the node weights, plus the bias. -/
def hid (xr ms : Fin 64 → EReal) (Wx Wm : Fin 64 → Fin 64 → EReal) (bn : Fin 64 → EReal) (q : Fin 64) : EReal :=
  (∑ d, xr d * Wx d q) + (∑ j, ms j * Wm j q) + bn q

/-- The mean of a row over its 64 channels. -/
def mean (h : Fin 64 → EReal) : EReal := Ideal.div (∑ o, h o) c64

/-- Layer normalisation of the hidden row, scale and shift, positive part, mask. -/
def norm (h gamma beta : Fin 64 → EReal) (mask : EReal) (q : Fin 64) : EReal :=
  max ((h q - mean c64 h) * Ideal.rsqrt (Ideal.div (∑ o, (h o - mean c64 h) * (h o - mean c64 h)) c64 + eps) * gamma q
    + beta q) z * mask

/-- One node's result row. -/
def node (xr : Fin 64 → EReal) (nb : Fin 16 → Fin 64 → EReal) (rp : Fin 16 → Fin 2 → EReal) (mask : EReal)
    (Ws Wb : Fin 64 → Fin 64 → EReal) (Wr : Fin 2 → Fin 64 → EReal) (be : Fin 64 → EReal)
    (Wx Wm : Fin 64 → Fin 64 → EReal) (bn gamma beta : Fin 64 → EReal) (q : Fin 64) : EReal :=
  norm z c64 eps (hid xr (msg z c16 xr nb rp Ws Wb Wr be) Wx Wm bn) gamma beta mask q

end Cert.MP

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibFlatten.lean ====
/-
  Flattening the two leading axes of a three-axis array, and a row block repeated along a new middle axis, read at an
  index, for any element type and extents.

  * an `[a, b, c]` array viewed as `[n, c]` (`n = a * b`) has, in row `p * b + k`, the entries `(p, k, ·)`; and back;
  * an `[a, c]` array given a unit middle axis and repeated `b` times along it reads `(p, o)` at `(p, k, o)`;
  * a `[1, c]` row given a second unit axis and repeated over `[a, b, c]` reads `(0, o)` at `(p, k, o)`.
  Names no program.
-/
import Idealize.ShloMosaic.Lib.Pipeline.Value
import Idealize.ShloMosaic.Lib.ValueIdx
import Idealize.ShloMosaic.Lib.ValueLayout

namespace Cert.LibFlatten

open Idealize.ShloMosaic Idealize.ShloMosaic.ValueIdx

variable {α : Type}

/-- `[a, b, c]` viewed as `[n, c]`: row `r = p * b + k` holds the entries `(p, k, ·)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (k : Fin b) (d : Fin c) (r : Fin n)
    (hr : r.val = p.val * b + k.val) :
    shapeCast ⟨2, ![n, c]⟩ x h (ix2 r d) = x (ix3 p k d) :=
  shapeCast_apply x h _ _ (by
    rw [Shape.rowMajor_val_two, Shape.rowMajor_val_three]
    show (p.val * b + k.val) * c + d.val = r.val * c + d.val
    rw [hr])

/-- `[n, c]` viewed as `[a, b, c]`: the entry `(p, k, d)` is row `r = p * b + k`, column `d`. -/
theorem shapeCast_nc_abc_apply {a b c n : ℕ} (x : (⟨2, ![n, c]⟩ : Shape).Idx → α)
    (h : (⟨2, ![n, c]⟩ : Shape).ShapeCasts ⟨3, ![a, b, c]⟩) (p : Fin a) (k : Fin b) (d : Fin c) (r : Fin n)
    (hr : r.val = p.val * b + k.val) :
    shapeCast ⟨3, ![a, b, c]⟩ x h (ix3 p k d) = x (ix2 r d) :=
  shapeCast_apply x h _ _ (by
    rw [Shape.rowMajor_val_two, Shape.rowMajor_val_three]
    show r.val * c + d.val = (p.val * b + k.val) * c + d.val
    rw [hr])

/-- An `[a, c]` array given a unit middle axis and repeated along it reads `(p, o)` at `(p, k, o)`. -/
theorem rows_repeat_apply {a b c : ℕ} (x : (⟨2, ![a, c]⟩ : Shape).Idx → α)
    (hc : (⟨2, ![a, c]⟩ : Shape).ShapeCasts ⟨3, ![a, 1, c]⟩)
    (hb : (⟨3, ![a, 1, c]⟩ : Shape).Broadcasts ⟨3, ![a, b, c]⟩) (p : Fin a) (k : Fin b) (o : Fin c) :
    broadcastTo ⟨3, ![a, b, c]⟩ (shapeCast ⟨3, ![a, 1, c]⟩ x hc) hb (ix3 p k o) = x (ix2 p o) := by
  refine (broadcastTo_apply _ hb (ix3 p k o) (ix3 p (0 : Fin 1) o) fun ax => ?_).trans ?_
  · match ax with
    | ⟨0, _⟩ =>
      show p.val = if a = 1 then 0 else p.val
      split
      · have := p.isLt; omega
      · rfl
    | ⟨1, _⟩ => rfl
    | ⟨2, _⟩ =>
      show o.val = if c = 1 then 0 else o.val
      split
      · have := o.isLt; omega
      · rfl
  · exact shapeCast_apply x hc _ _ (by
      rw [Shape.rowMajor_val_two, Shape.rowMajor_val_three]
      show p.val * c + o.val = (p.val * 1 + 0) * c + o.val
      rw [Nat.mul_one, Nat.add_zero])

/-- A `[1, c]` row given a second unit axis and repeated over `[a, b, c]` reads `(0, o)` at `(p, k, o)`. -/
theorem row_spread_apply {a b c : ℕ} (x : (⟨2, ![1, c]⟩ : Shape).Idx → α)
    (hc : (⟨2, ![1, c]⟩ : Shape).ShapeCasts ⟨3, ![1, 1, c]⟩)
    (hb : (⟨3, ![1, 1, c]⟩ : Shape).Broadcasts ⟨3, ![a, b, c]⟩) (p : Fin a) (k : Fin b) (o : Fin c) :
    broadcastTo ⟨3, ![a, b, c]⟩ (shapeCast ⟨3, ![1, 1, c]⟩ x hc) hb (ix3 p k o) = x (ix2 (0 : Fin 1) o) := by
  refine (broadcastTo_apply _ hb (ix3 p k o) (ix3 (0 : Fin 1) (0 : Fin 1) o) fun ax => ?_).trans ?_
  · match ax with
    | ⟨0, _⟩ => rfl
    | ⟨1, _⟩ => rfl
    | ⟨2, _⟩ =>
      show o.val = if c = 1 then 0 else o.val
      split
      · have := o.isLt; omega
      · rfl
  · exact shapeCast_apply x hc _ _ (by
      rw [Shape.rowMajor_val_two, Shape.rowMajor_val_three]
      show 0 * c + o.val = (0 * 1 + 0) * c + o.val
      rfl)

end Cert.LibFlatten
-- ==== Proof.LibAxisSum.lean ====
/-
  Lane sums of f32 arrays along an inner axis, read at an index over the extended reals, for any extents: the sum along
  the third of four axes at (p, q, r) is the plain sum over k of src (p, q, k, r); the sum along the second of three axes
  at (p, r) is the plain sum over k of src (p, k, r).  The side condition on the initial word is spelt as the equation
  between the two literal zero words, the form a printed reduction carries.  Names no program.
-/
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibAxisSum

open Idealize.ShloMosaic Idealize.ShloMosaic.ValueIdx

variable {a b c d : ℕ}

/-- Result index (p, q, r) of a reduction along the third of four axes, with the dropped coordinate k put back, is (p, q, k, r). -/
theorem lift_4_2 (h : (⟨4, ![a, b, c, d]⟩ : Shape).Reduces [(2 : Fin 4)] ⟨3, ![a, b, d]⟩) (p : Fin a) (q : Fin b) (r : Fin d) (k : Fin c) :
    h.lift (ix3 p q r) k = ix4 p q k r := by
  funext x
  apply Fin.ext
  match x with
  | ⟨0, _⟩ => rfl
  | ⟨1, _⟩ => rfl
  | ⟨2, _⟩ => rfl
  | ⟨3, _⟩ => rfl

/-- The sum along the third of four axes at (p, q, r), from the zero word. -/
theorem sum_4_2_f32 (src : FVec Ideal ⟨4, ![a, b, c, d]⟩ .f32)
    (h : (⟨4, ![a, b, c, d]⟩ : Shape).Reduces [(2 : Fin 4)] ⟨3, ![a, b, d]⟩) (hφ : FKind.Formats .f32)
    (hacc : (0x00000000#32 : BitVec 32) = 0x00000000#32) (p : Fin a) (q : Fin b) (r : Fin d) :
    multiReduction .add [(2 : Fin 4)] ⟨3, ![a, b, d]⟩ src 0x00000000#32 h hφ hacc (ix3 p q r) = ∑ k : Fin c, src (ix4 p q k r) :=
  (Ideal.multiReduction_add_single src 0x00000000#32 h hφ hacc (ix3 p q r)).trans
    (Finset.sum_congr rfl fun k _ => congrArg src (lift_4_2 h p q r k))

/-- Result index (p, r) of a reduction along the second of three axes, with the dropped coordinate k put back, is (p, k, r). -/
theorem lift_3_1 (h : (⟨3, ![a, b, c]⟩ : Shape).Reduces [(1 : Fin 3)] ⟨2, ![a, c]⟩) (p : Fin a) (r : Fin c) (k : Fin b) :
    h.lift (ix2 p r) k = ix3 p k r := by
  funext x
  apply Fin.ext
  match x with
  | ⟨0, _⟩ => rfl
  | ⟨1, _⟩ => rfl
  | ⟨2, _⟩ => rfl

/-- The sum along the second of three axes at (p, r), from the zero word. -/
theorem sum_3_1_f32 (src : FVec Ideal ⟨3, ![a, b, c]⟩ .f32)
    (h : (⟨3, ![a, b, c]⟩ : Shape).Reduces [(1 : Fin 3)] ⟨2, ![a, c]⟩) (hφ : FKind.Formats .f32)
    (hacc : (0x00000000#32 : BitVec 32) = 0x00000000#32) (p : Fin a) (r : Fin c) :
    multiReduction .add [(1 : Fin 3)] ⟨2, ![a, c]⟩ src 0x00000000#32 h hφ hacc (ix2 p r) = ∑ k : Fin b, src (ix3 p k r) :=
  (Ideal.multiReduction_add_single src 0x00000000#32 h hφ hacc (ix2 p r)).trans
    (Finset.sum_congr rfl fun k _ => congrArg src (lift_3_1 h p r k))

end Cert.LibAxisSum

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«150312_j88218628260532_1_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.KernelRow.lean ====
/-
  The kernel body's arithmetic on one block of a thousand nodes, read at an entry, over the extended reals.

  The body flattens the block's `[1000, 16, ·]` neighbour arrays to `[16000, ·]`, multiplies them by the edge weights on
  the matrix unit, and views the products again as `[1000, 16, 64]`: row `p * 16 + k` of the flat product is neighbour `k`
  of node `p`, so entry `(p, k, o)` is the plain dot product of that neighbour's row with column `o` of the weights. The
  self term is computed once per node and repeated along the neighbour axis. The sum over the neighbour axis, the two row
  sums of the layer normalisation and the four matrix products into zero accumulators are plain finite sums; a change of
  float format is the identity. Entry `(p, q)` of the result therefore depends on row `p` of the node block, the sixteen
  neighbour rows of node `p`, and the weights, exactly as `Cert.MP.node` says, up to the order of the three terms of the
  edge pre-activation.
-/
import proofs.«150312_j88218628260532_1_alg».proof.Proof.Gen.KernelIdeal.Skeleton
import proofs.«150312_j88218628260532_1_alg».proof.Proof.Spec
import proofs.«150312_j88218628260532_1_alg».proof.Proof.LibPlainDot
import proofs.«150312_j88218628260532_1_alg».proof.Proof.LibFlatten
import proofs.«150312_j88218628260532_1_alg».proof.Proof.LibAxisSum
import proofs.«150312_j88218628260532_1_alg».proof.Proof.LibRowReduce
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Row

open Cert.KernelIdeal Cert.KernelIdeal.Gen Idealize.ShloMosaic Idealize.ShloMosaic.ValueIdx
open Cert.LibPlainDot Cert.LibFlatten Cert.LibAxisSum Cert.LibRowReduce Cert.LibColumn

/-- The row of the flattened `[16000, ·]` view that holds neighbour `k` of node `p`. -/
def flat (p : Fin 1000) (k : Fin 16) : Fin 16000 := ⟨p.val * 16 + k.val, by have := p.isLt; have := k.isLt; omega⟩

/-- The four constants of the body, as extended reals. -/
abbrev zero : EReal := Ideal.ofBits .f32 0x00000000#32
abbrev c16 : EReal := Ideal.ofBits .f32 0x41800000#32
abbrev c64 : EReal := Ideal.ofBits .f32 0x42800000#32
abbrev eps : EReal := Ideal.ofBits .f32 0x3727C5AC#32

/-! ## The three dot products of the edge pre-activation -/

/-- The node's own features through a `[64, 64]` weight block: entry `(p, o)` is the dot product of row `p` with column `o`. -/
theorem self_apply (X : S1x1000x64.Idx → EReal) (W : S64x64.Idx → EReal) (p : Fin 1000) (o : Fin 64) :
    matmul (F := Ideal) dot_S1000x64_S64x64_S1000x64_1_0_0_1_n_n none (k0_pay2 (F := Ideal) X)
        (truncf .bf16 (shapeCast S64x64 W shapeCasts_S64x64_S64x64) bitsLt_bf16_f32)
        (constant S1000x64 .f32 0x00000000#32) (ix2 p o)
      = ∑ d : Fin 64, X (ix3 (0 : Fin 1) p d) * W (ix2 d o) := by
  refine (matmul_zero_apply (R := 1000) (K := 64) (C := 64) dot_S1000x64_S64x64_S1000x64_1_0_0_1_n_n_wf none _ _ p o).trans ?_
  refine Finset.sum_congr rfl fun d _ => ?_
  refine congrArg₂ (· * ·) ?_ ?_
  · show shapeCast S1000x64 X shapeCasts_S1x1000x64_S1000x64 (ix2 p d) = _
    exact shapeCast_1ab_ab_apply X _ p d
  · show shapeCast S64x64 W shapeCasts_S64x64_S64x64 (ix2 d o) = _
    exact congrFun (shapeCast_self W _) (ix2 d o)

/-- The neighbour term: entry `(p, k, o)` is the dot product of neighbour `k`'s feature row with column `o`. -/
theorem nbr_apply (N : S1x1000x16x64.Idx → EReal) (W : S64x64.Idx → EReal) (p : Fin 1000) (k : Fin 16) (o : Fin 64) :
    shapeCast S1000x16x64 (matmul (F := Ideal) dot_S16000x64_S64x64_S16000x64_1_0_0_1_n_n none
        (truncf .bf16 (shapeCast S16000x64 (shapeCast S1000x16x64 N shapeCasts_S1x1000x16x64_S1000x16x64)
          shapeCasts_S1000x16x64_S16000x64) bitsLt_bf16_f32)
        (truncf .bf16 (shapeCast S64x64 W shapeCasts_S64x64_S64x64) bitsLt_bf16_f32)
        (constant S16000x64 .f32 0x00000000#32)) shapeCasts_S16000x64_S1000x16x64 (ix3 p k o)
      = ∑ d : Fin 64, N (ix4 (0 : Fin 1) p k d) * W (ix2 d o) := by
  refine (shapeCast_nc_abc_apply _ shapeCasts_S16000x64_S1000x16x64 p k o (flat p k) rfl).trans ?_
  refine (matmul_zero_apply (R := 16000) (K := 64) (C := 64) dot_S16000x64_S64x64_S16000x64_1_0_0_1_n_n_wf none _ _ (flat p k) o).trans ?_
  refine Finset.sum_congr rfl fun d _ => ?_
  refine congrArg₂ (· * ·) ?_ ?_
  · show shapeCast S16000x64 (shapeCast S1000x16x64 N shapeCasts_S1x1000x16x64_S1000x16x64)
        shapeCasts_S1000x16x64_S16000x64 (ix2 (flat p k) d) = _
    refine (shapeCast_abc_nc_apply _ shapeCasts_S1000x16x64_S16000x64 p k d (flat p k) rfl).trans ?_
    exact shapeCast_1abc_abc_apply N _ p k d
  · show shapeCast S64x64 W shapeCasts_S64x64_S64x64 (ix2 d o) = _
    exact congrFun (shapeCast_self W _) (ix2 d o)

/-- The relative-position term: entry `(p, k, o)` is the dot product of neighbour `k`'s two offsets with column `o`. -/
theorem rel_apply (R : S1x1000x16x2.Idx → EReal) (W : S2x64.Idx → EReal) (p : Fin 1000) (k : Fin 16) (o : Fin 64) :
    shapeCast S1000x16x64 (matmul (F := Ideal) dot_S16000x2_S2x64_S16000x64_1_0_0_1_n_n none
        (truncf .bf16 (shapeCast S16000x2 (shapeCast S1000x16x2 R shapeCasts_S1x1000x16x2_S1000x16x2)
          shapeCasts_S1000x16x2_S16000x2) bitsLt_bf16_f32)
        (truncf .bf16 (shapeCast S2x64 W shapeCasts_S2x64_S2x64) bitsLt_bf16_f32)
        (constant S16000x64 .f32 0x00000000#32)) shapeCasts_S16000x64_S1000x16x64 (ix3 p k o)
      = ∑ e : Fin 2, R (ix4 (0 : Fin 1) p k e) * W (ix2 e o) := by
  refine (shapeCast_nc_abc_apply _ shapeCasts_S16000x64_S1000x16x64 p k o (flat p k) rfl).trans ?_
  refine (matmul_zero_apply (R := 16000) (K := 2) (C := 64) dot_S16000x2_S2x64_S16000x64_1_0_0_1_n_n_wf none _ _ (flat p k) o).trans ?_
  refine Finset.sum_congr rfl fun e _ => ?_
  refine congrArg₂ (· * ·) ?_ ?_
  · show shapeCast S16000x2 (shapeCast S1000x16x2 R shapeCasts_S1x1000x16x2_S1000x16x2)
        shapeCasts_S1000x16x2_S16000x2 (ix2 (flat p k) e) = _
    refine (shapeCast_abc_nc_apply _ shapeCasts_S1000x16x2_S16000x2 p k e (flat p k) rfl).trans ?_
    exact shapeCast_1abc_abc_apply R _ p k e
  · show shapeCast S2x64 W shapeCasts_S2x64_S2x64 (ix2 e o) = _
    exact congrFun (shapeCast_self W _) (ix2 e o)

/-- THE EDGE PRE-ACTIVATION at `(p, k, o)`: the body adds neighbour term, relative-position term, self term and bias in
    that order; regrouped, it is `Cert.MP.edge` of node `p`'s row and neighbour `k`'s rows. -/
theorem pay3_apply (X : S1x1000x64.Idx → EReal) (N : S1x1000x16x64.Idx → EReal) (R : S1x1000x16x2.Idx → EReal)
    (Ws Wb : S64x64.Idx → EReal) (Wr : S2x64.Idx → EReal) (Be : S1x64.Idx → EReal) (p : Fin 1000) (k : Fin 16) (o : Fin 64) :
    k0_pay3 (F := Ideal) X N R Ws Wb Wr Be (ix3 p k o)
      = MP.edge (fun d => X (ix3 (0 : Fin 1) p d)) (fun d => N (ix4 (0 : Fin 1) p k d)) (fun e => R (ix4 (0 : Fin 1) p k e))
          (fun d o => Ws (ix2 d o)) (fun d o => Wb (ix2 d o)) (fun e o => Wr (ix2 e o)) (fun o => Be (ix2 (0 : Fin 1) o)) o := by
  unfold MP.edge
  rw [← MP.edge_regroup]
  unfold k0_pay3
  refine congrArg₂ (· + ·) (congrArg₂ (· + ·) (congrArg₂ (· + ·) (nbr_apply N Wb p k o) (rel_apply R Wr p k o)) ?_) ?_
  · exact (rows_repeat_apply _ shapeCasts_S1000x64_S1000x1x64 broadcasts_S1000x1x64_S1000x16x64 p k o).trans (self_apply X Ws p o)
  · exact (row_spread_apply _ shapeCasts_S1x64_S1x1x64 broadcasts_S1x1x64_S1000x16x64 p k o).trans
      (congrFun (shapeCast_self Be shapeCasts_S1x64_S1x64) (ix2 (0 : Fin 1) o))

/-! ## The message, the hidden row and the normalisation -/

/-- The message at `(p, j)`: the sum over the neighbour axis of the positive parts, divided by sixteen. -/
theorem msg_apply (B C : FVec Ideal S1000x16x64 .f32) (p : Fin 1000) (j : Fin 64) :
    divf (F := Ideal) (multiReduction .add [1] S1000x64 (maximumf B C) 0x00000000#32 reduces_S1000x16x64_S1000x64 (.inl rfl) rfl)
        (broadcast S1000x64 (Scalar.ofBits .f32 0x41800000#32)) (ix2 p j)
      = Ideal.div (∑ k : Fin 16, max (B (ix3 p k j)) (C (ix3 p k j))) c16 :=
  congrArg (Ideal.div · c16)
    (sum_3_1_f32 (maximumf (F := Ideal) B C) reduces_S1000x16x64_S1000x64 (.inl rfl) rfl p j)

/-- The hidden rows as the body computes them: the node block and the messages through the node weights, plus the bias row. -/
def hidV (A : FVec Ideal S1000x64 .bf16) (B C : FVec Ideal S1000x16x64 .f32) (Wx Wm : FVec Ideal S64x64 .f32) (Bn : FVec Ideal S1x64 .f32) :
    FVec Ideal S1000x64 .f32 :=
  addf (F := Ideal) (addf
      (matmul dot_S1000x64_S64x64_S1000x64_1_0_0_1_n_n none A
        (truncf .bf16 (shapeCast S64x64 Wx shapeCasts_S64x64_S64x64) bitsLt_bf16_f32) (constant S1000x64 .f32 0x00000000#32))
      (matmul dot_S1000x64_S64x64_S1000x64_1_0_0_1_n_n none
        (truncf .bf16 (divf (multiReduction .add [1] S1000x64 (maximumf B C) 0x00000000#32 reduces_S1000x16x64_S1000x64 (.inl rfl) rfl)
          (broadcast S1000x64 (Scalar.ofBits .f32 0x41800000#32))) bitsLt_bf16_f32)
        (truncf .bf16 (shapeCast S64x64 Wm shapeCasts_S64x64_S64x64) bitsLt_bf16_f32) (constant S1000x64 .f32 0x00000000#32)))
    (broadcastTo S1000x64 (shapeCast S1x64 Bn shapeCasts_S1x64_S1x64) broadcasts_S1x64_S1000x64)

/-- The hidden row of node `p` at channel `o`. -/
theorem hidV_apply (A : FVec Ideal S1000x64 .bf16) (B C : FVec Ideal S1000x16x64 .f32) (Wx Wm : FVec Ideal S64x64 .f32) (Bn : FVec Ideal S1x64 .f32)
    (p : Fin 1000) (o : Fin 64) :
    hidV A B C Wx Wm Bn (ix2 p o)
      = MP.hid (fun d => A (ix2 p d)) (fun j => Ideal.div (∑ k : Fin 16, max (B (ix3 p k j)) (C (ix3 p k j))) c16)
          (fun d o => Wx (ix2 d o)) (fun j o => Wm (ix2 j o)) (fun o => Bn (ix2 (0 : Fin 1) o)) o := by
  unfold MP.hid hidV
  refine congrArg₂ (· + ·) (congrArg₂ (· + ·) ?_ ?_) ?_
  · refine (matmul_zero_apply (R := 1000) (K := 64) (C := 64) dot_S1000x64_S64x64_S1000x64_1_0_0_1_n_n_wf none _ _ p o).trans ?_
    refine Finset.sum_congr rfl fun d _ => congrArg (A (ix2 p d) * ·) ?_
    show shapeCast S64x64 Wx shapeCasts_S64x64_S64x64 (ix2 d o) = _
    exact congrFun (shapeCast_self Wx _) (ix2 d o)
  · refine (matmul_zero_apply (R := 1000) (K := 64) (C := 64) dot_S1000x64_S64x64_S1000x64_1_0_0_1_n_n_wf none _ _ p o).trans ?_
    refine Finset.sum_congr rfl fun j _ => congrArg₂ (· * ·) (msg_apply B C p j) ?_
    show shapeCast S64x64 Wm shapeCasts_S64x64_S64x64 (ix2 j o) = _
    exact congrFun (shapeCast_self Wm _) (ix2 j o)
  · exact (broadcastTo_1b_ab_apply _ broadcasts_S1x64_S1000x64 p o).trans
      (congrFun (shapeCast_self Bn shapeCasts_S1x64_S1x64) (ix2 (0 : Fin 1) o))

/-- The mean over the 64 channels of every row, kept as a column. -/
def meanV (G : FVec Ideal S1000x64 .f32) : FVec Ideal S1000x1 .f32 :=
  divf (F := Ideal) (shapeCast S1000x1 (multiReduction .add [1] S1000 G 0x00000000#32 reduces_S1000x64_S1000 (.inl rfl) rfl)
    shapeCasts_S1000_S1000x1) (broadcast S1000x1 (Scalar.ofBits .f32 0x42800000#32))

theorem meanV_apply (G : FVec Ideal S1000x64 .f32) (p : Fin 1000) (u : Fin 1) :
    meanV G (ix2 p u) = MP.mean c64 (fun o => G (ix2 p o)) :=
  congrArg (Ideal.div · c64)
    ((shapeCast_a_a1_apply _ shapeCasts_S1000_S1000x1 p u).trans
      (rowSum_apply (φ := .f32) G 0x00000000#32 reduces_S1000x64_S1000 (.inl rfl) rfl p))

/-- The layer normalisation of the hidden rows with its scale row, as the body computes it. -/
def normV (H : FVec Ideal S1000x64 .f32) (Ga : FVec Ideal S1x64 .f32) : FVec Ideal S1000x64 .f32 :=
  mulf (F := Ideal) (mulf (subf H (broadcastTo S1000x64 (meanV H) broadcasts_S1000x1_S1000x64))
      (broadcastTo S1000x64 (rsqrt (addf
        (meanV (mulf (subf H (broadcastTo S1000x64 (meanV H) broadcasts_S1000x1_S1000x64))
          (subf H (broadcastTo S1000x64 (meanV H) broadcasts_S1000x1_S1000x64))))
        (broadcast S1000x1 (Scalar.ofBits .f32 0x3727C5AC#32)))) broadcasts_S1000x1_S1000x64))
    (broadcastTo S1000x64 (shapeCast S1x64 Ga shapeCasts_S1x64_S1x64) broadcasts_S1x64_S1000x64)

/-- The centred entry `(p, o)`. -/
theorem centred_apply (H : FVec Ideal S1000x64 .f32) (p : Fin 1000) (o : Fin 64) :
    subf (F := Ideal) H (broadcastTo S1000x64 (meanV H) broadcasts_S1000x1_S1000x64) (ix2 p o)
      = H (ix2 p o) - MP.mean c64 (fun o => H (ix2 p o)) :=
  congrArg (H (ix2 p o) - ·) ((broadcastTo_a1_ab_apply _ broadcasts_S1000x1_S1000x64 p o).trans (meanV_apply H p 0))

/-- The normalised, scaled entry `(p, q)`. -/
theorem normV_apply (H : FVec Ideal S1000x64 .f32) (Ga : FVec Ideal S1x64 .f32) (p : Fin 1000) (q : Fin 64) :
    normV H Ga (ix2 p q)
      = (H (ix2 p q) - MP.mean c64 (fun o => H (ix2 p o)))
          * Ideal.rsqrt (Ideal.div (∑ o : Fin 64, (H (ix2 p o) - MP.mean c64 (fun o => H (ix2 p o)))
              * (H (ix2 p o) - MP.mean c64 (fun o => H (ix2 p o)))) c64 + eps)
          * Ga (ix2 (0 : Fin 1) q) := by
  unfold normV
  refine congrArg₂ (· * ·) (congrArg₂ (· * ·) (centred_apply H p q) ?_) ?_
  · refine (broadcastTo_a1_ab_apply _ broadcasts_S1000x1_S1000x64 p q).trans ?_
    refine congrArg (fun v => Ideal.rsqrt (v + eps)) ?_
    refine (meanV_apply _ p 0).trans ?_
    unfold MP.mean
    refine congrArg (Ideal.div · c64) (Finset.sum_congr rfl fun o _ => ?_)
    exact congrArg₂ (· * ·) (centred_apply H p o) (centred_apply H p o)
  · exact (broadcastTo_1b_ab_apply _ broadcasts_S1x64_S1000x64 p q).trans
      (congrFun (shapeCast_self Ga shapeCasts_S1x64_S1x64) (ix2 (0 : Fin 1) q))

/-- The body's second payload is the normalisation of its hidden rows: the same operations, grouped. -/
theorem pay5_eq (A : FVec Ideal S1000x64 .bf16) (B C : FVec Ideal S1000x16x64 .f32) (Wx Wm : FVec Ideal S64x64 .f32) (Bn Ga : FVec Ideal S1x64 .f32) :
    k0_pay5 (F := Ideal) A B C Wx Wm Bn Ga = normV (hidV A B C Wx Wm Bn) Ga := rfl

end Cert.KernelIdeal.Row

end
-- ==== Proof.KernelBlock.lean ====
/-
  What the kernel body leaves in the output window's block, entry by entry, for arbitrary contents of the thirteen
  input blocks: entry `(0, p, q)` is `Cert.MP.node` of row `p` of the node block, the sixteen neighbour rows and
  relative positions of node `p`, node `p`'s mask, and the weight blocks. The generated value module gives the block
  as one function of the body's loads (`E13`), each load being the whole staging block; the arithmetic under it is
  `Cert.KernelIdeal.Row`'s three stages.
-/
import proofs.«150312_j88218628260532_1_alg».proof.Proof.Gen.KernelIdeal.Value
import proofs.«150312_j88218628260532_1_alg».proof.Proof.KernelRow

noncomputable section

open scoped BigOperators

namespace Cert.KernelIdeal.Row

open Cert.KernelIdeal Cert.KernelIdeal.Gen Cert.KernelIdeal.Value Idealize.ShloMosaic Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The hidden row of node `p`, given node `p`'s row of the first operand, the edge pre-activations of its sixteen
    neighbours, and the zero they are clamped at. -/
theorem hidV_row (A : FVec Ideal S1000x64 .bf16) (B C : FVec Ideal S1000x16x64 .f32) (Wx Wm : FVec Ideal S64x64 .f32)
    (Bn : FVec Ideal S1x64 .f32) (p : Fin 1000) (xr : Fin 64 → EReal) (ed : Fin 16 → Fin 64 → EReal)
    (hA : ∀ d, A (ix2 p d) = xr d) (hB : ∀ k j, B (ix3 p k j) = ed k j) (hC : ∀ k j, C (ix3 p k j) = zero) (o : Fin 64) :
    hidV A B C Wx Wm Bn (ix2 p o)
      = MP.hid xr (fun j => Ideal.div (∑ k : Fin 16, max (ed k j) zero) c16)
          (fun d o => Wx (ix2 d o)) (fun j o => Wm (ix2 j o)) (fun o => Bn (ix2 (0 : Fin 1) o)) o := by
  rw [hidV_apply]
  unfold MP.hid
  simp only [hA, hB, hC]

/-- THE BLOCK THE BODY LEAVES, at entry `(0, p, q)`, over arbitrary loaded blocks. -/
theorem E13_apply (P0 : Vec Ideal S1x1000x64 .f32) (P1 : Vec Ideal S1x1000x16x64 .f32) (P2 : Vec Ideal S1x1000x16x2 .f32)
    (P3 : Vec Ideal S64x64 .f32) (P4 : Vec Ideal S64x64 .f32) (P5 : Vec Ideal S2x64 .f32) (P6 : Vec Ideal S1x64 .f32)
    (P7 : Vec Ideal S64x64 .f32) (P8 : Vec Ideal S64x64 .f32) (P9 : Vec Ideal S1x64 .f32) (P10 : Vec Ideal S1x64 .f32)
    (P11 : Vec Ideal S1x64 .f32) (P12 : Vec Ideal S1x1000x1 .f32) (p : Fin 1000) (q : Fin 64) :
    E13 (F := Ideal) P0 P1 P2 P3 P4 P5 P6 P7 P8 P9 P10 P11 P12 (ix3 (0 : Fin 1) p q)
      = MP.node zero c16 c64 eps (fun d => P0 (ix3 (0 : Fin 1) p d)) (fun k d => P1 (ix4 (0 : Fin 1) p k d))
          (fun k e => P2 (ix4 (0 : Fin 1) p k e)) (P12 (ix3 (0 : Fin 1) p (0 : Fin 1)))
          (fun d o => P3 (ix2 d o)) (fun d o => P4 (ix2 d o)) (fun e o => P5 (ix2 e o)) (fun o => P6 (ix2 (0 : Fin 1) o))
          (fun d o => P7 (ix2 d o)) (fun j o => P8 (ix2 j o)) (fun o => P9 (ix2 (0 : Fin 1) o))
          (fun o => P10 (ix2 (0 : Fin 1) o)) (fun o => P11 (ix2 (0 : Fin 1) o)) q := by
  have i0 : ix13_0 (ix3 (0 : Fin 1) p q) = ix2 p q :=
    funext fun a => Fin.ext (by match a with | ⟨0, _⟩ => rfl | ⟨1, _⟩ => rfl)
  have i1 : ix13_1 (ix3 (0 : Fin 1) p q) = ix2 (0 : Fin 1) q :=
    funext fun a => Fin.ext (by match a with | ⟨0, _⟩ => rfl | ⟨1, _⟩ => rfl)
  have i2 : ix13_2 (ix3 (0 : Fin 1) p q) = ix3 (0 : Fin 1) p (0 : Fin 1) :=
    funext fun a => Fin.ext (by match a with | ⟨0, _⟩ => rfl | ⟨1, _⟩ => rfl | ⟨2, _⟩ => rfl)
  have hh : ∀ o : Fin 64,
      hidV (k0_pay2 (F := Ideal) P0) (k0_pay3 (F := Ideal) P0 P1 P2 P3 P4 P5 P6) (k0_pay4 (F := Ideal)) P7 P8 P9 (ix2 p o)
        = MP.hid (fun d => P0 (ix3 (0 : Fin 1) p d))
            (MP.msg zero c16 (fun d => P0 (ix3 (0 : Fin 1) p d)) (fun k d => P1 (ix4 (0 : Fin 1) p k d))
              (fun k e => P2 (ix4 (0 : Fin 1) p k e)) (fun d o => P3 (ix2 d o)) (fun d o => P4 (ix2 d o))
              (fun e o => P5 (ix2 e o)) (fun o => P6 (ix2 (0 : Fin 1) o)))
            (fun d o => P7 (ix2 d o)) (fun j o => P8 (ix2 j o)) (fun o => P9 (ix2 (0 : Fin 1) o)) o := fun o =>
    hidV_row _ _ _ P7 P8 P9 p _ _
      (fun d => shapeCast_1ab_ab_apply P0 shapeCasts_S1x1000x64_S1000x64 p d)
      (fun k j => pay3_apply P0 P1 P2 P3 P4 P5 P6 p k j) (fun _ _ => rfl) o
  show max (k0_pay5 (F := Ideal) (k0_pay2 P0) (k0_pay3 P0 P1 P2 P3 P4 P5 P6) k0_pay4 P7 P8 P9 P10 (ix13_0 (ix3 (0 : Fin 1) p q))
      + P11 (ix13_1 (ix3 (0 : Fin 1) p q))) zero * P12 (ix13_2 (ix3 (0 : Fin 1) p q)) = _
  rw [i0, i1, i2, pay5_eq, normV_apply]
  simp only [hh]
  rfl

/-- The same for the body's result `out0_13` of the thirteen staging blocks: each load reads its whole block. -/
theorem out_apply (x0 : Vec Ideal S1x1000x64 .f32) (x1 : Vec Ideal S1x1000x16x64 .f32) (x2 : Vec Ideal S1x1000x16x2 .f32)
    (x3 : Vec Ideal S1x1000x1 .f32) (x4 : Vec Ideal S64x64 .f32) (x5 : Vec Ideal S64x64 .f32) (x6 : Vec Ideal S2x64 .f32)
    (x7 : Vec Ideal S1x64 .f32) (x8 : Vec Ideal S64x64 .f32) (x9 : Vec Ideal S64x64 .f32) (x10 : Vec Ideal S1x64 .f32)
    (x11 : Vec Ideal S1x64 .f32) (x12 : Vec Ideal S1x64 .f32) (p : Fin 1000) (q : Fin 64) :
    out0_13 (F := Ideal) x0 x1 x2 x3 x4 x5 x6 x7 x8 x9 x10 x11 x12 (ix3 (0 : Fin 1) p q)
      = MP.node zero c16 c64 eps (fun d => x0 (ix3 (0 : Fin 1) p d)) (fun k d => x1 (ix4 (0 : Fin 1) p k d))
          (fun k e => x2 (ix4 (0 : Fin 1) p k e)) (x3 (ix3 (0 : Fin 1) p (0 : Fin 1)))
          (fun d o => x4 (ix2 d o)) (fun d o => x5 (ix2 d o)) (fun e o => x6 (ix2 e o)) (fun o => x7 (ix2 (0 : Fin 1) o))
          (fun d o => x8 (ix2 d o)) (fun j o => x9 (ix2 j o)) (fun o => x10 (ix2 (0 : Fin 1) o))
          (fun o => x11 (ix2 (0 : Fin 1) o)) (fun o => x12 (ix2 (0 : Fin 1) o)) q := by
  have e0 : View.ld x0 r0_0 = x0 := View.ld_unit_zero (S := S1x1000x64) hz3 _ x0
  have e1 : View.ld x1 r0_1 = x1 := View.ld_unit_zero (S := S1x1000x16x64) hz4 _ x1
  have e2 : View.ld x2 r0_2 = x2 := View.ld_unit_zero (S := S1x1000x16x2) hz4 _ x2
  have e3 : View.ld x3 r0_6 = x3 := View.ld_unit_zero (S := S1x1000x1) hz3 _ x3
  have e4 : View.ld x4 r0_3 = x4 := View.ld_unit_zero (S := S64x64) hz2 _ x4
  have e5 : View.ld x5 r0_3 = x5 := View.ld_unit_zero (S := S64x64) hz2 _ x5
  have e6 : View.ld x6 r0_4 = x6 := View.ld_unit_zero (S := S2x64) hz2 _ x6
  have e7 : View.ld x7 r0_5 = x7 := View.ld_unit_zero (S := S1x64) hz2 _ x7
  have e8 : View.ld x8 r0_3 = x8 := View.ld_unit_zero (S := S64x64) hz2 _ x8
  have e9 : View.ld x9 r0_3 = x9 := View.ld_unit_zero (S := S64x64) hz2 _ x9
  have e10 : View.ld x10 r0_5 = x10 := View.ld_unit_zero (S := S1x64) hz2 _ x10
  have e11 : View.ld x11 r0_5 = x11 := View.ld_unit_zero (S := S1x64) hz2 _ x11
  have e12 : View.ld x12 r0_5 = x12 := View.ld_unit_zero (S := S1x64) hz2 _ x12
  unfold out0_13
  rw [e0, e1, e2, e3, e4, e5, e6, e7, e8, e9, e10, e11, e12, canon13_eq, E13_apply]

end Cert.KernelIdeal.Row

end
-- ==== Proof.Blocks.lean ====
/-
  From blocks to the whole array, for the kernel.

  The grid has 4 × 20 points; point `(b, j)` stages rows `1000 j … 1000 j + 999` of batch `b` of the node features, of
  the gathered neighbour features and relative positions and of the mask, the nine weight arrays whole, and writes back
  the same thousand rows of batch `b` of the result. Row `p` of a block is therefore node `n = 1000 j + p` of batch `b`, the
  body's result at block entry `(0, p, q)` is `Cert.MP.node` of the arrays' rows `(b, n, ·)`, and the eighty blocks tile
  the result array. So after the run the result array holds, at every `(b, n, q)`, that function of the arrays as the
  region finds them.
-/
import proofs.«150312_j88218628260532_1_alg».proof.Proof.Gen.KernelIdeal.Value
import proofs.«150312_j88218628260532_1_alg».proof.Proof.KernelBlock

noncomputable section

open scoped BigOperators

namespace Cert.KernelIdeal.Blocks

open Cert.KernelIdeal Cert.KernelIdeal.Gen Cert.KernelIdeal.Value Cert.KernelIdeal.Row
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result at batch `b`, node `n`, channel `q`, of thirteen arrays: features, gathered neighbour features and relative
    positions, mask column, the five weight blocks and the four rows. -/
def gk (A0 : S4x20000x64.Idx → EReal) (A1 : S4x20000x16x64.Idx → EReal) (A2 : S4x20000x16x2.Idx → EReal) (A3 : S4x20000x1.Idx → EReal) (A4 : S64x64.Idx → EReal) (A5 : S64x64.Idx → EReal) (A6 : S2x64.Idx → EReal) (A7 : S1x64.Idx → EReal) (A8 : S64x64.Idx → EReal) (A9 : S64x64.Idx → EReal) (A10 : S1x64.Idx → EReal) (A11 : S1x64.Idx → EReal) (A12 : S1x64.Idx → EReal)
    (b : Fin 4) (n : Fin 20000) (q : Fin 64) : EReal :=
  MP.node zero c16 c64 eps (fun d => A0 (ix3 b n d)) (fun k d => A1 (ix4 b n k d)) (fun k e => A2 (ix4 b n k e))
    (A3 (ix3 b n (0 : Fin 1))) (fun d o => A4 (ix2 d o)) (fun d o => A5 (ix2 d o)) (fun e o => A6 (ix2 e o))
    (fun o => A7 (ix2 (0 : Fin 1) o)) (fun d o => A8 (ix2 d o)) (fun j o => A9 (ix2 j o))
    (fun o => A10 (ix2 (0 : Fin 1) o)) (fun o => A11 (ix2 (0 : Fin 1) o)) (fun o => A12 (ix2 (0 : Fin 1) o)) q

/-- The same as a function of the array index. -/
def GK (A0 : S4x20000x64.Idx → EReal) (A1 : S4x20000x16x64.Idx → EReal) (A2 : S4x20000x16x2.Idx → EReal) (A3 : S4x20000x1.Idx → EReal) (A4 : S64x64.Idx → EReal) (A5 : S64x64.Idx → EReal) (A6 : S2x64.Idx → EReal) (A7 : S1x64.Idx → EReal) (A8 : S64x64.Idx → EReal) (A9 : S64x64.Idx → EReal) (A10 : S1x64.Idx → EReal) (A11 : S1x64.Idx → EReal) (A12 : S1x64.Idx → EReal) :
    S4x20000x64.Idx → EReal := fun i => gk A0 A1 A2 A3 A4 A5 A6 A7 A8 A9 A10 A11 A12 (i 0) (i 1) (i 2)

/-- The printed index maps, decided over the eighty points: the four moving input windows sit at the output window's
    block, every weight window at block zero, and the output's block indices stay in range. -/
theorem idx_facts : ∀ t : Fin cfg0.N,
    win0_13.index t (0 : Fin 3) < 4 ∧ win0_13.index t (1 : Fin 3) < 20 ∧ win0_13.index t (2 : Fin 3) = 0
    ∧ win0_0.index t (0 : Fin 3) = win0_13.index t (0 : Fin 3) ∧ win0_0.index t (1 : Fin 3) = win0_13.index t (1 : Fin 3)
    ∧ win0_0.index t (2 : Fin 3) = 0
    ∧ win0_1.index t (0 : Fin 4) = win0_13.index t (0 : Fin 3) ∧ win0_1.index t (1 : Fin 4) = win0_13.index t (1 : Fin 3)
    ∧ win0_1.index t (2 : Fin 4) = 0 ∧ win0_1.index t (3 : Fin 4) = 0
    ∧ win0_2.index t (0 : Fin 4) = win0_13.index t (0 : Fin 3) ∧ win0_2.index t (1 : Fin 4) = win0_13.index t (1 : Fin 3)
    ∧ win0_2.index t (2 : Fin 4) = 0 ∧ win0_2.index t (3 : Fin 4) = 0
    ∧ win0_3.index t (0 : Fin 3) = win0_13.index t (0 : Fin 3) ∧ win0_3.index t (1 : Fin 3) = win0_13.index t (1 : Fin 3)
    ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

/-- Every block of the result array is some point's. -/
theorem idx_onto : ∀ (q0 : Fin 4) (q1 : Fin 20), ∃ t : Fin cfg0.N, win0_13.index t = ![q0.val, q1.val, 0] :=
  (by decide +kernel : ∀ (q0 : Fin 4) (q1 : Fin 20), ∃ t : Fin grid0.N, win0_13.index t = ![q0.val, q1.val, 0])

/-! ## The input blocks read where the output block's rows say

Each lemma takes the window's array as the region finds it as a parameter `A` with its defining equation: the host
computation behind it is never opened here. -/

section reads
variable (c : Dev nD) (t : Fin cfg0.N) (b : Fin 4) (n : Fin 20000) (p : Fin 1000)
variable (A0 : S4x20000x64.Idx → EReal) (A1 : S4x20000x16x64.Idx → EReal) (A2 : S4x20000x16x2.Idx → EReal) (A3 : S4x20000x1.Idx → EReal) (A4 : S64x64.Idx → EReal) (A5 : S64x64.Idx → EReal) (A6 : S2x64.Idx → EReal) (A7 : S1x64.Idx → EReal) (A8 : S64x64.Idx → EReal) (A9 : S64x64.Idx → EReal) (A10 : S1x64.Idx → EReal) (A11 : S1x64.Idx → EReal) (A12 : S1x64.Idx → EReal)

/-- Row `p` of window 0's block is node `n` of batch `b`. -/
theorem read0 (hA : (V m c (Pipeline.arrRef spec0 0) : S4x20000x64.Idx → EReal) = A0) (h0 : win0_0.index t (0 : Fin 3) = b.val)
    (h1 : win0_0.index t (1 : Fin 3) * 1000 + p.val = n.val) (h2 : win0_0.index t (2 : Fin 3) = 0) (d : Fin 64) :
    iblk m c 0 t (ix3 (0 : Fin 1) p d) = A0 (ix3 b n d) := by
  unfold iblk
  rw [hA]
  show A0 (((cfg0.win 0).blk t).view.emb (ix3 (0 : Fin 1) p d)) = _
  refine congrArg A0 (funext fun a => Fin.ext ?_)
  match a with
  | ⟨0, _⟩ => show win0_0.index t (0 : Fin 3) * 1 + 1 * 0 = b.val; omega
  | ⟨1, _⟩ => show win0_0.index t (1 : Fin 3) * 1000 + 1 * p.val = n.val; omega
  | ⟨2, _⟩ => show win0_0.index t (2 : Fin 3) * 64 + 1 * d.val = d.val; omega

/-- Row `(p, k)` of window 1's block is neighbour `k` of node `n` of batch `b`. -/
theorem read1 (hA : (V m c (Pipeline.arrRef spec0 1) : S4x20000x16x64.Idx → EReal) = A1) (h0 : win0_1.index t (0 : Fin 4) = b.val)
    (h1 : win0_1.index t (1 : Fin 4) * 1000 + p.val = n.val) (h2 : win0_1.index t (2 : Fin 4) = 0)
    (h3 : win0_1.index t (3 : Fin 4) = 0) (k : Fin 16) (d : Fin 64) :
    iblk m c 1 t (ix4 (0 : Fin 1) p k d) = A1 (ix4 b n k d) := by
  unfold iblk
  rw [hA]
  show A1 (((cfg0.win 1).blk t).view.emb (ix4 (0 : Fin 1) p k d)) = _
  refine congrArg A1 (funext fun a => Fin.ext ?_)
  match a with
  | ⟨0, _⟩ => show win0_1.index t (0 : Fin 4) * 1 + 1 * 0 = b.val; omega
  | ⟨1, _⟩ => show win0_1.index t (1 : Fin 4) * 1000 + 1 * p.val = n.val; omega
  | ⟨2, _⟩ => show win0_1.index t (2 : Fin 4) * 16 + 1 * k.val = k.val; omega
  | ⟨3, _⟩ => show win0_1.index t (3 : Fin 4) * 64 + 1 * d.val = d.val; omega

/-- Row `(p, k)` of window 2's block is neighbour `k` of node `n` of batch `b`. -/
theorem read2 (hA : (V m c (Pipeline.arrRef spec0 2) : S4x20000x16x2.Idx → EReal) = A2) (h0 : win0_2.index t (0 : Fin 4) = b.val)
    (h1 : win0_2.index t (1 : Fin 4) * 1000 + p.val = n.val) (h2 : win0_2.index t (2 : Fin 4) = 0)
    (h3 : win0_2.index t (3 : Fin 4) = 0) (k : Fin 16) (d : Fin 2) :
    iblk m c 2 t (ix4 (0 : Fin 1) p k d) = A2 (ix4 b n k d) := by
  unfold iblk
  rw [hA]
  show A2 (((cfg0.win 2).blk t).view.emb (ix4 (0 : Fin 1) p k d)) = _
  refine congrArg A2 (funext fun a => Fin.ext ?_)
  match a with
  | ⟨0, _⟩ => show win0_2.index t (0 : Fin 4) * 1 + 1 * 0 = b.val; omega
  | ⟨1, _⟩ => show win0_2.index t (1 : Fin 4) * 1000 + 1 * p.val = n.val; omega
  | ⟨2, _⟩ => show win0_2.index t (2 : Fin 4) * 16 + 1 * k.val = k.val; omega
  | ⟨3, _⟩ => show win0_2.index t (3 : Fin 4) * 2 + 1 * d.val = d.val; omega

/-- Entry `p` of the mask block is node `n` of batch `b`. -/
theorem read3 (hA : (V m c (Pipeline.arrRef spec0 3) : S4x20000x1.Idx → EReal) = A3) (h0 : win0_3.index t (0 : Fin 3) = b.val)
    (h1 : win0_3.index t (1 : Fin 3) * 1000 + p.val = n.val) (h2 : win0_3.index t (2 : Fin 3) = 0) :
    iblk m c 3 t (ix3 (0 : Fin 1) p (0 : Fin 1)) = A3 (ix3 b n (0 : Fin 1)) := by
  unfold iblk
  rw [hA]
  show A3 (((cfg0.win 3).blk t).view.emb (ix3 (0 : Fin 1) p (0 : Fin 1))) = _
  refine congrArg A3 (funext fun a => Fin.ext ?_)
  match a with
  | ⟨0, _⟩ => show win0_3.index t (0 : Fin 3) * 1 + 1 * 0 = b.val; omega
  | ⟨1, _⟩ => show win0_3.index t (1 : Fin 3) * 1000 + 1 * p.val = n.val; omega
  | ⟨2, _⟩ => show win0_3.index t (2 : Fin 3) * 1 + 1 * 0 = 0; omega

/-- Window 4 stages its whole array at every point. -/
theorem read4 (hA : (V m c (Pipeline.arrRef spec0 4) : S64x64.Idx → EReal) = A4) (h0 : win0_4.index t (0 : Fin 2) = 0) (h1 : win0_4.index t (1 : Fin 2) = 0)
    (d : Fin 64) (o : Fin 64) : iblk m c 4 t (ix2 d o) = A4 (ix2 d o) := by
  unfold iblk
  rw [hA]
  show A4 (((cfg0.win 4).blk t).view.emb (ix2 d o)) = _
  refine congrArg A4 (funext fun a => Fin.ext ?_)
  match a with
  | ⟨0, _⟩ => show win0_4.index t (0 : Fin 2) * 64 + 1 * d.val = d.val; omega
  | ⟨1, _⟩ => show win0_4.index t (1 : Fin 2) * 64 + 1 * o.val = o.val; omega

/-- Window 5 stages its whole array at every point. -/
theorem read5 (hA : (V m c (Pipeline.arrRef spec0 5) : S64x64.Idx → EReal) = A5) (h0 : win0_5.index t (0 : Fin 2) = 0) (h1 : win0_5.index t (1 : Fin 2) = 0)
    (d : Fin 64) (o : Fin 64) : iblk m c 5 t (ix2 d o) = A5 (ix2 d o) := by
  unfold iblk
  rw [hA]
  show A5 (((cfg0.win 5).blk t).view.emb (ix2 d o)) = _
  refine congrArg A5 (funext fun a => Fin.ext ?_)
  match a with
  | ⟨0, _⟩ => show win0_5.index t (0 : Fin 2) * 64 + 1 * d.val = d.val; omega
  | ⟨1, _⟩ => show win0_5.index t (1 : Fin 2) * 64 + 1 * o.val = o.val; omega

/-- Window 6 stages its whole array at every point. -/
theorem read6 (hA : (V m c (Pipeline.arrRef spec0 6) : S2x64.Idx → EReal) = A6) (h0 : win0_6.index t (0 : Fin 2) = 0) (h1 : win0_6.index t (1 : Fin 2) = 0)
    (d : Fin 2) (o : Fin 64) : iblk m c 6 t (ix2 d o) = A6 (ix2 d o) := by
  unfold iblk
  rw [hA]
  show A6 (((cfg0.win 6).blk t).view.emb (ix2 d o)) = _
  refine congrArg A6 (funext fun a => Fin.ext ?_)
  match a with
  | ⟨0, _⟩ => show win0_6.index t (0 : Fin 2) * 2 + 1 * d.val = d.val; omega
  | ⟨1, _⟩ => show win0_6.index t (1 : Fin 2) * 64 + 1 * o.val = o.val; omega

/-- Window 7 stages its whole one-row array at every point. -/
theorem read7 (hA : (V m c (Pipeline.arrRef spec0 7) : S1x64.Idx → EReal) = A7) (h0 : win0_7.index t (0 : Fin 2) = 0) (h1 : win0_7.index t (1 : Fin 2) = 0)
    (o : Fin 64) : iblk m c 7 t (ix2 (0 : Fin 1) o) = A7 (ix2 (0 : Fin 1) o) := by
  unfold iblk
  rw [hA]
  show A7 (((cfg0.win 7).blk t).view.emb (ix2 (0 : Fin 1) o)) = _
  refine congrArg A7 (funext fun a => Fin.ext ?_)
  match a with
  | ⟨0, _⟩ => show win0_7.index t (0 : Fin 2) * 1 + 1 * 0 = 0; omega
  | ⟨1, _⟩ => show win0_7.index t (1 : Fin 2) * 64 + 1 * o.val = o.val; omega

/-- Window 8 stages its whole array at every point. -/
theorem read8 (hA : (V m c (Pipeline.arrRef spec0 8) : S64x64.Idx → EReal) = A8) (h0 : win0_8.index t (0 : Fin 2) = 0) (h1 : win0_8.index t (1 : Fin 2) = 0)
    (d : Fin 64) (o : Fin 64) : iblk m c 8 t (ix2 d o) = A8 (ix2 d o) := by
  unfold iblk
  rw [hA]
  show A8 (((cfg0.win 8).blk t).view.emb (ix2 d o)) = _
  refine congrArg A8 (funext fun a => Fin.ext ?_)
  match a with
  | ⟨0, _⟩ => show win0_8.index t (0 : Fin 2) * 64 + 1 * d.val = d.val; omega
  | ⟨1, _⟩ => show win0_8.index t (1 : Fin 2) * 64 + 1 * o.val = o.val; omega

/-- Window 9 stages its whole array at every point. -/
theorem read9 (hA : (V m c (Pipeline.arrRef spec0 9) : S64x64.Idx → EReal) = A9) (h0 : win0_9.index t (0 : Fin 2) = 0) (h1 : win0_9.index t (1 : Fin 2) = 0)
    (d : Fin 64) (o : Fin 64) : iblk m c 9 t (ix2 d o) = A9 (ix2 d o) := by
  unfold iblk
  rw [hA]
  show A9 (((cfg0.win 9).blk t).view.emb (ix2 d o)) = _
  refine congrArg A9 (funext fun a => Fin.ext ?_)
  match a with
  | ⟨0, _⟩ => show win0_9.index t (0 : Fin 2) * 64 + 1 * d.val = d.val; omega
  | ⟨1, _⟩ => show win0_9.index t (1 : Fin 2) * 64 + 1 * o.val = o.val; omega

/-- Window 10 stages its whole one-row array at every point. -/
theorem read10 (hA : (V m c (Pipeline.arrRef spec0 10) : S1x64.Idx → EReal) = A10) (h0 : win0_10.index t (0 : Fin 2) = 0) (h1 : win0_10.index t (1 : Fin 2) = 0)
    (o : Fin 64) : iblk m c 10 t (ix2 (0 : Fin 1) o) = A10 (ix2 (0 : Fin 1) o) := by
  unfold iblk
  rw [hA]
  show A10 (((cfg0.win 10).blk t).view.emb (ix2 (0 : Fin 1) o)) = _
  refine congrArg A10 (funext fun a => Fin.ext ?_)
  match a with
  | ⟨0, _⟩ => show win0_10.index t (0 : Fin 2) * 1 + 1 * 0 = 0; omega
  | ⟨1, _⟩ => show win0_10.index t (1 : Fin 2) * 64 + 1 * o.val = o.val; omega

/-- Window 11 stages its whole one-row array at every point. -/
theorem read11 (hA : (V m c (Pipeline.arrRef spec0 11) : S1x64.Idx → EReal) = A11) (h0 : win0_11.index t (0 : Fin 2) = 0) (h1 : win0_11.index t (1 : Fin 2) = 0)
    (o : Fin 64) : iblk m c 11 t (ix2 (0 : Fin 1) o) = A11 (ix2 (0 : Fin 1) o) := by
  unfold iblk
  rw [hA]
  show A11 (((cfg0.win 11).blk t).view.emb (ix2 (0 : Fin 1) o)) = _
  refine congrArg A11 (funext fun a => Fin.ext ?_)
  match a with
  | ⟨0, _⟩ => show win0_11.index t (0 : Fin 2) * 1 + 1 * 0 = 0; omega
  | ⟨1, _⟩ => show win0_11.index t (1 : Fin 2) * 64 + 1 * o.val = o.val; omega

/-- Window 12 stages its whole one-row array at every point. -/
theorem read12 (hA : (V m c (Pipeline.arrRef spec0 12) : S1x64.Idx → EReal) = A12) (h0 : win0_12.index t (0 : Fin 2) = 0) (h1 : win0_12.index t (1 : Fin 2) = 0)
    (o : Fin 64) : iblk m c 12 t (ix2 (0 : Fin 1) o) = A12 (ix2 (0 : Fin 1) o) := by
  unfold iblk
  rw [hA]
  show A12 (((cfg0.win 12).blk t).view.emb (ix2 (0 : Fin 1) o)) = _
  refine congrArg A12 (funext fun a => Fin.ext ?_)
  match a with
  | ⟨0, _⟩ => show win0_12.index t (0 : Fin 2) * 1 + 1 * 0 = 0; omega
  | ⟨1, _⟩ => show win0_12.index t (1 : Fin 2) * 64 + 1 * o.val = o.val; omega

end reads

end Cert.KernelIdeal.Blocks

end
-- ==== Proof.KernelArray.lean ====
/-
  The kernel's result array after the run.

  Point `t` of the grid writes back block `t` of the function `GK` of the thirteen arrays (the body's result on the
  staged blocks, each block read where the output block's rows say); the eighty blocks tile the `[4, 20000, 64]` array
  (the point that covers node `n` of batch `b` is `(b, n / 1000)`); so the array ends holding `GK` everywhere.
-/
import proofs.«150312_j88218628260532_1_alg».proof.Proof.Blocks

noncomputable section

open scoped BigOperators

namespace Cert.KernelIdeal.Blocks

open Cert.KernelIdeal Cert.KernelIdeal.Gen Cert.KernelIdeal.Value Cert.KernelIdeal.Row
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)
variable (A0 : S4x20000x64.Idx → EReal) (A1 : S4x20000x16x64.Idx → EReal) (A2 : S4x20000x16x2.Idx → EReal) (A3 : S4x20000x1.Idx → EReal) (A4 : S64x64.Idx → EReal) (A5 : S64x64.Idx → EReal) (A6 : S2x64.Idx → EReal) (A7 : S1x64.Idx → EReal) (A8 : S64x64.Idx → EReal) (A9 : S64x64.Idx → EReal) (A10 : S1x64.Idx → EReal) (A11 : S1x64.Idx → EReal) (A12 : S1x64.Idx → EReal)

/-- WHAT POINT `t` WRITES BACK is block `t` of `GK` of the arrays the region finds. -/
theorem flushed_eq (c : Dev nD)
    (hA0 : (V m c (Pipeline.arrRef spec0 0) : S4x20000x64.Idx → EReal) = A0)
    (hA1 : (V m c (Pipeline.arrRef spec0 1) : S4x20000x16x64.Idx → EReal) = A1)
    (hA2 : (V m c (Pipeline.arrRef spec0 2) : S4x20000x16x2.Idx → EReal) = A2)
    (hA3 : (V m c (Pipeline.arrRef spec0 3) : S4x20000x1.Idx → EReal) = A3)
    (hA4 : (V m c (Pipeline.arrRef spec0 4) : S64x64.Idx → EReal) = A4)
    (hA5 : (V m c (Pipeline.arrRef spec0 5) : S64x64.Idx → EReal) = A5)
    (hA6 : (V m c (Pipeline.arrRef spec0 6) : S2x64.Idx → EReal) = A6)
    (hA7 : (V m c (Pipeline.arrRef spec0 7) : S1x64.Idx → EReal) = A7)
    (hA8 : (V m c (Pipeline.arrRef spec0 8) : S64x64.Idx → EReal) = A8)
    (hA9 : (V m c (Pipeline.arrRef spec0 9) : S64x64.Idx → EReal) = A9)
    (hA10 : (V m c (Pipeline.arrRef spec0 10) : S1x64.Idx → EReal) = A10)
    (hA11 : (V m c (Pipeline.arrRef spec0 11) : S1x64.Idx → EReal) = A11)
    (hA12 : (V m c (Pipeline.arrRef spec0 12) : S1x64.Idx → EReal) = A12)
    (t : Fin cfg0.N) :
    (dats m 0 c).flushed 13 t = ((cfg0.win 13).blk t).view.read (Elt Ideal) (GK A0 A1 A2 A3 A4 A5 A6 A7 A8 A9 A10 A11 A12) := by
  rw [Value.flushed13]
  obtain ⟨i0, i1, i2, a00, a01, a02, a10, a11, a12, a13, a20, a21, a22, a23, a30, a31, a32, a40, a41, a50, a51, a60, a61,
    a70, a71, a80, a81, a90, a91, a100, a101, a110, a111, a120, a121⟩ := idx_facts t
  funext j
  obtain ⟨u, p, q, rfl⟩ : ∃ (u : Fin 1) (p : Fin 1000) (q : Fin 64), j = ix3 u p q := ⟨j 0, j 1, j 2, eq_ix3 j⟩
  obtain rfl : u = 0 := Fin.ext (by omega)
  have hn : win0_13.index t (1 : Fin 3) * 1000 + p.val < 20000 := by have := p.isLt; omega
  have he : ((cfg0.win 13).blk t).view.emb (ix3 (0 : Fin 1) p q)
      = ix3 (⟨win0_13.index t (0 : Fin 3), i0⟩ : Fin 4) (⟨win0_13.index t (1 : Fin 3) * 1000 + p.val, hn⟩ : Fin 20000) q :=
    funext fun a => Fin.ext (by
      match a with
      | ⟨0, _⟩ => show win0_13.index t (0 : Fin 3) * 1 + 1 * 0 = win0_13.index t (0 : Fin 3); omega
      | ⟨1, _⟩ => show win0_13.index t (1 : Fin 3) * 1000 + 1 * p.val = win0_13.index t (1 : Fin 3) * 1000 + p.val; omega
      | ⟨2, _⟩ => show win0_13.index t (2 : Fin 3) * 64 + 1 * q.val = q.val; omega)
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 (0 : Fin 1) p q)
    = GK A0 A1 A2 A3 A4 A5 A6 A7 A8 A9 A10 A11 A12 (((cfg0.win 13).blk t).view.emb (ix3 (0 : Fin 1) p q))
  rw [he]
  refine (out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p q).trans ?_
  show _ = gk A0 A1 A2 A3 A4 A5 A6 A7 A8 A9 A10 A11 A12 (⟨win0_13.index t (0 : Fin 3), i0⟩ : Fin 4)
    (⟨win0_13.index t (1 : Fin 3) * 1000 + p.val, hn⟩ : Fin 20000) q
  unfold gk
  simp only [read0 m c t ⟨win0_13.index t (0 : Fin 3), i0⟩ ⟨win0_13.index t (1 : Fin 3) * 1000 + p.val, hn⟩ p A0 hA0 a00 (by rw [a01]) a02,
    read1 m c t ⟨win0_13.index t (0 : Fin 3), i0⟩ ⟨win0_13.index t (1 : Fin 3) * 1000 + p.val, hn⟩ p A1 hA1 a10 (by rw [a11]) a12 a13,
    read2 m c t ⟨win0_13.index t (0 : Fin 3), i0⟩ ⟨win0_13.index t (1 : Fin 3) * 1000 + p.val, hn⟩ p A2 hA2 a20 (by rw [a21]) a22 a23,
    read3 m c t ⟨win0_13.index t (0 : Fin 3), i0⟩ ⟨win0_13.index t (1 : Fin 3) * 1000 + p.val, hn⟩ p A3 hA3 a30 (by rw [a31]) a32,
    read4 m c t A4 hA4 a40 a41, read5 m c t A5 hA5 a50 a51, read6 m c t A6 hA6 a60 a61, read7 m c t A7 hA7 a70 a71,
    read8 m c t A8 hA8 a80 a81, read9 m c t A9 hA9 a90 a91, read10 m c t A10 hA10 a100 a101,
    read11 m c t A11 hA11 a110 a111, read12 m c t A12 hA12 a120 a121]

/-- An index of the array is in point `t`'s block iff each coordinate is in the block's range on its axis. -/
theorem mem_blk (t : Fin cfg0.N) (i : S4x20000x64.Idx) :
    i ∈ ((cfg0.win 13).blk t).view.set ↔ ∀ a : Fin 3, win0_13.index t a * S1x1000x64.size a ≤ (i a).val
      ∧ (i a).val < win0_13.index t a * S1x1000x64.size a + S1x1000x64.size a := by
  show i ∈ ((View.whole main_v20).slice (win0_13.rect t)).set ↔ _
  rw [View.set_slice_whole, Rect.mem_set_unit]
  exact Iff.rfl

/-- Every index of the result array is in some point's block. -/
theorem cover (i : S4x20000x64.Idx) :
    ∃ t : Fin cfg0.N, (cfg0.win 13).flush t = true ∧ i ∈ ((cfg0.win 13).blk t).view.set := by
  have hi0 : (i 0).val < 4 := (i 0).isLt
  have hi1 : (i 1).val < 20000 := (i 1).isLt
  have hi2 : (i 2).val < 64 := (i 2).isLt
  obtain ⟨t, ht⟩ := idx_onto ⟨(i 0).val, hi0⟩ ⟨(i 1).val / 1000, by omega⟩
  have q0 : win0_13.index t (0 : Fin 3) = (i 0).val := congrFun ht 0
  have q1 : win0_13.index t (1 : Fin 3) = (i 1).val / 1000 := congrFun ht 1
  have q2 : win0_13.index t (2 : Fin 3) = 0 := congrFun ht 2
  refine ⟨t, flush0_13 t, ?_⟩
  rw [mem_blk]
  intro a
  match a with
  | ⟨0, _⟩ => show win0_13.index t (0 : Fin 3) * 1 ≤ (i 0).val ∧ (i 0).val < win0_13.index t (0 : Fin 3) * 1 + 1; omega
  | ⟨1, _⟩ => show win0_13.index t (1 : Fin 3) * 1000 ≤ (i 1).val ∧ (i 1).val < win0_13.index t (1 : Fin 3) * 1000 + 1000; omega
  | ⟨2, _⟩ => show win0_13.index t (2 : Fin 3) * 64 ≤ (i 2).val ∧ (i 2).val < win0_13.index t (2 : Fin 3) * 64 + 64; omega

/-- THE RESULT ARRAY after the run is `GK` of the arrays the region finds. -/
theorem final (c : Dev nD)
    (hA0 : (V m c (Pipeline.arrRef spec0 0) : S4x20000x64.Idx → EReal) = A0)
    (hA1 : (V m c (Pipeline.arrRef spec0 1) : S4x20000x16x64.Idx → EReal) = A1)
    (hA2 : (V m c (Pipeline.arrRef spec0 2) : S4x20000x16x2.Idx → EReal) = A2)
    (hA3 : (V m c (Pipeline.arrRef spec0 3) : S4x20000x1.Idx → EReal) = A3)
    (hA4 : (V m c (Pipeline.arrRef spec0 4) : S64x64.Idx → EReal) = A4)
    (hA5 : (V m c (Pipeline.arrRef spec0 5) : S64x64.Idx → EReal) = A5)
    (hA6 : (V m c (Pipeline.arrRef spec0 6) : S2x64.Idx → EReal) = A6)
    (hA7 : (V m c (Pipeline.arrRef spec0 7) : S1x64.Idx → EReal) = A7)
    (hA8 : (V m c (Pipeline.arrRef spec0 8) : S64x64.Idx → EReal) = A8)
    (hA9 : (V m c (Pipeline.arrRef spec0 9) : S64x64.Idx → EReal) = A9)
    (hA10 : (V m c (Pipeline.arrRef spec0 10) : S1x64.Idx → EReal) = A10)
    (hA11 : (V m c (Pipeline.arrRef spec0 11) : S1x64.Idx → EReal) = A11)
    (hA12 : (V m c (Pipeline.arrRef spec0 12) : S1x64.Idx → EReal) = A12) :
    (dats m 0 c).arrAt 13 cfg0.N = GK A0 A1 A2 A3 A4 A5 A6 A7 A8 A9 A10 A11 A12 :=
  (dats m 0 c).arrAt_eq_of_cover 13 (GK A0 A1 A2 A3 A4 A5 A6 A7 A8 A9 A10 A11 A12)
    (fun t _ => flushed_eq m A0 A1 A2 A3 A4 A5 A6 A7 A8 A9 A10 A11 A12 c hA0 hA1 hA2 hA3 hA4 hA5 hA6 hA7 hA8 hA9 hA10 hA11 hA12 t) cover

end Cert.KernelIdeal.Blocks

end
-- ==== Proof.HostArrays.lean ====
/-
  The thirteen arrays the region finds, as terms of the arguments.

  Before the call the host gathers the neighbour features and positions (two calls of the same clamped, range-checked
  gather that the reference makes: stated here as the reference's own stages `val_main_v3` and `val_main_v9`, so that the
  two programs share them without the gather ever being opened), subtracts the node's own position, gives the mask a
  unit last axis, cuts the edge weights into rows 0–63, 64–127 and 128–129 and the node weights into rows 0–63 and
  64–127, and views the four length-64 vectors as one-row arrays. The host's gather and its boolean reduction are kept
  folded while the two spellings are compared: the comparison never needs to look inside them.
-/
import proofs.«150312_j88218628260532_1_alg».proof.Proof.Gen.KernelIdeal.Frame
import proofs.«150312_j88218628260532_1_alg».proof.Proof.RefRead
import Idealize.ShloMosaic.Lib.StableHlo.Run

noncomputable section

namespace Cert.KernelIdeal.HostArrays

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (c : Dev nD)

/-! ## The typed references' casts are the identity

A called function's operations read and write their buffers through typed references, whose contents are transported
along the buffer's type equation. Written and read back through one reference the transport cancels; at the few buffers
that one side touches through a typed reference and the other directly, the type equation holds by computation and the
transport is the identity. With these the fold's term has no transport left, and meets the stages' terms operation by
operation. -/

/-- Contents written through a typed reference and read back through it are the contents. -/
theorem ofBuf_toBuf {T : BufTy} (x : TRef sig T) (v : T.Contents (Elt Ideal)) : x.ofBuf (x.toBuf v) = v := by
  obtain ⟨r, h, d, u⟩ := x
  cases h
  rfl

theorem ofBuf_main_v1 (h1 h2 h3) (v : (main_v1 : Ref sig .tc).ty.Contents (Elt Ideal)) :
    (TRef.of (sig := sig) (T := ⟨S4x320000x1, .i32⟩) main_v1 h1 h2 h3).ofBuf v = v := rfl

theorem ofBuf_main_arg0 (h1 h2 h3) (v : (main_arg0 : Ref sig .tc).ty.Contents (Elt Ideal)) :
    (TRef.of (sig := sig) (T := ⟨S4x20000x64, .f32⟩) main_arg0 h1 h2 h3).ofBuf v = v := rfl

theorem toBuf_main_v2 (h1 h2 h3) (v : (⟨S4x320000x64, .f32⟩ : BufTy).Contents (Elt Ideal)) :
    (TRef.of (sig := sig) (T := ⟨S4x320000x64, .f32⟩) main_v2 h1 h2 h3).toBuf v = v := rfl

theorem ofBuf_main_v4 (h1 h2 h3) (v : (main_v4 : Ref sig .tc).ty.Contents (Elt Ideal)) :
    (TRef.of (sig := sig) (T := ⟨S4x320000x1, .i32⟩) main_v4 h1 h2 h3).ofBuf v = v := rfl

theorem ofBuf_main_arg1 (h1 h2 h3) (v : (main_arg1 : Ref sig .tc).ty.Contents (Elt Ideal)) :
    (TRef.of (sig := sig) (T := ⟨S4x20000x2, .f32⟩) main_arg1 h1 h2 h3).ofBuf v = v := rfl

theorem toBuf_main_v5 (h1 h2 h3) (v : (⟨S4x320000x2, .f32⟩ : BufTy).Contents (Elt Ideal)) :
    (TRef.of (sig := sig) (T := ⟨S4x320000x2, .f32⟩) main_v5 h1 h2 h3).toBuf v = v := rfl

attribute [local irreducible] Host.gather Host.reduce

/-- Window 0 stages the node features, which no host operation writes. -/
theorem arr0 : (V m c (Pipeline.arrRef spec0 0) : S4x20000x64.Idx → EReal) = (m ((c : Thread nD τ).loc main_arg0) : S4x20000x64.Idx → EReal) :=
  V_main_arg0 m c

/-- Window 1's array, `main_v3`, as the host operations before the region leave it. -/
theorem arr1 : (V m c (Pipeline.arrRef spec0 1) : S4x20000x16x64.Idx → EReal) = Cert.ReferenceIdeal.Read.val_main_v3 (F := Ideal) (m ((c : Thread nD τ).loc main_arg0)) (m ((c : Thread nD τ).loc main_arg2)) := by
  show (V m c main_v3 : S4x20000x16x64.Idx → EReal) = _
  dsimp only [V]
  simp only [hostOps0, hostOps0_1, hostOps0_2, hostOps0_3, hostOps0_4, List.flatten_cons, List.flatten_nil,
    List.append_nil, List.cons_append, List.nil_append]
  after_results_simp
  simp only [ofBuf_toBuf, ofBuf_main_v1, ofBuf_main_arg0, toBuf_main_v2, ofBuf_main_v4, ofBuf_main_arg1, toBuf_main_v5]
  rfl

/-- Window 2's array, `main_v9`, as the host operations before the region leave it. -/
theorem arr2 : (V m c (Pipeline.arrRef spec0 2) : S4x20000x16x2.Idx → EReal) = Cert.ReferenceIdeal.Read.val_main_v9 (F := Ideal) (m ((c : Thread nD τ).loc main_arg1)) (m ((c : Thread nD τ).loc main_arg2)) := by
  show (V m c main_v9 : S4x20000x16x2.Idx → EReal) = _
  dsimp only [V]
  simp only [hostOps0, hostOps0_1, hostOps0_2, hostOps0_3, hostOps0_4, List.flatten_cons, List.flatten_nil,
    List.append_nil, List.cons_append, List.nil_append]
  after_results_simp
  simp only [ofBuf_toBuf, ofBuf_main_v1, ofBuf_main_arg0, toBuf_main_v2, ofBuf_main_v4, ofBuf_main_arg1, toBuf_main_v5]
  rfl

/-- Window 3's array, `main_v10`, as the host operations before the region leave it. -/
theorem arr3 : (V m c (Pipeline.arrRef spec0 3) : S4x20000x1.Idx → EReal) = broadcastInDim S4x20000x1 ![0, 1] bcast_S4x20000_S4x20000x1_0_1 (m ((c : Thread nD τ).loc main_arg3) : S4x20000.Idx → EReal) := by
  show (V m c main_v10 : S4x20000x1.Idx → EReal) = _
  dsimp only [V]
  simp only [hostOps0, hostOps0_1, hostOps0_2, hostOps0_3, hostOps0_4, List.flatten_cons, List.flatten_nil,
    List.append_nil, List.cons_append, List.nil_append]
  after_results_simp <;> rfl

/-- Window 4's array, `main_v11`, as the host operations before the region leave it. -/
theorem arr4 : (V m c (Pipeline.arrRef spec0 4) : S64x64.Idx → EReal) = extractStridedSlice S64x64 ![0, 0] (m ((c : Thread nD τ).loc main_arg4) : S130x64.Idx → EReal) slices_S130x64_S64x64_0_0 := by
  show (V m c main_v11 : S64x64.Idx → EReal) = _
  dsimp only [V]
  simp only [hostOps0, hostOps0_1, hostOps0_2, hostOps0_3, hostOps0_4, List.flatten_cons, List.flatten_nil,
    List.append_nil, List.cons_append, List.nil_append]
  after_results_simp <;> rfl

/-- Window 5's array, `main_v12`, as the host operations before the region leave it. -/
theorem arr5 : (V m c (Pipeline.arrRef spec0 5) : S64x64.Idx → EReal) = extractStridedSlice S64x64 ![64, 0] (m ((c : Thread nD τ).loc main_arg4) : S130x64.Idx → EReal) slices_S130x64_S64x64_64_0 := by
  show (V m c main_v12 : S64x64.Idx → EReal) = _
  dsimp only [V]
  simp only [hostOps0, hostOps0_1, hostOps0_2, hostOps0_3, hostOps0_4, List.flatten_cons, List.flatten_nil,
    List.append_nil, List.cons_append, List.nil_append]
  after_results_simp <;> rfl

/-- Window 6's array, `main_v13`, as the host operations before the region leave it. -/
theorem arr6 : (V m c (Pipeline.arrRef spec0 6) : S2x64.Idx → EReal) = extractStridedSlice S2x64 ![128, 0] (m ((c : Thread nD τ).loc main_arg4) : S130x64.Idx → EReal) slices_S130x64_S2x64_128_0 := by
  show (V m c main_v13 : S2x64.Idx → EReal) = _
  dsimp only [V]
  simp only [hostOps0, hostOps0_1, hostOps0_2, hostOps0_3, hostOps0_4, List.flatten_cons, List.flatten_nil,
    List.append_nil, List.cons_append, List.nil_append]
  after_results_simp <;> rfl

/-- Window 7's array, `main_v14`, as the host operations before the region leave it. -/
theorem arr7 : (V m c (Pipeline.arrRef spec0 7) : S1x64.Idx → EReal) = shapeCast S1x64 (m ((c : Thread nD τ).loc main_arg5) : S64.Idx → EReal) shapeCasts_S64_S1x64 := by
  show (V m c main_v14 : S1x64.Idx → EReal) = _
  dsimp only [V]
  simp only [hostOps0, hostOps0_1, hostOps0_2, hostOps0_3, hostOps0_4, List.flatten_cons, List.flatten_nil,
    List.append_nil, List.cons_append, List.nil_append]
  after_results_simp <;> rfl

/-- Window 8's array, `main_v15`, as the host operations before the region leave it. -/
theorem arr8 : (V m c (Pipeline.arrRef spec0 8) : S64x64.Idx → EReal) = extractStridedSlice S64x64 ![0, 0] (m ((c : Thread nD τ).loc main_arg6) : S128x64.Idx → EReal) slices_S128x64_S64x64_0_0 := by
  show (V m c main_v15 : S64x64.Idx → EReal) = _
  dsimp only [V]
  simp only [hostOps0, hostOps0_1, hostOps0_2, hostOps0_3, hostOps0_4, List.flatten_cons, List.flatten_nil,
    List.append_nil, List.cons_append, List.nil_append]
  after_results_simp <;> rfl

/-- Window 9's array, `main_v16`, as the host operations before the region leave it. -/
theorem arr9 : (V m c (Pipeline.arrRef spec0 9) : S64x64.Idx → EReal) = extractStridedSlice S64x64 ![64, 0] (m ((c : Thread nD τ).loc main_arg6) : S128x64.Idx → EReal) slices_S128x64_S64x64_64_0 := by
  show (V m c main_v16 : S64x64.Idx → EReal) = _
  dsimp only [V]
  simp only [hostOps0, hostOps0_1, hostOps0_2, hostOps0_3, hostOps0_4, List.flatten_cons, List.flatten_nil,
    List.append_nil, List.cons_append, List.nil_append]
  after_results_simp <;> rfl

/-- Window 10's array, `main_v17`, as the host operations before the region leave it. -/
theorem arr10 : (V m c (Pipeline.arrRef spec0 10) : S1x64.Idx → EReal) = shapeCast S1x64 (m ((c : Thread nD τ).loc main_arg7) : S64.Idx → EReal) shapeCasts_S64_S1x64 := by
  show (V m c main_v17 : S1x64.Idx → EReal) = _
  dsimp only [V]
  simp only [hostOps0, hostOps0_1, hostOps0_2, hostOps0_3, hostOps0_4, List.flatten_cons, List.flatten_nil,
    List.append_nil, List.cons_append, List.nil_append]
  after_results_simp <;> rfl

/-- Window 11's array, `main_v18`, as the host operations before the region leave it. -/
theorem arr11 : (V m c (Pipeline.arrRef spec0 11) : S1x64.Idx → EReal) = shapeCast S1x64 (m ((c : Thread nD τ).loc main_arg8) : S64.Idx → EReal) shapeCasts_S64_S1x64 := by
  show (V m c main_v18 : S1x64.Idx → EReal) = _
  dsimp only [V]
  simp only [hostOps0, hostOps0_1, hostOps0_2, hostOps0_3, hostOps0_4, List.flatten_cons, List.flatten_nil,
    List.append_nil, List.cons_append, List.nil_append]
  after_results_simp <;> rfl

/-- Window 12's array, `main_v19`, as the host operations before the region leave it. -/
theorem arr12 : (V m c (Pipeline.arrRef spec0 12) : S1x64.Idx → EReal) = shapeCast S1x64 (m ((c : Thread nD τ).loc main_arg9) : S64.Idx → EReal) shapeCasts_S64_S1x64 := by
  show (V m c main_v19 : S1x64.Idx → EReal) = _
  dsimp only [V]
  simp only [hostOps0, hostOps0_1, hostOps0_2, hostOps0_3, hostOps0_4, List.flatten_cons, List.flatten_nil,
    List.append_nil, List.cons_append, List.nil_append]
  after_results_simp <;> rfl

end Cert.KernelIdeal.HostArrays

end
-- ==== Proof.Layer.lean ====
/-
  The layer's result as ONE function of whole arrays, entry by entry.

  For batch `b`, node `n`, channel `q`, the result is `Cert.MP.node` of
  * row `(b, n, ·)` of the node features `x`;
  * the sixteen gathered neighbour rows `nb (b, n, k, ·)` and relative positions `rp (b, n, k, ·)` (how they are gathered
    from the features, the positions and the edge table is the same host computation in both programs, and is not opened);
  * the mask entry `(b, n)`;
  * the edge weights cut into rows 0–63 (self), 64–127 (neighbour) and 128–129 (relative position), the node weights
    cut into rows 0–63 (self) and 64–127 (message), and the four length-64 vectors.
-/
import proofs.«150312_j88218628260532_1_alg».proof.Proof.Spec
import Idealize.ShloMosaic.Lib.ValueIdx

noncomputable section

namespace Cert.MP

open Idealize.ShloMosaic Idealize.ShloMosaic.ValueIdx

/-- Row `o + d` of an array of `n` rows. -/
def rowAt {m n : Nat} (o : Nat) (h : o + m ≤ n) (d : Fin m) : Fin n := ⟨o + d.val, by have := d.isLt; omega⟩

theorem rowAt_val {m n : Nat} (o : Nat) (h : o + m ≤ n) (d : Fin m) : (rowAt o h d).val = o + d.val := rfl

/-- The layer's result at batch `b`, node `n`, channel `q`. -/
def layer (z c16 c64 eps : EReal)
    (x : (⟨3, ![4, 20000, 64]⟩ : Shape).Idx → EReal) (nb : (⟨4, ![4, 20000, 16, 64]⟩ : Shape).Idx → EReal)
    (rp : (⟨4, ![4, 20000, 16, 2]⟩ : Shape).Idx → EReal) (mask : (⟨2, ![4, 20000]⟩ : Shape).Idx → EReal)
    (We : (⟨2, ![130, 64]⟩ : Shape).Idx → EReal) (be : (⟨1, ![64]⟩ : Shape).Idx → EReal)
    (Wn : (⟨2, ![128, 64]⟩ : Shape).Idx → EReal) (bn gamma beta : (⟨1, ![64]⟩ : Shape).Idx → EReal)
    (b : Fin 4) (n : Fin 20000) (q : Fin 64) : EReal :=
  node z c16 c64 eps (fun d => x (ix3 b n d)) (fun k d => nb (ix4 b n k d)) (fun k e => rp (ix4 b n k e)) (mask (ix2 b n))
    (fun d o => We (ix2 (Fin.castLE (by decide : 64 ≤ 130) d) o))
    (fun d o => We (ix2 (rowAt (m := 64) (n := 130) 64 (by decide) d) o))
    (fun e o => We (ix2 (rowAt (m := 2) (n := 130) 128 (by decide) e) o)) (fun o => be (ix1 o))
    (fun d o => Wn (ix2 (Fin.castLE (by decide : 64 ≤ 128) d) o))
    (fun j o => Wn (ix2 (rowAt (m := 64) (n := 128) 64 (by decide) j) o))
    (fun o => bn (ix1 o)) (fun o => gamma (ix1 o)) (fun o => beta (ix1 o)) q

end Cert.MP

end
-- ==== Proof.KernelLayer.lean ====
/-
  The kernel's run, read: its result array is the layer's function of the arguments.

  The thirteen arrays the region finds are the arguments themselves, the two gathered arrays, and re-laid pieces of the
  arguments (a mask column, row ranges of the two weight matrices, one-row views of the four vectors); read at an index,
  each piece is the argument's entry the specification `Cert.MP.layer` names. With the blocks-to-array module this gives
  the result array after the run as `Cert.MP.layer` at every index.
-/
import proofs.«150312_j88218628260532_1_alg».proof.Proof.KernelArray
import proofs.«150312_j88218628260532_1_alg».proof.Proof.HostArrays
import proofs.«150312_j88218628260532_1_alg».proof.Proof.Layer
import Idealize.ShloMosaic.Lib.ValueLayout

noncomputable section

open scoped BigOperators

namespace Cert.KernelIdeal.Final

open Cert.KernelIdeal Cert.KernelIdeal.Gen Cert.KernelIdeal.Value Cert.KernelIdeal.Row Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The layer's result array, of the ten arguments as launched (the gathered arrays as the reference's stages). -/
def G (c : Dev nD) : S4x20000x64.Idx → EReal := fun i =>
  MP.layer zero c16 c64 eps (m ((c : Thread nD τ).loc main_arg0))
    (Cert.ReferenceIdeal.Read.val_main_v3 (F := Ideal) (m ((c : Thread nD τ).loc main_arg0)) (m ((c : Thread nD τ).loc main_arg2)))
    (Cert.ReferenceIdeal.Read.val_main_v9 (F := Ideal) (m ((c : Thread nD τ).loc main_arg1)) (m ((c : Thread nD τ).loc main_arg2)))
    (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i 0) (i 1) (i 2)

/-- A mask given a unit last axis reads its entry `(b, n)` at `(b, n, 0)`. -/
theorem mask_apply (x : S4x20000.Idx → EReal) (b : Fin 4) (n : Fin 20000) :
    broadcastInDim S4x20000x1 ![0, 1] bcast_S4x20000_S4x20000x1_0_1 x (ix3 b n (0 : Fin 1)) = x (ix2 b n) :=
  broadcastInDim_apply _ bcast_S4x20000_S4x20000x1_0_1 x (ix3 b n (0 : Fin 1)) (ix2 b n) (fun a => by
    match a with
    | ⟨0, _⟩ => show b.val = if (4 : Nat) = 1 then 0 else b.val; rw [if_neg (by decide)]
    | ⟨1, _⟩ => show n.val = if (20000 : Nat) = 1 then 0 else n.val; rw [if_neg (by decide)])

/-- THE ARRAYS' FUNCTION IS THE LAYER: `GK` of the thirteen arrays the region finds is `G` of the arguments. -/
theorem GK_eq (c : Dev nD) :
    GK ((m ((c : Thread nD τ).loc main_arg0) : S4x20000x64.Idx → EReal))
      (Cert.ReferenceIdeal.Read.val_main_v3 (F := Ideal) (m ((c : Thread nD τ).loc main_arg0)) (m ((c : Thread nD τ).loc main_arg2)))
      (Cert.ReferenceIdeal.Read.val_main_v9 (F := Ideal) (m ((c : Thread nD τ).loc main_arg1)) (m ((c : Thread nD τ).loc main_arg2)))
      (broadcastInDim S4x20000x1 ![0, 1] bcast_S4x20000_S4x20000x1_0_1 (m ((c : Thread nD τ).loc main_arg3) : S4x20000.Idx → EReal))
      (extractStridedSlice S64x64 ![0, 0] (m ((c : Thread nD τ).loc main_arg4) : S130x64.Idx → EReal) slices_S130x64_S64x64_0_0)
      (extractStridedSlice S64x64 ![64, 0] (m ((c : Thread nD τ).loc main_arg4) : S130x64.Idx → EReal) slices_S130x64_S64x64_64_0)
      (extractStridedSlice S2x64 ![128, 0] (m ((c : Thread nD τ).loc main_arg4) : S130x64.Idx → EReal) slices_S130x64_S2x64_128_0)
      (shapeCast S1x64 (m ((c : Thread nD τ).loc main_arg5) : S64.Idx → EReal) shapeCasts_S64_S1x64)
      (extractStridedSlice S64x64 ![0, 0] (m ((c : Thread nD τ).loc main_arg6) : S128x64.Idx → EReal) slices_S128x64_S64x64_0_0)
      (extractStridedSlice S64x64 ![64, 0] (m ((c : Thread nD τ).loc main_arg6) : S128x64.Idx → EReal) slices_S128x64_S64x64_64_0)
      (shapeCast S1x64 (m ((c : Thread nD τ).loc main_arg7) : S64.Idx → EReal) shapeCasts_S64_S1x64)
      (shapeCast S1x64 (m ((c : Thread nD τ).loc main_arg8) : S64.Idx → EReal) shapeCasts_S64_S1x64)
      (shapeCast S1x64 (m ((c : Thread nD τ).loc main_arg9) : S64.Idx → EReal) shapeCasts_S64_S1x64)
      = G m c := by
  funext i
  obtain ⟨b, n, q, rfl⟩ : ∃ (b : Fin 4) (n : Fin 20000) (q : Fin 64), i = ix3 b n q := ⟨i 0, i 1, i 2, eq_ix3 i⟩
  unfold GK G
  show gk _ _ _ _ _ _ _ _ _ _ _ _ _ b n q = MP.layer _ _ _ _ _ _ _ _ _ _ _ _ _ _ b n q
  unfold gk MP.layer
  simp only [mask_apply,
    slice2_axis0_apply 0 _ slices_S130x64_S64x64_0_0 _ _ (Fin.castLE (by decide : 64 ≤ 130) _) (Nat.zero_add _).symm,
    slice2_axis0_apply 64 _ slices_S130x64_S64x64_64_0 _ _ (MP.rowAt (m := 64) (n := 130) 64 (by decide) _) rfl,
    slice2_axis0_apply 128 _ slices_S130x64_S2x64_128_0 _ _ (MP.rowAt (m := 2) (n := 130) 128 (by decide) _) rfl,
    slice2_axis0_apply 0 _ slices_S128x64_S64x64_0_0 _ _ (Fin.castLE (by decide : 64 ≤ 128) _) (Nat.zero_add _).symm,
    slice2_axis0_apply 64 _ slices_S128x64_S64x64_64_0 _ _ (MP.rowAt (m := 64) (n := 128) 64 (by decide) _) rfl,
    shapeCast_a_1a_apply _ shapeCasts_S64_S1x64]
  rw [mask_apply (m ((c : Thread nD τ).loc main_arg3)) b n]

/-- THE RESULT ARRAY after the run is the layer of the arguments. -/
theorem final (c : Dev nD) : (dats m 0 c).arrAt 13 cfg0.N = G m c :=
  (Blocks.final m _ _ _ _ _ _ _ _ _ _ _ _ _ c (HostArrays.arr0 m c) (HostArrays.arr1 m c) (HostArrays.arr2 m c)
    (HostArrays.arr3 m c) (HostArrays.arr4 m c) (HostArrays.arr5 m c) (HostArrays.arr6 m c) (HostArrays.arr7 m c)
    (HostArrays.arr8 m c) (HostArrays.arr9 m c) (HostArrays.arr10 m c) (HostArrays.arr11 m c) (HostArrays.arr12 m c)).trans
    (GK_eq m c)

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v20) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.Final

end
-- ==== Proof.RefRun.lean ====
/-
  The reference's run, read.

  The reference is a straight line of 116 host operations. Every weakly fair execution of it terminates with each buffer
  at the fold of the operations' results over the launch contents (the library's run of a straight line); what is proved
  here is what that fold holds in the result buffer: the last stage of the per-operation reading, `val_main_v62`, of the
  ten arguments — and that the arguments are left as they were.

  The fold is read in three stretches over an arbitrary valuation `W` of the buffers: through the two gathers and the
  relative positions (`opsA`), on through the hidden rows (`opsB`), and the normalisation (`opsC`). Each stretch's result
  is stated by the stage that holds it; the next stretch takes the stages it reads as hypotheses about `W`, so the
  gathered arrays and the hidden rows are carried as opaque values and are never compared by unfolding. The host's
  gather and its boolean reduction are kept folded meanwhile: no equation here looks inside them.
-/
import proofs.«150312_j88218628260532_1_alg».proof.Proof.RefRunOps
import proofs.«150312_j88218628260532_1_alg».proof.Proof.RefRead

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-! ## The three stretches -/

/-- Operations run one list after another. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- @main's operations 1–52: the reshape of the edge table, the two gathers, the relative positions. -/
abbrev opsA : List (HloOp τ sig (Elt F)) :=
  [ reshape main_arg2 main_v0 rfl shapeCasts_S4x20000x16_S4x320000,
    unary main_v0 main_v1 (broadcastInDim S4x320000x1 ![0, 1] bcast_S4x320000_S4x320000x1_0_1 : (⟨S4x320000, .i32⟩ : BufTy).Contents (Elt F) → (⟨S4x320000x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S4x320000x1, .i32⟩) main_call0_v0) (broadcastInDim S4x320000x1 ![] bcast_S_S4x320000x1),
    TRef.binary (TRef.of (T := ⟨S4x320000x1, .i32⟩) main_v1) (TRef.of (T := ⟨S4x320000x1, .i32⟩) main_call0_v0) (TRef.of (T := ⟨S4x320000x1, .i1⟩) main_call0_v1) (cmpi .slt),
    TRef.nullary (TRef.of (T := ⟨S_, .i32⟩) main_call0_c_0) (constantI S_ 32 20000#32),
    TRef.unary (TRef.of (T := ⟨S_, .i32⟩) main_call0_c_0) (TRef.of (T := ⟨S4x320000x1, .i32⟩) main_call0_v2) (broadcastInDim S4x320000x1 ![] bcast_S_S4x320000x1),
    TRef.binary (TRef.of (T := ⟨S4x320000x1, .i32⟩) main_v1) (TRef.of (T := ⟨S4x320000x1, .i32⟩) main_call0_v2) (TRef.of (T := ⟨S4x320000x1, .i32⟩) main_call0_v3) addi,
    TRef.ternary (TRef.of (T := ⟨S4x320000x1, .i1⟩) main_call0_v1) (TRef.of (T := ⟨S4x320000x1, .i32⟩) main_call0_v3) (TRef.of (T := ⟨S4x320000x1, .i32⟩) main_v1) (TRef.of (T := ⟨S4x320000x1, .i32⟩) main_call0_v4) select,
    TRef.nullary (TRef.of (T := ⟨S1, .i32⟩) main_call0_c_1) (constantI S1 32 19999#32),
    TRef.nullary (TRef.of (T := ⟨S_, .i32⟩) main_call0_c_2) (constantI S_ 32 0#32),
    TRef.unary (TRef.of (T := ⟨S_, .i32⟩) main_call0_c_2) (TRef.of (T := ⟨S4x320000x1, .i32⟩) main_call0_v5) (broadcastInDim S4x320000x1 ![] bcast_S_S4x320000x1),
    TRef.binary (TRef.of (T := ⟨S4x320000x1, .i32⟩) main_call0_v4) (TRef.of (T := ⟨S4x320000x1, .i32⟩) main_call0_v5) (TRef.of (T := ⟨S4x320000x1, .i1⟩) main_call0_v6) (cmpi .sge),
    TRef.unary (TRef.of (T := ⟨S1, .i32⟩) main_call0_c_1) (TRef.of (T := ⟨S1x1x1, .i32⟩) main_call0_v7) (broadcastInDim S1x1x1 ![2] bcast_S1_S1x1x1_2),
    TRef.unary (TRef.of (T := ⟨S1x1x1, .i32⟩) main_call0_v7) (TRef.of (T := ⟨S4x320000x1, .i32⟩) main_call0_v8) (broadcastInDim S4x320000x1 ![0, 1, 2] bcast_S1x1x1_S4x320000x1_0_1_2),
    TRef.binary (TRef.of (T := ⟨S4x320000x1, .i32⟩) main_call0_v4) (TRef.of (T := ⟨S4x320000x1, .i32⟩) main_call0_v8) (TRef.of (T := ⟨S4x320000x1, .i1⟩) main_call0_v9) (cmpi .sle),
    TRef.binary (TRef.of (T := ⟨S4x320000x1, .i1⟩) main_call0_v6) (TRef.of (T := ⟨S4x320000x1, .i1⟩) main_call0_v9) (TRef.of (T := ⟨S4x320000x1, .i1⟩) main_call0_v10) andi,
    TRef.nullary (TRef.of (T := ⟨S_, .i1⟩) main_call0_c_3) (constantI S_ 1 1#1),
    TRef.binary (TRef.of (T := ⟨S4x320000x1, .i1⟩) main_call0_v10) (TRef.of (T := ⟨S_, .i1⟩) main_call0_c_3) (TRef.of (T := ⟨S4x320000, .i1⟩) main_call0_v11) (fun x v => Host.reduce IntOp.andi x v reducesTo_S4x320000x1_S4x320000_d2 h_S_),
    TRef.binary (TRef.of (T := ⟨S4x20000x64, .f32⟩) main_arg0) (TRef.of (T := ⟨S4x320000x1, .i32⟩) main_call0_v4) (TRef.of (T := ⟨S4x320000x64, .f32⟩) main_call0_v12) (fun x i => Host.gather gather_S4x20000x64_S4x320000x1_S4x320000x64_2_1_0_0_1_2_1164 x i),
    TRef.unary (TRef.of (T := ⟨S4x320000, .i1⟩) main_call0_v11) (TRef.of (T := ⟨S4x320000x64, .i1⟩) main_call0_v13) (broadcastInDim S4x320000x64 ![0, 1] bcast_S4x320000_S4x320000x64_0_1),
    TRef.nullary (TRef.of (T := ⟨S_, .f32⟩) main_call0_cst) (constant S_ .f32 0x7FC00000#32),
    TRef.unary (TRef.of (T := ⟨S_, .f32⟩) main_call0_cst) (TRef.of (T := ⟨S4x320000x64, .f32⟩) main_call0_v14) (broadcastInDim S4x320000x64 ![] bcast_S_S4x320000x64),
    TRef.ternary (TRef.of (T := ⟨S4x320000x64, .i1⟩) main_call0_v13) (TRef.of (T := ⟨S4x320000x64, .f32⟩) main_call0_v12) (TRef.of (T := ⟨S4x320000x64, .f32⟩) main_call0_v14) (TRef.of (T := ⟨S4x320000x64, .f32⟩) main_v2) select,
    reshape main_v2 main_v3 rfl shapeCasts_S4x320000x64_S4x20000x16x64,
    unary main_v0 main_v4 (broadcastInDim S4x320000x1 ![0, 1] bcast_S4x320000_S4x320000x1_0_1 : (⟨S4x320000, .i32⟩ : BufTy).Contents (Elt F) → (⟨S4x320000x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4x320000x1, .i32⟩) main_call1_v0) (broadcastInDim S4x320000x1 ![] bcast_S_S4x320000x1),
    TRef.binary (TRef.of (T := ⟨S4x320000x1, .i32⟩) main_v4) (TRef.of (T := ⟨S4x320000x1, .i32⟩) main_call1_v0) (TRef.of (T := ⟨S4x320000x1, .i1⟩) main_call1_v1) (cmpi .slt),
    TRef.nullary (TRef.of (T := ⟨S_, .i32⟩) main_call1_c_0) (constantI S_ 32 20000#32),
    TRef.unary (TRef.of (T := ⟨S_, .i32⟩) main_call1_c_0) (TRef.of (T := ⟨S4x320000x1, .i32⟩) main_call1_v2) (broadcastInDim S4x320000x1 ![] bcast_S_S4x320000x1),
    TRef.binary (TRef.of (T := ⟨S4x320000x1, .i32⟩) main_v4) (TRef.of (T := ⟨S4x320000x1, .i32⟩) main_call1_v2) (TRef.of (T := ⟨S4x320000x1, .i32⟩) main_call1_v3) addi,
    TRef.ternary (TRef.of (T := ⟨S4x320000x1, .i1⟩) main_call1_v1) (TRef.of (T := ⟨S4x320000x1, .i32⟩) main_call1_v3) (TRef.of (T := ⟨S4x320000x1, .i32⟩) main_v4) (TRef.of (T := ⟨S4x320000x1, .i32⟩) main_call1_v4) select,
    TRef.nullary (TRef.of (T := ⟨S1, .i32⟩) main_call1_c_1) (constantI S1 32 19999#32),
    TRef.nullary (TRef.of (T := ⟨S_, .i32⟩) main_call1_c_2) (constantI S_ 32 0#32),
    TRef.unary (TRef.of (T := ⟨S_, .i32⟩) main_call1_c_2) (TRef.of (T := ⟨S4x320000x1, .i32⟩) main_call1_v5) (broadcastInDim S4x320000x1 ![] bcast_S_S4x320000x1),
    TRef.binary (TRef.of (T := ⟨S4x320000x1, .i32⟩) main_call1_v4) (TRef.of (T := ⟨S4x320000x1, .i32⟩) main_call1_v5) (TRef.of (T := ⟨S4x320000x1, .i1⟩) main_call1_v6) (cmpi .sge),
    TRef.unary (TRef.of (T := ⟨S1, .i32⟩) main_call1_c_1) (TRef.of (T := ⟨S1x1x1, .i32⟩) main_call1_v7) (broadcastInDim S1x1x1 ![2] bcast_S1_S1x1x1_2),
    TRef.unary (TRef.of (T := ⟨S1x1x1, .i32⟩) main_call1_v7) (TRef.of (T := ⟨S4x320000x1, .i32⟩) main_call1_v8) (broadcastInDim S4x320000x1 ![0, 1, 2] bcast_S1x1x1_S4x320000x1_0_1_2),
    TRef.binary (TRef.of (T := ⟨S4x320000x1, .i32⟩) main_call1_v4) (TRef.of (T := ⟨S4x320000x1, .i32⟩) main_call1_v8) (TRef.of (T := ⟨S4x320000x1, .i1⟩) main_call1_v9) (cmpi .sle),
    TRef.binary (TRef.of (T := ⟨S4x320000x1, .i1⟩) main_call1_v6) (TRef.of (T := ⟨S4x320000x1, .i1⟩) main_call1_v9) (TRef.of (T := ⟨S4x320000x1, .i1⟩) main_call1_v10) andi,
    TRef.nullary (TRef.of (T := ⟨S_, .i1⟩) main_call1_c_3) (constantI S_ 1 1#1),
    TRef.binary (TRef.of (T := ⟨S4x320000x1, .i1⟩) main_call1_v10) (TRef.of (T := ⟨S_, .i1⟩) main_call1_c_3) (TRef.of (T := ⟨S4x320000, .i1⟩) main_call1_v11) (fun x v => Host.reduce IntOp.andi x v reducesTo_S4x320000x1_S4x320000_d2 h_S_),
    TRef.binary (TRef.of (T := ⟨S4x20000x2, .f32⟩) main_arg1) (TRef.of (T := ⟨S4x320000x1, .i32⟩) main_call1_v4) (TRef.of (T := ⟨S4x320000x2, .f32⟩) main_call1_v12) (fun x i => Host.gather gather_S4x20000x2_S4x320000x1_S4x320000x2_2_1_0_0_1_2_112 x i),
    TRef.unary (TRef.of (T := ⟨S4x320000, .i1⟩) main_call1_v11) (TRef.of (T := ⟨S4x320000x2, .i1⟩) main_call1_v13) (broadcastInDim S4x320000x2 ![0, 1] bcast_S4x320000_S4x320000x2_0_1),
    TRef.nullary (TRef.of (T := ⟨S_, .f32⟩) main_call1_cst) (constant S_ .f32 0x7FC00000#32),
    TRef.unary (TRef.of (T := ⟨S_, .f32⟩) main_call1_cst) (TRef.of (T := ⟨S4x320000x2, .f32⟩) main_call1_v14) (broadcastInDim S4x320000x2 ![] bcast_S_S4x320000x2),
    TRef.ternary (TRef.of (T := ⟨S4x320000x2, .i1⟩) main_call1_v13) (TRef.of (T := ⟨S4x320000x2, .f32⟩) main_call1_v12) (TRef.of (T := ⟨S4x320000x2, .f32⟩) main_call1_v14) (TRef.of (T := ⟨S4x320000x2, .f32⟩) main_v5) select,
    reshape main_v5 main_v6 rfl shapeCasts_S4x320000x2_S4x20000x16x2,
    unary main_arg1 main_v7 (broadcastInDim S4x20000x1x2 ![0, 1, 3] bcast_S4x20000x2_S4x20000x1x2_0_1_3 : (⟨S4x20000x2, .f32⟩ : BufTy).Contents (Elt F) → (⟨S4x20000x1x2, .f32⟩ : BufTy).Contents (Elt F)),
    unary main_v7 main_v8 (broadcastInDim S4x20000x16x2 ![0, 1, 2, 3] bcast_S4x20000x1x2_S4x20000x16x2_0_1_2_3 : (⟨S4x20000x1x2, .f32⟩ : BufTy).Contents (Elt F) → (⟨S4x20000x16x2, .f32⟩ : BufTy).Contents (Elt F)),
    binary main_v6 main_v8 main_v9 (subf : (⟨S4x20000x16x2, .f32⟩ : BufTy).Contents (Elt F) → (⟨S4x20000x16x2, .f32⟩ : BufTy).Contents (Elt F) → (⟨S4x20000x16x2, .f32⟩ : BufTy).Contents (Elt F)) ]

/-- @main's operations 53–81: the edge pre-activation, the message, the hidden rows. -/
abbrev opsB : List (HloOp τ sig (Elt F)) :=
  [ unary main_arg4 main_v10 ((extractStridedSlice S64x64 ![0, 0] · slices_S130x64_S64x64_0_0) : (⟨S130x64, .f32⟩ : BufTy).Contents (Elt F) → (⟨S64x64, .f32⟩ : BufTy).Contents (Elt F)),
    unary main_arg4 main_v11 ((extractStridedSlice S64x64 ![64, 0] · slices_S130x64_S64x64_64_0) : (⟨S130x64, .f32⟩ : BufTy).Contents (Elt F) → (⟨S64x64, .f32⟩ : BufTy).Contents (Elt F)),
    unary main_arg4 main_v12 ((extractStridedSlice S2x64 ![128, 0] · slices_S130x64_S2x64_128_0) : (⟨S130x64, .f32⟩ : BufTy).Contents (Elt F) → (⟨S2x64, .f32⟩ : BufTy).Contents (Elt F)),
    binary main_arg0 main_v10 main_v13 ((fun l r => Host.dotGeneral dot_S4x20000x64_S64x64_S4x20000x64_2_0_01_1_n_n none l r) : (⟨S4x20000x64, .f32⟩ : BufTy).Contents (Elt F) → (⟨S64x64, .f32⟩ : BufTy).Contents (Elt F) → (⟨S4x20000x64, .f32⟩ : BufTy).Contents (Elt F)),
    unary main_v13 main_v14 (broadcastInDim S4x20000x1x64 ![0, 1, 3] bcast_S4x20000x64_S4x20000x1x64_0_1_3 : (⟨S4x20000x64, .f32⟩ : BufTy).Contents (Elt F) → (⟨S4x20000x1x64, .f32⟩ : BufTy).Contents (Elt F)),
    binary main_v3 main_v11 main_v15 ((fun l r => Host.dotGeneral dot_S4x20000x16x64_S64x64_S4x20000x16x64_3_0_012_1_n_n none l r) : (⟨S4x20000x16x64, .f32⟩ : BufTy).Contents (Elt F) → (⟨S64x64, .f32⟩ : BufTy).Contents (Elt F) → (⟨S4x20000x16x64, .f32⟩ : BufTy).Contents (Elt F)),
    unary main_v14 main_v16 (broadcastInDim S4x20000x16x64 ![0, 1, 2, 3] bcast_S4x20000x1x64_S4x20000x16x64_0_1_2_3 : (⟨S4x20000x1x64, .f32⟩ : BufTy).Contents (Elt F) → (⟨S4x20000x16x64, .f32⟩ : BufTy).Contents (Elt F)),
    binary main_v16 main_v15 main_v17 (addf : (⟨S4x20000x16x64, .f32⟩ : BufTy).Contents (Elt F) → (⟨S4x20000x16x64, .f32⟩ : BufTy).Contents (Elt F) → (⟨S4x20000x16x64, .f32⟩ : BufTy).Contents (Elt F)),
    binary main_v9 main_v12 main_v18 ((fun l r => Host.dotGeneral dot_S4x20000x16x2_S2x64_S4x20000x16x64_3_0_012_1_n_n none l r) : (⟨S4x20000x16x2, .f32⟩ : BufTy).Contents (Elt F) → (⟨S2x64, .f32⟩ : BufTy).Contents (Elt F) → (⟨S4x20000x16x64, .f32⟩ : BufTy).Contents (Elt F)),
    binary main_v17 main_v18 main_v19 (addf : (⟨S4x20000x16x64, .f32⟩ : BufTy).Contents (Elt F) → (⟨S4x20000x16x64, .f32⟩ : BufTy).Contents (Elt F) → (⟨S4x20000x16x64, .f32⟩ : BufTy).Contents (Elt F)),
    unary main_arg5 main_v20 (broadcastInDim S1x1x1x64 ![3] bcast_S64_S1x1x1x64_3 : (⟨S64, .f32⟩ : BufTy).Contents (Elt F) → (⟨S1x1x1x64, .f32⟩ : BufTy).Contents (Elt F)),
    unary main_v20 main_v21 (broadcastInDim S4x20000x16x64 ![0, 1, 2, 3] bcast_S1x1x1x64_S4x20000x16x64_0_1_2_3 : (⟨S1x1x1x64, .f32⟩ : BufTy).Contents (Elt F) → (⟨S4x20000x16x64, .f32⟩ : BufTy).Contents (Elt F)),
    binary main_v19 main_v21 main_v22 (addf : (⟨S4x20000x16x64, .f32⟩ : BufTy).Contents (Elt F) → (⟨S4x20000x16x64, .f32⟩ : BufTy).Contents (Elt F) → (⟨S4x20000x16x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S4x20000x16x64, .f32⟩) main_call2_v0) (broadcastInDim S4x20000x16x64 ![] bcast_S_S4x20000x16x64),
    TRef.binary (TRef.of (T := ⟨S4x20000x16x64, .f32⟩) main_v22) (TRef.of (T := ⟨S4x20000x16x64, .f32⟩) main_call2_v0) (TRef.of (T := ⟨S4x20000x16x64, .f32⟩) main_v23) maximumf,
    nullary main_cst (constant S_ .f32 0x00000000#32),
    binary main_v23 main_cst main_v24 ((fun x v => Host.reduceAdd x v reducesTo_S4x20000x16x64_S4x20000x64_d2 h_S_) : (⟨S4x20000x16x64, .f32⟩ : BufTy).Contents (Elt F) → (⟨S_, .f32⟩ : BufTy).Contents (Elt F) → (⟨S4x20000x64, .f32⟩ : BufTy).Contents (Elt F)),
    nullary main_cst_0 (constant S_ .f32 0x41800000#32),
    unary main_cst_0 main_v25 (broadcastInDim S4x20000x64 ![] bcast_S_S4x20000x64 : (⟨S_, .f32⟩ : BufTy).Contents (Elt F) → (⟨S4x20000x64, .f32⟩ : BufTy).Contents (Elt F)),
    binary main_v24 main_v25 main_v26 (Host.divf : (⟨S4x20000x64, .f32⟩ : BufTy).Contents (Elt F) → (⟨S4x20000x64, .f32⟩ : BufTy).Contents (Elt F) → (⟨S4x20000x64, .f32⟩ : BufTy).Contents (Elt F)),
    unary main_arg6 main_v27 ((extractStridedSlice S64x64 ![0, 0] · slices_S128x64_S64x64_0_0) : (⟨S128x64, .f32⟩ : BufTy).Contents (Elt F) → (⟨S64x64, .f32⟩ : BufTy).Contents (Elt F)),
    unary main_arg6 main_v28 ((extractStridedSlice S64x64 ![64, 0] · slices_S128x64_S64x64_64_0) : (⟨S128x64, .f32⟩ : BufTy).Contents (Elt F) → (⟨S64x64, .f32⟩ : BufTy).Contents (Elt F)),
    binary main_arg0 main_v27 main_v29 ((fun l r => Host.dotGeneral dot_S4x20000x64_S64x64_S4x20000x64_2_0_01_1_n_n none l r) : (⟨S4x20000x64, .f32⟩ : BufTy).Contents (Elt F) → (⟨S64x64, .f32⟩ : BufTy).Contents (Elt F) → (⟨S4x20000x64, .f32⟩ : BufTy).Contents (Elt F)),
    binary main_v26 main_v28 main_v30 ((fun l r => Host.dotGeneral dot_S4x20000x64_S64x64_S4x20000x64_2_0_01_1_n_n none l r) : (⟨S4x20000x64, .f32⟩ : BufTy).Contents (Elt F) → (⟨S64x64, .f32⟩ : BufTy).Contents (Elt F) → (⟨S4x20000x64, .f32⟩ : BufTy).Contents (Elt F)),
    binary main_v29 main_v30 main_v31 (addf : (⟨S4x20000x64, .f32⟩ : BufTy).Contents (Elt F) → (⟨S4x20000x64, .f32⟩ : BufTy).Contents (Elt F) → (⟨S4x20000x64, .f32⟩ : BufTy).Contents (Elt F)),
    unary main_arg7 main_v32 (broadcastInDim S1x1x64 ![2] bcast_S64_S1x1x64_2 : (⟨S64, .f32⟩ : BufTy).Contents (Elt F) → (⟨S1x1x64, .f32⟩ : BufTy).Contents (Elt F)),
    unary main_v32 main_v33 (broadcastInDim S4x20000x64 ![0, 1, 2] bcast_S1x1x64_S4x20000x64_0_1_2 : (⟨S1x1x64, .f32⟩ : BufTy).Contents (Elt F) → (⟨S4x20000x64, .f32⟩ : BufTy).Contents (Elt F)),
    binary main_v31 main_v33 main_v34 (addf : (⟨S4x20000x64, .f32⟩ : BufTy).Contents (Elt F) → (⟨S4x20000x64, .f32⟩ : BufTy).Contents (Elt F) → (⟨S4x20000x64, .f32⟩ : BufTy).Contents (Elt F)) ]

/-- @main's operations 82–116: the layer normalisation, the positive part, the mask. -/
abbrev opsC : List (HloOp τ sig (Elt F)) :=
  [ nullary main_cst_1 (constant S_ .f32 0x00000000#32),
    binary main_v34 main_cst_1 main_v35 ((fun x v => Host.reduceAdd x v reducesTo_S4x20000x64_S4x20000_d2 h_S_) : (⟨S4x20000x64, .f32⟩ : BufTy).Contents (Elt F) → (⟨S_, .f32⟩ : BufTy).Contents (Elt F) → (⟨S4x20000, .f32⟩ : BufTy).Contents (Elt F)),
    unary main_v35 main_v36 (broadcastInDim S4x20000x1 ![0, 1] bcast_S4x20000_S4x20000x1_0_1 : (⟨S4x20000, .f32⟩ : BufTy).Contents (Elt F) → (⟨S4x20000x1, .f32⟩ : BufTy).Contents (Elt F)),
    nullary main_cst_2 (constant S_ .f32 0x42800000#32),
    unary main_cst_2 main_v37 (broadcastInDim S4x20000x1 ![] bcast_S_S4x20000x1 : (⟨S_, .f32⟩ : BufTy).Contents (Elt F) → (⟨S4x20000x1, .f32⟩ : BufTy).Contents (Elt F)),
    binary main_v36 main_v37 main_v38 (Host.divf : (⟨S4x20000x1, .f32⟩ : BufTy).Contents (Elt F) → (⟨S4x20000x1, .f32⟩ : BufTy).Contents (Elt F) → (⟨S4x20000x1, .f32⟩ : BufTy).Contents (Elt F)),
    unary main_v38 main_v39 (broadcastInDim S4x20000x64 ![0, 1, 2] bcast_S4x20000x1_S4x20000x64_0_1_2 : (⟨S4x20000x1, .f32⟩ : BufTy).Contents (Elt F) → (⟨S4x20000x64, .f32⟩ : BufTy).Contents (Elt F)),
    binary main_v34 main_v39 main_v40 (subf : (⟨S4x20000x64, .f32⟩ : BufTy).Contents (Elt F) → (⟨S4x20000x64, .f32⟩ : BufTy).Contents (Elt F) → (⟨S4x20000x64, .f32⟩ : BufTy).Contents (Elt F)),
    binary main_v40 main_v40 main_v41 (mulf : (⟨S4x20000x64, .f32⟩ : BufTy).Contents (Elt F) → (⟨S4x20000x64, .f32⟩ : BufTy).Contents (Elt F) → (⟨S4x20000x64, .f32⟩ : BufTy).Contents (Elt F)),
    nullary main_cst_3 (constant S_ .f32 0x00000000#32),
    binary main_v41 main_cst_3 main_v42 ((fun x v => Host.reduceAdd x v reducesTo_S4x20000x64_S4x20000_d2 h_S_) : (⟨S4x20000x64, .f32⟩ : BufTy).Contents (Elt F) → (⟨S_, .f32⟩ : BufTy).Contents (Elt F) → (⟨S4x20000, .f32⟩ : BufTy).Contents (Elt F)),
    unary main_v42 main_v43 (broadcastInDim S4x20000x1 ![0, 1] bcast_S4x20000_S4x20000x1_0_1 : (⟨S4x20000, .f32⟩ : BufTy).Contents (Elt F) → (⟨S4x20000x1, .f32⟩ : BufTy).Contents (Elt F)),
    nullary main_cst_4 (constant S_ .f32 0x42800000#32),
    unary main_cst_4 main_v44 (broadcastInDim S4x20000x1 ![] bcast_S_S4x20000x1 : (⟨S_, .f32⟩ : BufTy).Contents (Elt F) → (⟨S4x20000x1, .f32⟩ : BufTy).Contents (Elt F)),
    binary main_v43 main_v44 main_v45 (Host.divf : (⟨S4x20000x1, .f32⟩ : BufTy).Contents (Elt F) → (⟨S4x20000x1, .f32⟩ : BufTy).Contents (Elt F) → (⟨S4x20000x1, .f32⟩ : BufTy).Contents (Elt F)),
    unary main_v38 main_v46 (broadcastInDim S4x20000x64 ![0, 1, 2] bcast_S4x20000x1_S4x20000x64_0_1_2 : (⟨S4x20000x1, .f32⟩ : BufTy).Contents (Elt F) → (⟨S4x20000x64, .f32⟩ : BufTy).Contents (Elt F)),
    binary main_v34 main_v46 main_v47 (subf : (⟨S4x20000x64, .f32⟩ : BufTy).Contents (Elt F) → (⟨S4x20000x64, .f32⟩ : BufTy).Contents (Elt F) → (⟨S4x20000x64, .f32⟩ : BufTy).Contents (Elt F)),
    nullary main_cst_5 (constant S_ .f32 0x3727C5AC#32),
    unary main_cst_5 main_v48 (broadcastInDim S4x20000x1 ![] bcast_S_S4x20000x1 : (⟨S_, .f32⟩ : BufTy).Contents (Elt F) → (⟨S4x20000x1, .f32⟩ : BufTy).Contents (Elt F)),
    binary main_v45 main_v48 main_v49 (addf : (⟨S4x20000x1, .f32⟩ : BufTy).Contents (Elt F) → (⟨S4x20000x1, .f32⟩ : BufTy).Contents (Elt F) → (⟨S4x20000x1, .f32⟩ : BufTy).Contents (Elt F)),
    unary main_v49 main_v50 (Host.rsqrt : (⟨S4x20000x1, .f32⟩ : BufTy).Contents (Elt F) → (⟨S4x20000x1, .f32⟩ : BufTy).Contents (Elt F)),
    unary main_v50 main_v51 (broadcastInDim S4x20000x64 ![0, 1, 2] bcast_S4x20000x1_S4x20000x64_0_1_2 : (⟨S4x20000x1, .f32⟩ : BufTy).Contents (Elt F) → (⟨S4x20000x64, .f32⟩ : BufTy).Contents (Elt F)),
    binary main_v47 main_v51 main_v52 (mulf : (⟨S4x20000x64, .f32⟩ : BufTy).Contents (Elt F) → (⟨S4x20000x64, .f32⟩ : BufTy).Contents (Elt F) → (⟨S4x20000x64, .f32⟩ : BufTy).Contents (Elt F)),
    unary main_arg8 main_v53 (broadcastInDim S1x1x64 ![2] bcast_S64_S1x1x64_2 : (⟨S64, .f32⟩ : BufTy).Contents (Elt F) → (⟨S1x1x64, .f32⟩ : BufTy).Contents (Elt F)),
    unary main_v53 main_v54 (broadcastInDim S4x20000x64 ![0, 1, 2] bcast_S1x1x64_S4x20000x64_0_1_2 : (⟨S1x1x64, .f32⟩ : BufTy).Contents (Elt F) → (⟨S4x20000x64, .f32⟩ : BufTy).Contents (Elt F)),
    binary main_v52 main_v54 main_v55 (mulf : (⟨S4x20000x64, .f32⟩ : BufTy).Contents (Elt F) → (⟨S4x20000x64, .f32⟩ : BufTy).Contents (Elt F) → (⟨S4x20000x64, .f32⟩ : BufTy).Contents (Elt F)),
    unary main_arg9 main_v56 (broadcastInDim S1x1x64 ![2] bcast_S64_S1x1x64_2 : (⟨S64, .f32⟩ : BufTy).Contents (Elt F) → (⟨S1x1x64, .f32⟩ : BufTy).Contents (Elt F)),
    unary main_v56 main_v57 (broadcastInDim S4x20000x64 ![0, 1, 2] bcast_S1x1x64_S4x20000x64_0_1_2 : (⟨S1x1x64, .f32⟩ : BufTy).Contents (Elt F) → (⟨S4x20000x64, .f32⟩ : BufTy).Contents (Elt F)),
    binary main_v55 main_v57 main_v58 (addf : (⟨S4x20000x64, .f32⟩ : BufTy).Contents (Elt F) → (⟨S4x20000x64, .f32⟩ : BufTy).Contents (Elt F) → (⟨S4x20000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S4x20000x64, .f32⟩) main_call3_v0) (broadcastInDim S4x20000x64 ![] bcast_S_S4x20000x64),
    TRef.binary (TRef.of (T := ⟨S4x20000x64, .f32⟩) main_v58) (TRef.of (T := ⟨S4x20000x64, .f32⟩) main_call3_v0) (TRef.of (T := ⟨S4x20000x64, .f32⟩) main_v59) maximumf,
    unary main_arg3 main_v60 (broadcastInDim S4x20000x1 ![0, 1] bcast_S4x20000_S4x20000x1_0_1 : (⟨S4x20000, .f32⟩ : BufTy).Contents (Elt F) → (⟨S4x20000x1, .f32⟩ : BufTy).Contents (Elt F)),
    unary main_v60 main_v61 (broadcastInDim S4x20000x64 ![0, 1, 2] bcast_S4x20000x1_S4x20000x64_0_1_2 : (⟨S4x20000x1, .f32⟩ : BufTy).Contents (Elt F) → (⟨S4x20000x64, .f32⟩ : BufTy).Contents (Elt F)),
    binary main_v59 main_v61 main_v62 (mulf : (⟨S4x20000x64, .f32⟩ : BufTy).Contents (Elt F) → (⟨S4x20000x64, .f32⟩ : BufTy).Contents (Elt F) → (⟨S4x20000x64, .f32⟩ : BufTy).Contents (Elt F)) ]

/-- The three stretches are the whole list. -/
theorem ops_split : (ops : List (HloOp τ sig (Elt F))) = opsA ++ (opsB ++ opsC) := rfl

/-! ## The typed references' casts are the identity

A called function's operations read and write their buffers through typed references, whose contents are transported
along the buffer's type equation. Written and read back through one reference the transport cancels; at the few buffers
that one side touches through a typed reference and the other directly, the type equation holds by computation and the
transport is the identity. With these the fold's term has no transport left, and meets the stages' terms operation by
operation. -/

/-- Contents written through a typed reference and read back through it are the contents. -/
theorem ofBuf_toBuf {T : BufTy} (x : TRef sig T) (v : T.Contents (Elt F)) : x.ofBuf (x.toBuf v) = v := by
  obtain ⟨r, h, d, u⟩ := x
  cases h
  rfl

theorem ofBuf_main_v1 (h1 h2 h3) (v : (main_v1 : Ref sig .tc).ty.Contents (Elt F)) :
    (TRef.of (sig := sig) (T := ⟨S4x320000x1, .i32⟩) main_v1 h1 h2 h3).ofBuf v = v := rfl

theorem ofBuf_main_arg0 (h1 h2 h3) (v : (main_arg0 : Ref sig .tc).ty.Contents (Elt F)) :
    (TRef.of (sig := sig) (T := ⟨S4x20000x64, .f32⟩) main_arg0 h1 h2 h3).ofBuf v = v := rfl

theorem toBuf_main_v2 (h1 h2 h3) (v : (⟨S4x320000x64, .f32⟩ : BufTy).Contents (Elt F)) :
    (TRef.of (sig := sig) (T := ⟨S4x320000x64, .f32⟩) main_v2 h1 h2 h3).toBuf v = v := rfl

theorem ofBuf_main_v4 (h1 h2 h3) (v : (main_v4 : Ref sig .tc).ty.Contents (Elt F)) :
    (TRef.of (sig := sig) (T := ⟨S4x320000x1, .i32⟩) main_v4 h1 h2 h3).ofBuf v = v := rfl

theorem ofBuf_main_arg1 (h1 h2 h3) (v : (main_arg1 : Ref sig .tc).ty.Contents (Elt F)) :
    (TRef.of (sig := sig) (T := ⟨S4x20000x2, .f32⟩) main_arg1 h1 h2 h3).ofBuf v = v := rfl

theorem toBuf_main_v5 (h1 h2 h3) (v : (⟨S4x320000x2, .f32⟩ : BufTy).Contents (Elt F)) :
    (TRef.of (sig := sig) (T := ⟨S4x320000x2, .f32⟩) main_v5 h1 h2 h3).toBuf v = v := rfl

theorem ofBuf_main_v22 (h1 h2 h3) (v : (main_v22 : Ref sig .tc).ty.Contents (Elt F)) :
    (TRef.of (sig := sig) (T := ⟨S4x20000x16x64, .f32⟩) main_v22 h1 h2 h3).ofBuf v = v := rfl

theorem toBuf_main_v23 (h1 h2 h3) (v : (⟨S4x20000x16x64, .f32⟩ : BufTy).Contents (Elt F)) :
    (TRef.of (sig := sig) (T := ⟨S4x20000x16x64, .f32⟩) main_v23 h1 h2 h3).toBuf v = v := rfl

theorem ofBuf_main_v58 (h1 h2 h3) (v : (main_v58 : Ref sig .tc).ty.Contents (Elt F)) :
    (TRef.of (sig := sig) (T := ⟨S4x20000x64, .f32⟩) main_v58 h1 h2 h3).ofBuf v = v := rfl

theorem toBuf_main_v59 (h1 h2 h3) (v : (⟨S4x20000x64, .f32⟩ : BufTy).Contents (Elt F)) :
    (TRef.of (sig := sig) (T := ⟨S4x20000x64, .f32⟩) main_v59 h1 h2 h3).toBuf v = v := rfl

section chunks

attribute [local irreducible] Host.gather Host.reduce

variable (W : Valuation τ sig (Elt F))

/-- After the first stretch the gathered neighbour features are the stage `val_main_v3` of the arguments. -/
theorem A_v3 : after opsA W (main_v3 : DevRef τ sig)
    = Cert.ReferenceIdeal.Read.val_main_v3 (F := F) (W (main_arg0 : DevRef τ sig)) (W (main_arg2 : DevRef τ sig)) := by
  after_results_simp
  simp only [ofBuf_toBuf, ofBuf_main_v1, ofBuf_main_arg0, toBuf_main_v2, ofBuf_main_v4, ofBuf_main_arg1, toBuf_main_v5, ofBuf_main_v22, toBuf_main_v23, ofBuf_main_v58, toBuf_main_v59]
  rfl

/-- After the first stretch the relative positions are the stage `val_main_v9` of the arguments. -/
theorem A_v9 : after opsA W (main_v9 : DevRef τ sig)
    = Cert.ReferenceIdeal.Read.val_main_v9 (F := F) (W (main_arg1 : DevRef τ sig)) (W (main_arg2 : DevRef τ sig)) := by
  after_results_simp
  simp only [ofBuf_toBuf, ofBuf_main_v1, ofBuf_main_arg0, toBuf_main_v2, ofBuf_main_v4, ofBuf_main_arg1, toBuf_main_v5, ofBuf_main_v22, toBuf_main_v23, ofBuf_main_v58, toBuf_main_v59]
  rfl

/-! The stretches leave the arguments they do not write as they were. -/
theorem A_arg0 : after opsA W (main_arg0 : DevRef τ sig) = W (main_arg0 : DevRef τ sig) := by
  after_results_simp <;> rfl
theorem A_arg3 : after opsA W (main_arg3 : DevRef τ sig) = W (main_arg3 : DevRef τ sig) := by
  after_results_simp <;> rfl
theorem A_arg4 : after opsA W (main_arg4 : DevRef τ sig) = W (main_arg4 : DevRef τ sig) := by
  after_results_simp <;> rfl
theorem A_arg5 : after opsA W (main_arg5 : DevRef τ sig) = W (main_arg5 : DevRef τ sig) := by
  after_results_simp <;> rfl
theorem A_arg6 : after opsA W (main_arg6 : DevRef τ sig) = W (main_arg6 : DevRef τ sig) := by
  after_results_simp <;> rfl
theorem A_arg7 : after opsA W (main_arg7 : DevRef τ sig) = W (main_arg7 : DevRef τ sig) := by
  after_results_simp <;> rfl
theorem A_arg8 : after opsA W (main_arg8 : DevRef τ sig) = W (main_arg8 : DevRef τ sig) := by
  after_results_simp <;> rfl
theorem A_arg9 : after opsA W (main_arg9 : DevRef τ sig) = W (main_arg9 : DevRef τ sig) := by
  after_results_simp <;> rfl

theorem B_arg3 : after opsB W (main_arg3 : DevRef τ sig) = W (main_arg3 : DevRef τ sig) := by
  after_results_simp <;> rfl
theorem B_arg8 : after opsB W (main_arg8 : DevRef τ sig) = W (main_arg8 : DevRef τ sig) := by
  after_results_simp <;> rfl
theorem B_arg9 : after opsB W (main_arg9 : DevRef τ sig) = W (main_arg9 : DevRef τ sig) := by
  after_results_simp <;> rfl

/-- After the second stretch the hidden rows are the stage `val_main_v34`, given the gathered arrays. -/
theorem B_v34 (a0 : (⟨S4x20000x64, .f32⟩ : BufTy).Contents (Elt F)) (a1 : (⟨S4x20000x2, .f32⟩ : BufTy).Contents (Elt F)) (a2 : (⟨S4x20000x16, .i32⟩ : BufTy).Contents (Elt F))
    (a4 : (⟨S130x64, .f32⟩ : BufTy).Contents (Elt F)) (a5 : (⟨S64, .f32⟩ : BufTy).Contents (Elt F)) (a6 : (⟨S128x64, .f32⟩ : BufTy).Contents (Elt F)) (a7 : (⟨S64, .f32⟩ : BufTy).Contents (Elt F))
    (h3 : W (main_v3 : DevRef τ sig) = Cert.ReferenceIdeal.Read.val_main_v3 (F := F) a0 a2)
    (h9 : W (main_v9 : DevRef τ sig) = Cert.ReferenceIdeal.Read.val_main_v9 (F := F) a1 a2)
    (h0 : W (main_arg0 : DevRef τ sig) = a0) (h4 : W (main_arg4 : DevRef τ sig) = a4)
    (h5 : W (main_arg5 : DevRef τ sig) = a5) (h6 : W (main_arg6 : DevRef τ sig) = a6)
    (h7 : W (main_arg7 : DevRef τ sig) = a7) :
    after opsB W (main_v34 : DevRef τ sig) = Cert.ReferenceIdeal.Read.val_main_v34 (F := F) a0 a1 a2 a4 a5 a6 a7 := by
  after_results_simp
  simp only [ofBuf_toBuf, ofBuf_main_v1, ofBuf_main_arg0, toBuf_main_v2, ofBuf_main_v4, ofBuf_main_arg1, toBuf_main_v5, ofBuf_main_v22, toBuf_main_v23, ofBuf_main_v58, toBuf_main_v59]
  rw [h3, h9, h0, h4, h5, h6, h7]
  rfl

/-- After the third stretch the result is the last stage, given the hidden rows. -/
theorem C_v62 (a0 : (⟨S4x20000x64, .f32⟩ : BufTy).Contents (Elt F)) (a1 : (⟨S4x20000x2, .f32⟩ : BufTy).Contents (Elt F)) (a2 : (⟨S4x20000x16, .i32⟩ : BufTy).Contents (Elt F)) (a3 : (⟨S4x20000, .f32⟩ : BufTy).Contents (Elt F))
    (a4 : (⟨S130x64, .f32⟩ : BufTy).Contents (Elt F)) (a5 : (⟨S64, .f32⟩ : BufTy).Contents (Elt F)) (a6 : (⟨S128x64, .f32⟩ : BufTy).Contents (Elt F)) (a7 a8 a9 : (⟨S64, .f32⟩ : BufTy).Contents (Elt F))
    (h34 : W (main_v34 : DevRef τ sig) = Cert.ReferenceIdeal.Read.val_main_v34 (F := F) a0 a1 a2 a4 a5 a6 a7)
    (h8 : W (main_arg8 : DevRef τ sig) = a8) (h9 : W (main_arg9 : DevRef τ sig) = a9)
    (h3 : W (main_arg3 : DevRef τ sig) = a3) :
    after opsC W (main_v62 : DevRef τ sig)
      = Cert.ReferenceIdeal.Read.val_main_v62 (F := F) a0 a1 a2 a3 a4 a5 a6 a7 a8 a9 := by
  after_results_simp
  simp only [ofBuf_toBuf, ofBuf_main_v1, ofBuf_main_arg0, toBuf_main_v2, ofBuf_main_v4, ofBuf_main_arg1, toBuf_main_v5, ofBuf_main_v22, toBuf_main_v23, ofBuf_main_v58, toBuf_main_v59]
  rw [h34, h8, h9, h3]
  rfl

end chunks

/-- THE RESULT BUFFER after the whole list, from any contents `V`: the last stage of the arguments. -/
theorem res_eq (V : Valuation τ sig (Elt F)) :
    after ops V (main_v62 : DevRef τ sig)
      = Cert.ReferenceIdeal.Read.val_main_v62 (F := F) (V (main_arg0 : DevRef τ sig)) (V (main_arg1 : DevRef τ sig))
          (V (main_arg2 : DevRef τ sig)) (V (main_arg3 : DevRef τ sig)) (V (main_arg4 : DevRef τ sig))
          (V (main_arg5 : DevRef τ sig)) (V (main_arg6 : DevRef τ sig)) (V (main_arg7 : DevRef τ sig))
          (V (main_arg8 : DevRef τ sig)) (V (main_arg9 : DevRef τ sig)) := by
  rw [ops_split, after_append, after_append]
  exact C_v62 (after opsB (after opsA V)) _ _ _ _ _ _ _ _ _ _
    (B_v34 (after opsA V) _ _ _ _ _ _ _ (A_v3 V) (A_v9 V) (A_arg0 V) (A_arg4 V) (A_arg5 V) (A_arg6 V) (A_arg7 V))
    ((B_arg8 (after opsA V)).trans (A_arg8 V)) ((B_arg9 (after opsA V)).trans (A_arg9 V))
    ((B_arg3 (after opsA V)).trans (A_arg3 V))

/-! ## The run -/

set_option maxRecDepth 8192 in
set_option maxHeartbeats 46400000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v62) = Cert.ReferenceIdeal.Read.val_main_v62 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v62).trans (res_eq (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq scopedRefs_eq scopedSems_eq defs main (fun _ => ops) main_eq (fun _ => ops_sub) m ρ)

end Cert.ReferenceIdeal.Value

end
-- ==== Proof.RefRow.lean ====
/-
  The reference's result, entry by entry.

  Read one operation at a time (the generated read-at-an-index lemmas), the reference's last stage at batch `b`, node `n`,
  channel `q` is `Cert.MP.layer` of the ten arguments, with the gathered neighbour features and relative positions entering
  as the stages that hold them (`val_main_v3`, `val_main_v9`), which are never opened: the three `dot_general`s of the
  edge pre-activation contract the last axis against rows 0–63, 64–127 and 128–129 of the edge weights; the host sums
  start from the zero word, which adds nothing; `relu` is the maximum with the zero word; the divisions are by the words
  of 16 and 64.
-/
import proofs.«150312_j88218628260532_1_alg».proof.Proof.RefRead
import proofs.«150312_j88218628260532_1_alg».proof.Proof.Layer
import Idealize.ShloMosaic.PureOps.Ideal.Laws
import Idealize.ShloMosaic.Lib.ValueIdx

noncomputable section

open scoped BigOperators

namespace Cert.ReferenceIdeal.Row

open Cert.ReferenceIdeal Cert.ReferenceIdeal.Read Idealize.ShloMosaic Idealize.ShloMosaic.ValueIdx

abbrev zero : EReal := Ideal.ofBits .f32 0x00000000#32
abbrev c16 : EReal := Ideal.ofBits .f32 0x41800000#32
abbrev c64 : EReal := Ideal.ofBits .f32 0x42800000#32
abbrev eps : EReal := Ideal.ofBits .f32 0x3727C5AC#32

/-- A host sum's initial value, the zero word, adds nothing. -/
theorem zero_init (s : EReal) : Ideal.ofBits .f32 0x00000000#32 + s = s := by
  rw [Ideal.ofBits_zero_f32, zero_add]

variable (x0 : (⟨S4x20000x64, .f32⟩ : BufTy).Contents (Elt Ideal)) (x1 : (⟨S4x20000x2, .f32⟩ : BufTy).Contents (Elt Ideal))
  (x2 : (⟨S4x20000x16, .i32⟩ : BufTy).Contents (Elt Ideal)) (x3 : (⟨S4x20000, .f32⟩ : BufTy).Contents (Elt Ideal))
  (x4 : (⟨S130x64, .f32⟩ : BufTy).Contents (Elt Ideal)) (x5 : (⟨S64, .f32⟩ : BufTy).Contents (Elt Ideal))
  (x6 : (⟨S128x64, .f32⟩ : BufTy).Contents (Elt Ideal)) (x7 x8 x9 : (⟨S64, .f32⟩ : BufTy).Contents (Elt Ideal))
  (b : Fin 4) (n : Fin 20000)

/-! ## The weight slices -/

theorem ws_apply (d o : Fin 64) : val_main_v10 (F := Ideal) x4 (ix2 d o) = x4 (ix2 (Fin.castLE (by decide : 64 ≤ 130) d) o) :=
  (val_main_v10_apply x4 (ix2 d o)).trans (congrArg x4 (funext fun a => Fin.ext (by
    match a with | ⟨0, _⟩ => rfl | ⟨1, _⟩ => rfl)))

theorem wb_apply (d o : Fin 64) :
    val_main_v11 (F := Ideal) x4 (ix2 d o) = x4 (ix2 (MP.rowAt (m := 64) (n := 130) 64 (by decide) d) o) :=
  (val_main_v11_apply x4 (ix2 d o)).trans (congrArg x4 (funext fun a => Fin.ext (by
    match a with | ⟨0, _⟩ => rfl | ⟨1, _⟩ => rfl)))

theorem wr_apply (e : Fin 2) (o : Fin 64) :
    val_main_v12 (F := Ideal) x4 (ix2 e o) = x4 (ix2 (MP.rowAt (m := 2) (n := 130) 128 (by decide) e) o) :=
  (val_main_v12_apply x4 (ix2 e o)).trans (congrArg x4 (funext fun a => Fin.ext (by
    match a with | ⟨0, _⟩ => rfl | ⟨1, _⟩ => rfl)))

theorem wx_apply (d o : Fin 64) : val_main_v27 (F := Ideal) x6 (ix2 d o) = x6 (ix2 (Fin.castLE (by decide : 64 ≤ 128) d) o) :=
  (val_main_v27_apply x6 (ix2 d o)).trans (congrArg x6 (funext fun a => Fin.ext (by
    match a with | ⟨0, _⟩ => rfl | ⟨1, _⟩ => rfl)))

theorem wm_apply (j o : Fin 64) :
    val_main_v28 (F := Ideal) x6 (ix2 j o) = x6 (ix2 (MP.rowAt (m := 64) (n := 128) 64 (by decide) j) o) :=
  (val_main_v28_apply x6 (ix2 j o)).trans (congrArg x6 (funext fun a => Fin.ext (by
    match a with | ⟨0, _⟩ => rfl | ⟨1, _⟩ => rfl)))

/-! ## The edge pre-activation -/

/-- The self term at `(b, n, o)`. -/
theorem self_apply (o : Fin 64) :
    val_main_v13 (F := Ideal) x0 x4 (ix3 b n o)
      = ∑ d : Fin 64, x0 (ix3 b n d) * x4 (ix2 (Fin.castLE (by decide : 64 ≤ 130) d) o) := by
  rw [val_main_v13_apply]
  refine Finset.sum_congr rfl fun d _ => congrArg₂ (· * ·) ?_ ?_
  · exact congrArg x0 (funext fun a => Fin.ext (by match a with | ⟨0, _⟩ => rfl | ⟨1, _⟩ => rfl | ⟨2, _⟩ => rfl))
  · refine (congrArg (val_main_v10 (F := Ideal) x4) (funext fun a => Fin.ext (by
      match a with | ⟨0, _⟩ => rfl | ⟨1, _⟩ => rfl))).trans (ws_apply x4 d o)

/-- The self term repeated along the neighbour axis. -/
theorem selfb_apply (k : Fin 16) (o : Fin 64) :
    val_main_v16 (F := Ideal) x0 x4 (ix4 b n k o)
      = ∑ d : Fin 64, x0 (ix3 b n d) * x4 (ix2 (Fin.castLE (by decide : 64 ≤ 130) d) o) := by
  rw [val_main_v16_apply, val_main_v14_apply]
  refine (congrArg (val_main_v13 (F := Ideal) x0 x4) (funext fun a => Fin.ext (by
    match a with | ⟨0, _⟩ => rfl | ⟨1, _⟩ => rfl | ⟨2, _⟩ => rfl))).trans (self_apply x0 x4 b n o)

/-- The neighbour term at `(b, n, k, o)`. -/
theorem nbr_apply (k : Fin 16) (o : Fin 64) :
    val_main_v15 (F := Ideal) x0 x2 x4 (ix4 b n k o)
      = ∑ d : Fin 64, val_main_v3 (F := Ideal) x0 x2 (ix4 b n k d)
          * x4 (ix2 (MP.rowAt (m := 64) (n := 130) 64 (by decide) d) o) := by
  rw [val_main_v15_apply]
  refine Finset.sum_congr rfl fun d _ => congrArg₂ (· * ·) ?_ ?_
  · exact congrArg (val_main_v3 (F := Ideal) x0 x2) (funext fun a => Fin.ext (by
      match a with | ⟨0, _⟩ => rfl | ⟨1, _⟩ => rfl | ⟨2, _⟩ => rfl | ⟨3, _⟩ => rfl))
  · refine (congrArg (val_main_v11 (F := Ideal) x4) (funext fun a => Fin.ext (by
      match a with | ⟨0, _⟩ => rfl | ⟨1, _⟩ => rfl))).trans (wb_apply x4 d o)

/-- The relative-position term at `(b, n, k, o)`. -/
theorem rel_apply (k : Fin 16) (o : Fin 64) :
    val_main_v18 (F := Ideal) x1 x2 x4 (ix4 b n k o)
      = ∑ e : Fin 2, val_main_v9 (F := Ideal) x1 x2 (ix4 b n k e)
          * x4 (ix2 (MP.rowAt (m := 2) (n := 130) 128 (by decide) e) o) := by
  rw [val_main_v18_apply]
  refine Finset.sum_congr rfl fun e _ => congrArg₂ (· * ·) ?_ ?_
  · exact congrArg (val_main_v9 (F := Ideal) x1 x2) (funext fun a => Fin.ext (by
      match a with | ⟨0, _⟩ => rfl | ⟨1, _⟩ => rfl | ⟨2, _⟩ => rfl | ⟨3, _⟩ => rfl))
  · refine (congrArg (val_main_v12 (F := Ideal) x4) (funext fun a => Fin.ext (by
      match a with | ⟨0, _⟩ => rfl | ⟨1, _⟩ => rfl))).trans (wr_apply x4 e o)

/-- The edge bias repeated over `[4, 20000, 16, 64]`. -/
theorem be_apply (k : Fin 16) (o : Fin 64) : val_main_v21 (F := Ideal) x5 (ix4 b n k o) = x5 (ix1 o) := by
  rw [val_main_v21_apply, val_main_v20_apply]
  exact congrArg x5 (funext fun a => Fin.ext (by match a with | ⟨0, _⟩ => rfl))

/-- THE EDGE PRE-ACTIVATION at `(b, n, k, o)`. -/
theorem edge_apply (k : Fin 16) (o : Fin 64) :
    val_main_v22 (F := Ideal) x0 x1 x2 x4 x5 (ix4 b n k o)
      = MP.edge (fun d => x0 (ix3 b n d)) (fun d => val_main_v3 (F := Ideal) x0 x2 (ix4 b n k d))
          (fun e => val_main_v9 (F := Ideal) x1 x2 (ix4 b n k e))
          (fun d o => x4 (ix2 (Fin.castLE (by decide : 64 ≤ 130) d) o))
          (fun d o => x4 (ix2 (MP.rowAt (m := 64) (n := 130) 64 (by decide) d) o))
          (fun e o => x4 (ix2 (MP.rowAt (m := 2) (n := 130) 128 (by decide) e) o)) (fun o => x5 (ix1 o)) o := by
  unfold MP.edge
  rw [val_main_v22_apply, val_main_v19_apply, val_main_v17_apply, selfb_apply, nbr_apply, rel_apply, be_apply]
  rfl

/-! ## The message, the hidden row, the normalisation -/

local notation "XR" => (fun d : Fin 64 => x0 (ix3 b n d))
local notation "NB" => (fun (k : Fin 16) (d : Fin 64) => val_main_v3 (F := Ideal) x0 x2 (ix4 b n k d))
local notation "RP" => (fun (k : Fin 16) (e : Fin 2) => val_main_v9 (F := Ideal) x1 x2 (ix4 b n k e))
local notation "WS" => (fun (d o : Fin 64) => x4 (ix2 (Fin.castLE (by decide : 64 ≤ 130) d) o))
local notation "WB" => (fun (d o : Fin 64) => x4 (ix2 (MP.rowAt (m := 64) (n := 130) 64 (by decide) d) o))
local notation "WR" => (fun (e : Fin 2) (o : Fin 64) => x4 (ix2 (MP.rowAt (m := 2) (n := 130) 128 (by decide) e) o))
local notation "BE" => (fun o : Fin 64 => x5 (ix1 o))
local notation "WX" => (fun (d o : Fin 64) => x6 (ix2 (Fin.castLE (by decide : 64 ≤ 128) d) o))
local notation "WM" => (fun (j o : Fin 64) => x6 (ix2 (MP.rowAt (m := 64) (n := 128) 64 (by decide) j) o))
local notation "BN" => (fun o : Fin 64 => x7 (ix1 o))
local notation "MSG" => MP.msg zero c16 XR NB RP WS WB WR BE
local notation "HID" => MP.hid XR MSG WX WM BN

/-- The positive part of the edge pre-activation. -/
theorem relu_apply (k : Fin 16) (o : Fin 64) :
    val_main_v23 (F := Ideal) x0 x1 x2 x4 x5 (ix4 b n k o) = max (MP.edge XR (NB k) (RP k) WS WB WR BE o) zero := by
  rw [val_main_v23_apply, edge_apply, val_main_call2_v0_apply, val_main_call2_cst_apply]
  rfl

/-- THE MESSAGE at `(b, n, j)`. -/
theorem msg_apply (j : Fin 64) : val_main_v26 (F := Ideal) x0 x1 x2 x4 x5 (ix3 b n j) = MSG j := by
  unfold MP.msg
  rw [val_main_v26_apply, val_main_v24_apply, val_main_v25_apply, val_main_cst_0_apply, val_main_cst_apply]
  show Ideal.div (Ideal.ofBits .f32 0x00000000#32
    + ∑ k : Fin 16, val_main_v23 (F := Ideal) x0 x1 x2 x4 x5 (idx_main_v24 (ix3 b n j) k)) c16 = _
  rw [zero_init]
  refine congrArg (Ideal.div · c16) (Finset.sum_congr rfl fun k _ => ?_)
  refine (congrArg (val_main_v23 (F := Ideal) x0 x1 x2 x4 x5) (funext fun a => Fin.ext (by
    match a with | ⟨0, _⟩ => rfl | ⟨1, _⟩ => rfl | ⟨2, _⟩ => rfl | ⟨3, _⟩ => rfl))).trans (relu_apply x0 x1 x2 x4 x5 b n k j)

/-- The node's own features through the node weights. -/
theorem hx_apply (o : Fin 64) : val_main_v29 (F := Ideal) x0 x6 (ix3 b n o) = ∑ d : Fin 64, XR d * WX d o := by
  rw [val_main_v29_apply]
  refine Finset.sum_congr rfl fun d _ => congrArg₂ (· * ·) ?_ ?_
  · exact congrArg x0 (funext fun a => Fin.ext (by match a with | ⟨0, _⟩ => rfl | ⟨1, _⟩ => rfl | ⟨2, _⟩ => rfl))
  · refine (congrArg (val_main_v27 (F := Ideal) x6) (funext fun a => Fin.ext (by
      match a with | ⟨0, _⟩ => rfl | ⟨1, _⟩ => rfl))).trans (wx_apply x6 d o)

/-- The message through the node weights. -/
theorem hm_apply (o : Fin 64) :
    val_main_v30 (F := Ideal) x0 x1 x2 x4 x5 x6 (ix3 b n o) = ∑ j : Fin 64, MSG j * WM j o := by
  rw [val_main_v30_apply]
  refine Finset.sum_congr rfl fun j _ => congrArg₂ (· * ·) ?_ ?_
  · refine (congrArg (val_main_v26 (F := Ideal) x0 x1 x2 x4 x5) (funext fun a => Fin.ext (by
      match a with | ⟨0, _⟩ => rfl | ⟨1, _⟩ => rfl | ⟨2, _⟩ => rfl))).trans (msg_apply x0 x1 x2 x4 x5 b n j)
  · refine (congrArg (val_main_v28 (F := Ideal) x6) (funext fun a => Fin.ext (by
      match a with | ⟨0, _⟩ => rfl | ⟨1, _⟩ => rfl))).trans (wm_apply x6 j o)

/-- The node bias repeated over `[4, 20000, 64]`. -/
theorem bn_apply (o : Fin 64) : val_main_v33 (F := Ideal) x7 (ix3 b n o) = x7 (ix1 o) := by
  rw [val_main_v33_apply, val_main_v32_apply]
  exact congrArg x7 (funext fun a => Fin.ext (by match a with | ⟨0, _⟩ => rfl))

/-- THE HIDDEN ROW at `(b, n, o)`. -/
theorem hid_apply (o : Fin 64) : val_main_v34 (F := Ideal) x0 x1 x2 x4 x5 x6 x7 (ix3 b n o) = HID o := by
  unfold MP.hid
  rw [val_main_v34_apply, val_main_v31_apply, hx_apply, hm_apply, bn_apply]
  rfl

/-- The mean of the hidden row, kept with a unit last axis. -/
theorem mean_apply (u : Fin 1) :
    val_main_v38 (F := Ideal) x0 x1 x2 x4 x5 x6 x7 (ix3 b n u) = MP.mean c64 HID := by
  unfold MP.mean
  rw [val_main_v38_apply, val_main_v36_apply, val_main_v35_apply, val_main_v37_apply, val_main_cst_2_apply,
    val_main_cst_1_apply]
  show Ideal.div (Ideal.ofBits .f32 0x00000000#32
    + ∑ k : Fin 64, val_main_v34 (F := Ideal) x0 x1 x2 x4 x5 x6 x7 (idx_main_v35 (idx_main_v36 (ix3 b n u)) k)) c64 = _
  rw [zero_init]
  refine congrArg (Ideal.div · c64) (Finset.sum_congr rfl fun k _ => ?_)
  refine (congrArg (val_main_v34 (F := Ideal) x0 x1 x2 x4 x5 x6 x7) (funext fun a => Fin.ext (by
    match a with | ⟨0, _⟩ => rfl | ⟨1, _⟩ => rfl | ⟨2, _⟩ => rfl))).trans (hid_apply x0 x1 x2 x4 x5 x6 x7 b n k)

/-- The centred hidden row (the copy the variance is taken of). -/
theorem centred_apply (o : Fin 64) :
    val_main_v40 (F := Ideal) x0 x1 x2 x4 x5 x6 x7 (ix3 b n o) = HID o - MP.mean c64 HID := by
  rw [val_main_v40_apply, hid_apply, val_main_v39_apply]
  refine congrArg (HID o - ·) ?_
  refine (congrArg (val_main_v38 (F := Ideal) x0 x1 x2 x4 x5 x6 x7) (funext fun a => Fin.ext (by
    match a with | ⟨0, _⟩ => rfl | ⟨1, _⟩ => rfl | ⟨2, _⟩ => rfl))).trans (mean_apply x0 x1 x2 x4 x5 x6 x7 b n 0)

/-- The centred hidden row (the copy that is scaled). -/
theorem centred'_apply (o : Fin 64) :
    val_main_v47 (F := Ideal) x0 x1 x2 x4 x5 x6 x7 (ix3 b n o) = HID o - MP.mean c64 HID := by
  rw [val_main_v47_apply, hid_apply, val_main_v46_apply]
  refine congrArg (HID o - ·) ?_
  refine (congrArg (val_main_v38 (F := Ideal) x0 x1 x2 x4 x5 x6 x7) (funext fun a => Fin.ext (by
    match a with | ⟨0, _⟩ => rfl | ⟨1, _⟩ => rfl | ⟨2, _⟩ => rfl))).trans (mean_apply x0 x1 x2 x4 x5 x6 x7 b n 0)

/-- The variance of the hidden row, kept with a unit last axis. -/
theorem var_apply (u : Fin 1) :
    val_main_v45 (F := Ideal) x0 x1 x2 x4 x5 x6 x7 (ix3 b n u)
      = Ideal.div (∑ o : Fin 64, (HID o - MP.mean c64 HID) * (HID o - MP.mean c64 HID)) c64 := by
  rw [val_main_v45_apply, val_main_v43_apply, val_main_v42_apply, val_main_v44_apply, val_main_cst_4_apply,
    val_main_cst_3_apply]
  show Ideal.div (Ideal.ofBits .f32 0x00000000#32
    + ∑ k : Fin 64, val_main_v41 (F := Ideal) x0 x1 x2 x4 x5 x6 x7 (idx_main_v42 (idx_main_v43 (ix3 b n u)) k)) c64 = _
  rw [zero_init]
  refine congrArg (Ideal.div · c64) (Finset.sum_congr rfl fun k _ => ?_)
  refine (congrArg (val_main_v41 (F := Ideal) x0 x1 x2 x4 x5 x6 x7) (funext fun a => Fin.ext (by
    match a with | ⟨0, _⟩ => rfl | ⟨1, _⟩ => rfl | ⟨2, _⟩ => rfl) :
      idx_main_v42 (idx_main_v43 (ix3 b n u)) k = ix3 b n k)).trans ?_
  rw [val_main_v41_apply, centred_apply]
  rfl

/-- The reciprocal square root of variance plus epsilon, repeated along the channels. -/
theorem rstd_apply (o : Fin 64) :
    val_main_v51 (F := Ideal) x0 x1 x2 x4 x5 x6 x7 (ix3 b n o)
      = Ideal.rsqrt (Ideal.div (∑ o : Fin 64, (HID o - MP.mean c64 HID) * (HID o - MP.mean c64 HID)) c64 + eps) := by
  rw [val_main_v51_apply]
  refine (congrArg (val_main_v50 (F := Ideal) x0 x1 x2 x4 x5 x6 x7) (funext fun a => Fin.ext (by
    match a with | ⟨0, _⟩ => rfl | ⟨1, _⟩ => rfl | ⟨2, _⟩ => rfl) :
      idx_main_v51 (ix3 b n o) = ix3 b n (0 : Fin 1))).trans ?_
  rw [val_main_v50_apply, val_main_v49_apply, var_apply, val_main_v48_apply, val_main_cst_5_apply]
  rfl

/-- THE REFERENCE'S RESULT at `(b, n, q)` is the layer's. -/
theorem result_apply (q : Fin 64) :
    val_main_v62 (F := Ideal) x0 x1 x2 x3 x4 x5 x6 x7 x8 x9 (ix3 b n q)
      = MP.layer zero c16 c64 eps x0 (val_main_v3 (F := Ideal) x0 x2) (val_main_v9 (F := Ideal) x1 x2) x3 x4 x5 x6 x7 x8 x9
          b n q := by
  have hg : val_main_v54 (F := Ideal) x8 (ix3 b n q) = x8 (ix1 q) := by
    rw [val_main_v54_apply, val_main_v53_apply]
    exact congrArg x8 (funext fun a => Fin.ext (by match a with | ⟨0, _⟩ => rfl))
  have hb : val_main_v57 (F := Ideal) x9 (ix3 b n q) = x9 (ix1 q) := by
    rw [val_main_v57_apply, val_main_v56_apply]
    exact congrArg x9 (funext fun a => Fin.ext (by match a with | ⟨0, _⟩ => rfl))
  have hk : val_main_v61 (F := Ideal) x3 (ix3 b n q) = x3 (ix2 b n) := by
    rw [val_main_v61_apply, val_main_v60_apply]
    exact congrArg x3 (funext fun a => Fin.ext (by match a with | ⟨0, _⟩ => rfl | ⟨1, _⟩ => rfl))
  unfold MP.layer MP.node MP.norm
  rw [val_main_v62_apply, val_main_v59_apply, val_main_v58_apply, val_main_v55_apply, val_main_v52_apply,
    centred'_apply, rstd_apply, hg, hb, hk, val_main_call3_v0_apply, val_main_call3_cst_apply]
  rfl

end Cert.ReferenceIdeal.Row

end
-- ==== Proof.lean ====
/-
  The proof of `Cert.Claim`: a message-passing layer as a tiled kernel against its plain reference.

  Both programs gather, per node, sixteen neighbour feature rows and relative positions (the same host computation in
  both, never opened), and compute for every node the positive part of a layer-normalised hidden row: the hidden row is
  the node's features and the mean of the positive parts of sixteen edge pre-activations through two weight blocks, and
  an edge pre-activation is three dot products and a bias. The kernel does this for a thousand nodes at a time on blocks,
  with matrix products into zero accumulators and narrower formats on the way in; the reference does it for the whole
  arrays with contractions and host sums. On the extended reals format changes are the identity and every product or sum
  is the plain finite sum, so both results are `Cert.MP.layer` of the arguments at every index; the one algebraic
  difference is the order in which the three dot products of the edge pre-activation are added, and addition of extended
  reals is commutative and associative, so finiteness of the inputs is never used.

  * the kernel's frames are the generated ones; the reference's frame is its run with the result dropped;
  * the idealization rewrote nothing, so `preserves` is `True`;
  * `algebraic`: the kernel's result array (blocks to array, `Cert.KernelIdeal.Final`) and the reference's last stage
    (`Cert.ReferenceIdeal.Row`) are the same function of the arguments.
-/
import proofs.«150312_j88218628260532_1_alg».proof.Defs
import proofs.«150312_j88218628260532_1_alg».proof.Proof.Gen.Kernel
import proofs.«150312_j88218628260532_1_alg».proof.Proof.Gen.Kernel.Frame
import proofs.«150312_j88218628260532_1_alg».proof.Proof.Gen.KernelIdeal
import proofs.«150312_j88218628260532_1_alg».proof.Proof.Gen.KernelIdeal.Frame
import proofs.«150312_j88218628260532_1_alg».proof.Proof.Gen.KernelIdeal.Value
import proofs.«150312_j88218628260532_1_alg».proof.Proof.Gen.ReferenceIdeal
import proofs.«150312_j88218628260532_1_alg».proof.Proof.Gen.Pre_finite_inputs
import proofs.«150312_j88218628260532_1_alg».proof.Proof.KernelLayer
import proofs.«150312_j88218628260532_1_alg».proof.Proof.RefRun
import proofs.«150312_j88218628260532_1_alg».proof.Proof.RefRow
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments as they were: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array and the reference's are the layer's function of arguments that
    agree: equal at every batch, node and channel. -/
theorem algebraic : Cert.algebraic_KernelIdeal_ReferenceIdeal := by
  intro m ρ m' ρ' _ hagree
  refine ⟨fun c => Cert.KernelIdeal.Final.G m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [e0, e1, e2, e3, e4, e5, e6, e7, e8, e9]
  funext i
  obtain ⟨b, n, q, rfl⟩ : ∃ (b : Fin 4) (n : Fin 20000) (q : Fin 64), i = ix3 b n q := ⟨i 0, i 1, i 2, eq_ix3 i⟩
  exact Cert.ReferenceIdeal.Row.result_apply _ _ _ _ _ _ _ _ _ _ b n q

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
